-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x2048 : Shape := ⟨3, ![32, 3, 2048]⟩
abbrev S1024x3 : Shape := ⟨2, ![1024, 3]⟩
abbrev S1024 : Shape := ⟨1, ![1024]⟩
abbrev S256x1024 : Shape := ⟨2, ![256, 1024]⟩
abbrev S256 : Shape := ⟨1, ![256]⟩
abbrev S256x256 : Shape := ⟨2, ![256, 256]⟩
abbrev S256x1280 : Shape := ⟨2, ![256, 1280]⟩
abbrev S512x1536 : Shape := ⟨2, ![512, 1536]⟩
abbrev S512 : Shape := ⟨1, ![512]⟩
abbrev S_ : Shape := ⟨0, ![]⟩

class Facts : Prop where
  bcast_S_S32x3x2048 : S_.BroadcastsInDim S32x3x2048 (![] : Fin 0 → Fin S32x3x2048.rank)
  reducesTo_S32x3x2048_S_d0_1_2 : S32x3x2048.ReducesTo [0, 1, 2] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1280 : S_.BroadcastsInDim S256x1280 (![] : Fin 0 → Fin S256x1280.rank)
  reducesTo_S256x1280_S_d0_1 : S256x1280.ReducesTo [0, 1] S_
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_

variable [Facts]

def fn_part6 {F : FTy → Type} [FloatOps F] (main_arg21 : FVec F S512 .f32) (main_arg22 : FVec F S512 .f32) (main_arg23 : FVec F S512 .f32) (main_v98 : IVec S_ 1) (main_v101 : IVec S512x1536 1) (main_c_39 : IVec S_ 1) : IVec S_ 1 :=
  let main_v102 : IVec S_ 1 := (fun x v => Host.reduce IntOp.andi x v reducesTo_S512x1536_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  main_v118

def fn_part5 {F : FTy → Type} [FloatOps F] (main_arg18 : FVec F S256 .f32) (main_arg19 : FVec F S256 .f32) (main_arg20 : FVec F S512x1536 .f32) (main_arg21 : FVec F S512 .f32) (main_arg22 : FVec F S512 .f32) (main_arg23 : FVec F S512 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S512x1536 .f32 := Host.absf main_arg20
  let main_cst_38 : FVec F S_ .f32 := constant S_ .f32 0x7F800000#32
  let main_v100 : FVec F S512x1536 .f32 := broadcastInDim S512x1536 ![] bcast_S_S512x1536 main_cst_38
  let main_v101 : IVec S512x1536 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S512x1536 .f32) (main_arg21 : FVec F S512 .f32) (main_arg22 : FVec F S512 .f32) (main_arg23 : FVec F S512 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S256 .f32) (main_arg12 : FVec F S256x1280 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S512x1536 .f32) (main_arg21 : FVec F S512 .f32) (main_arg22 : FVec F S512 .f32) (main_arg23 : FVec F S512 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1280 .f32 := Host.absf main_arg12
  let main_cst_22 : FVec F S_ .f32 := constant S_ .f32 0x7F800000#32
  let main_v60 : FVec F S256x1280 .f32 := broadcastInDim S256x1280 ![] bcast_S_S256x1280 main_cst_22
  let main_v61 : IVec S256x1280 1 := cmpf .olt main_v59 main_v60
  let main_c_23 : IVec S_ 1 := constantI S_ 1 1#1
  let main_v62 : IVec S_ 1 := (fun x v => Host.reduce IntOp.andi x v reducesTo_S256x1280_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_arg12 : FVec F S256x1280 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S512x1536 .f32) (main_arg21 : FVec F S512 .f32) (main_arg22 : FVec F S512 .f32) (main_arg23 : FVec F S512 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S256x1024 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256x1280 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S512x1536 .f32) (main_arg21 : FVec F S512 .f32) (main_arg22 : FVec F S512 .f32) (main_arg23 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S32x3x2048 .f32) (main_arg1 : FVec F S1024x3 .f32) (main_arg2 : FVec F S1024 .f32) (main_arg3 : FVec F S1024 .f32) (main_arg4 : FVec F S256x1024 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256x1280 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S512x1536 .f32) (main_arg21 : FVec F S512 .f32) (main_arg22 : FVec F S512 .f32) (main_arg23 : FVec F S512 .f32) : IVec S_ 1 :=
  let main_v0 : FVec F S32x3x2048 .f32 := Host.absf main_arg0
  let main_cst : FVec F S_ .f32 := constant S_ .f32 0x7F800000#32
  let main_v1 : FVec F S32x3x2048 .f32 := broadcastInDim S32x3x2048 ![] bcast_S_S32x3x2048 main_cst
  let main_v2 : IVec S32x3x2048 1 := cmpf .olt main_v0 main_v1
  let main_c : IVec S_ 1 := constantI S_ 1 1#1
  let main_v3 : IVec S_ 1 := (fun x v => Host.reduce IntOp.andi x v reducesTo_S32x3x2048_S_d0_1_2 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S32x3x2048 : Shape := ⟨3, ![32, 3, 2048]⟩
abbrev S1024x3 : Shape := ⟨2, ![1024, 3]⟩
abbrev S1024 : Shape := ⟨1, ![1024]⟩
abbrev S256x1024 : Shape := ⟨2, ![256, 1024]⟩
abbrev S256 : Shape := ⟨1, ![256]⟩
abbrev S256x256 : Shape := ⟨2, ![256, 256]⟩
abbrev S256x1280 : Shape := ⟨2, ![256, 1280]⟩
abbrev S512x1536 : Shape := ⟨2, ![512, 1536]⟩
abbrev S512 : Shape := ⟨1, ![512]⟩
abbrev S32x1024 : Shape := ⟨2, ![32, 1024]⟩
abbrev S8x3x2048 : Shape := ⟨3, ![8, 3, 2048]⟩
abbrev S8x1024 : Shape := ⟨2, ![8, 1024]⟩
abbrev S1024x5 : Shape := ⟨2, ![1024, 5]⟩
abbrev S1024x8 : Shape := ⟨2, ![1024, 8]⟩
abbrev S1x3x2048 : Shape := ⟨3, ![1, 3, 2048]⟩
abbrev S3x2048 : Shape := ⟨2, ![3, 2048]⟩
abbrev S2048 : Shape := ⟨1, ![2048]⟩
abbrev S1x2048 : Shape := ⟨2, ![1, 2048]⟩
abbrev S5x2048 : Shape := ⟨2, ![5, 2048]⟩
abbrev S8x2048 : Shape := ⟨2, ![8, 2048]⟩
abbrev S1024x2048 : Shape := ⟨2, ![1024, 2048]⟩
abbrev S1x1024 : Shape := ⟨2, ![1, 1024]⟩
abbrev S32x512 : Shape := ⟨2, ![32, 512]⟩
abbrev S32x256 : Shape := ⟨2, ![32, 256]⟩
abbrev S1x256 : Shape := ⟨2, ![1, 256]⟩
abbrev S32x1280 : Shape := ⟨2, ![32, 1280]⟩
abbrev S32x1536 : Shape := ⟨2, ![32, 1536]⟩
abbrev S1x512 : Shape := ⟨2, ![1, 512]⟩

abbrev nBuf : Space → Nat
  | .hbm => 26
  | .vmem => 29
  | .smem => 0
  | _ => 0

abbrev bufTy : (tb : Table) → Fin (tcTables nBuf tb) → BufTy
  | .hbm, ⟨0, _⟩ => ⟨S32x3x2048, .f32⟩
  | .hbm, ⟨1, _⟩ => ⟨S1024x3, .f32⟩
  | .hbm, ⟨2, _⟩ => ⟨S1024, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x1280, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S512x1536, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S32x1024, .f32⟩
  | .hbm, ⟨25, _⟩ => ⟨S32x512, .f32⟩
  | .local _ .vmem, ⟨0, _⟩ => ⟨S8x3x2048, .f32⟩
  | .local _ .vmem, ⟨1, _⟩ => ⟨S8x3x2048, .f32⟩
  | .local _ .vmem, ⟨2, _⟩ => ⟨S1024x3, .f32⟩
  | .local _ .vmem, ⟨3, _⟩ => ⟨S8x1024, .f32⟩
  | .local _ .vmem, ⟨4, _⟩ => ⟨S8x1024, .f32⟩
  | .local _ .vmem, ⟨5, _⟩ => ⟨S32x1024, .f32⟩
  | .local _ .vmem, ⟨6, _⟩ => ⟨S1024, .f32⟩
  | .local _ .vmem, ⟨7, _⟩ => ⟨S1024, .f32⟩
  | .local _ .vmem, ⟨8, _⟩ => ⟨S256x1024, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256x1280, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S256x256, .f32⟩
  | .local _ .vmem, ⟨21, _⟩ => ⟨S256, .f32⟩
  | .local _ .vmem, ⟨22, _⟩ => ⟨S256, .f32⟩
  | .local _ .vmem, ⟨23, _⟩ => ⟨S256, .f32⟩
  | .local _ .vmem, ⟨24, _⟩ => ⟨S512x1536, .f32⟩
  | .local _ .vmem, ⟨25, _⟩ => ⟨S512, .f32⟩
  | .local _ .vmem, ⟨26, _⟩ => ⟨S512, .f32⟩
  | .local _ .vmem, ⟨27, _⟩ => ⟨S512, .f32⟩
  | .local _ .vmem, ⟨28, _⟩ => ⟨S32x512, .f32⟩
  | _, _ => ⟨S32x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc1_stg13_0 : Ref sig .tc := ⟨.vmem, 18, rfl⟩
abbrev cc1_stg14_0 : Ref sig .tc := ⟨.vmem, 19, rfl⟩
abbrev cc1_stg15_0 : Ref sig .tc := ⟨.vmem, 20, rfl⟩
abbrev cc1_stg16_0 : Ref sig .tc := ⟨.vmem, 21, rfl⟩
abbrev cc1_stg17_0 : Ref sig .tc := ⟨.vmem, 22, rfl⟩
abbrev cc1_stg18_0 : Ref sig .tc := ⟨.vmem, 23, rfl⟩
abbrev cc1_stg19_0 : Ref sig .tc := ⟨.vmem, 24, rfl⟩
abbrev cc1_stg20_0 : Ref sig .tc := ⟨.vmem, 25, rfl⟩
abbrev cc1_stg21_0 : Ref sig .tc := ⟨.vmem, 26, rfl⟩
abbrev cc1_stg22_0 : Ref sig .tc := ⟨.vmem, 27, rfl⟩
abbrev cc1_stg23_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc1_sem16_0 : DmaSem sig := 21
abbrev cc1_sem17_0 : DmaSem sig := 22
abbrev cc1_sem18_0 : DmaSem sig := 23
abbrev cc1_sem19_0 : DmaSem sig := 24
abbrev cc1_sem20_0 : DmaSem sig := 25
abbrev cc1_sem21_0 : DmaSem sig := 26
abbrev cc1_sem22_0 : DmaSem sig := 27
abbrev cc1_sem23_0 : DmaSem sig := 28

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v9 : Index := Scalar.indexCast arg4
  let c0_4 : Index := 0#32
  let c0_5 : Index := 0#32
  ![v9.toNat, 0, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let v26 : Index := Scalar.indexCast arg4
  let c0_11 : Index := 0#32
  ![v26.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_17 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_18 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_21 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_22 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x1280 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S512x1536 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S512 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S512 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S512 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S32x512 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

class Facts₀ : Prop where
  inb_S1024x3_S1024x3_0_0 : ∀ a, (![0, 0] : Fin 2 → Nat) a + S1024x3.size a ≤ S1024x3.size a
  h_S1024x3 : 0 < S1024x3.numel
  reduces_S1024x3_S1024 : S1024x3.Reduces [1] S1024
  concatenates_S1024x3_S1024x5_S1024x8_d1 : Shape.Concatenates [S1024x3, S1024x5] S1024x8 1
  bitsLt_bf16_f32 : FTy.bits .bf16 < FTy.bits .f32
  h_S1x3x2048 : 0 < S1x3x2048.numel
  shapeCasts_S1x3x2048_S3x2048 : S1x3x2048.ShapeCasts S3x2048
  reduces_S3x2048_S2048 : S3x2048.Reduces [0] S2048
  shapeCasts_S2048_S1x2048 : S2048.ShapeCasts S1x2048
  concatenates_S3x2048_S5x2048_S8x2048_d0 : Shape.Concatenates [S3x2048, S5x2048] S8x2048 0
  broadcasts_S1x2048_S1024x2048 : S1x2048.Broadcasts S1024x2048
  reduces_S1024x2048_S1024 : S1024x2048.Reduces [1] S1024
  h_S1x1024 : 0 < S1x1024.numel
  shapeCasts_S1x1024_S1024 : S1x1024.ShapeCasts S1024
  shapeCasts_S1024_S1x1024 : S1024.ShapeCasts S1x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024_S1024_0 : ∀ a, (![0] : Fin 1 → Nat) a + S1024.size a ≤ S1024.size a
  h_S1024 : 0 < S1024.numel
  reduces_S32x1024_S1024 : S32x1024.Reduces [0] S1024
  broadcasts_S1x1024_S32x1024 : S1x1024.Broadcasts S32x1024
  inb_S256x1024_S256x1024_0_0 : ∀ a, (![0, 0] : Fin 2 → Nat) a + S256x1024.size a ≤ S256x1024.size a
  h_S256x1024 : 0 < S256x1024.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  reduces_S32x256_S256 : S32x256.Reduces [0] S256
  inb_S256x256_S256x256_0_0 : ∀ a, (![0, 0] : Fin 2 → Nat) a + S256x256.size a ≤ S256x256.size a
  h_S256x256 : 0 < S256x256.numel
  concatenates_S32x1024_S32x256_S32x1280_d1 : Shape.Concatenates [S32x1024, S32x256] S32x1280 1
  inb_S256x1280_S256x1280_0_0 : ∀ a, (![0, 0] : Fin 2 → Nat) a + S256x1280.size a ≤ S256x1280.size a
  h_S256x1280 : 0 < S256x1280.numel
  concatenates_S32x1024_S32x256_S32x256_S32x1536_d1 : Shape.Concatenates [S32x1024, S32x256, S32x256] S32x1536 1
  inb_S512x1536_S512x1536_0_0 : ∀ a, (![0, 0] : Fin 2 → Nat) a + S512x1536.size a ≤ S512x1536.size a
  h_S512x1536 : 0 < S512x1536.numel
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  reduces_S32x512_S512 : S32x512.Reduces [0] S512
  inb_S32x512_S32x512_0_0 : ∀ a, (![0, 0] : Fin 2 → Nat) a + S32x512.size a ≤ S32x512.size a
  h_S32x512 : 0 < S32x512.numel
  dot_S1024x8_S8x2048_S1024x2048_1_0_0_1_n_n_wf : DotDims.WF S1024x8 S8x2048 S1024x2048 [1] [0] [0] [1] [] []
  dot_S32x1024_S256x1024_S32x256_1_1_0_0_n_n_wf : DotDims.WF S32x1024 S256x1024 S32x256 [1] [1] [0] [0] [] []
  dot_S32x256_S256x256_S32x256_1_1_0_0_n_n_wf : DotDims.WF S32x256 S256x256 S32x256 [1] [1] [0] [0] [] []
  dot_S32x1280_S256x1280_S32x256_1_1_0_0_n_n_wf : DotDims.WF S32x1280 S256x1280 S32x256 [1] [1] [0] [0] [] []
  dot_S32x1536_S512x1536_S32x512_1_1_0_0_n_n_wf : DotDims.WF S32x1536 S512x1536 S32x512 [1] [1] [0] [0] [] []
  hrank0 : 0 < grid0.rank
  k0_t1_ok : k0_t1_loop.OK
  k0_off1_inb : ∀ k0_t1 : Fin k0_t1_loop.trips, ∀ a, (k0_off1 k0_t1) a + S1x3x2048.size a ≤ S8x3x2048.size a
  k0_off2_inb : ∀ k0_t1 : Fin k0_t1_loop.trips, ∀ a, (k0_off2 k0_t1) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x2048.size a ≤ S32x3x2048.size a
  hwx0_0 : ∀ i : grid0.Coords, EltTy.bits .f32 = 32 ∨ (Rect.block (s := S32x3x2048) S8x3x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S1024x3.size a
  hwx0_1 : ∀ i : grid0.Coords, EltTy.bits .f32 = 32 ∨ (Rect.block (s := S1024x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x1024.size a
  hwx0_2 : ∀ i : grid0.Coords, EltTy.bits .f32 = 32 ∨ (Rect.block (s := S32x1024) S8x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x1024.size a
  hwx1_0 : ∀ i : grid1.Coords, EltTy.bits .f32 = 32 ∨ (Rect.block (s := S32x1024) S32x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .f32 = 32 ∨ (Rect.block (s := S1024) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .f32 = 32 ∨ (Rect.block (s := S256x1024) S256x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256.size a ≤ S256.size a
  hwx1_9 : ∀ i : grid1.Coords, EltTy.bits .f32 = 32 ∨ (Rect.block (s := S256) S256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256.size a ≤ S256.size a
  hwx1_10 : ∀ i : grid1.Coords, EltTy.bits .f32 = 32 ∨ (Rect.block (s := S256) S256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x1280.size a ≤ S256x1280.size a
  hwx1_11 : ∀ i : grid1.Coords, EltTy.bits .f32 = 32 ∨ (Rect.block (s := S256x1280) S256x1280.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256.size a ≤ S256.size a
  hwx1_12 : ∀ i : grid1.Coords, EltTy.bits .f32 = 32 ∨ (Rect.block (s := S256) S256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256.size a ≤ S256.size a
  hwx1_13 : ∀ i : grid1.Coords, EltTy.bits .f32 = 32 ∨ (Rect.block (s := S256) S256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256.size a ≤ S256.size a
  hwx1_14 : ∀ i : grid1.Coords, EltTy.bits .f32 = 32 ∨ (Rect.block (s := S256) S256.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S256x256.size a ≤ S256x256.size a
  hwx1_15 : ∀ i : grid1.Coords, EltTy.bits .f32 = 32 ∨ (Rect.block (s := S256x256) S256x256.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S256.size a ≤ S256.size a
  hwx1_16 : ∀ i : grid1.Coords, EltTy.bits .f32 = 32 ∨ (Rect.block (s := S256) S256.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S256.size a ≤ S256.size a
  hwx1_17 : ∀ i : grid1.Coords, EltTy.bits .f32 = 32 ∨ (Rect.block (s := S256) S256.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S256.size a ≤ S256.size a
  hwx1_18 : ∀ i : grid1.Coords, EltTy.bits .f32 = 32 ∨ (Rect.block (s := S256) S256.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S512x1536.size a ≤ S512x1536.size a
  hwx1_19 : ∀ i : grid1.Coords, EltTy.bits .f32 = 32 ∨ (Rect.block (s := S512x1536) S512x1536.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S512.size a ≤ S512.size a
  hwx1_20 : ∀ i : grid1.Coords, EltTy.bits .f32 = 32 ∨ (Rect.block (s := S512) S512.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S512.size a ≤ S512.size a
  hwx1_21 : ∀ i : grid1.Coords, EltTy.bits .f32 = 32 ∨ (Rect.block (s := S512) S512.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S512.size a ≤ S512.size a
  hwx1_22 : ∀ i : grid1.Coords, EltTy.bits .f32 = 32 ∨ (Rect.block (s := S512) S512.size (cc1_transform_22 i) (hinb1_22 i)).WholeWords (EltTy.packing .f32)
  hstage1_23 : ∀ j, (stage1_23 j).IsWhole
  nbuf1_23 : grid1.bufCount reads1_23 true = 1
  hreads1_23 : ∀ i i' : grid1.Coords, (∀ a, reads1_23 a = true → i a = i' a) → cc1_transform_23 i = cc1_transform_23 i'
  hinb1_23 : ∀ (i : grid1.Coords) a, (cc1_transform_23 i a + 1) * S32x512.size a ≤ S32x512.size a
  hwx1_23 : ∀ i : grid1.Coords, EltTy.bits .f32 = 32 ∨ (Rect.block (s := S32x512) S32x512.size (cc1_transform_23 i) (hinb1_23 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S32x1024_S256x1024_S32x256_1_1_0_0_n_n : DotDims S32x1024 S256x1024 S32x256 where
  lhsContracting := [1]
  rhsContracting := [1]
  lhsNonContracting := [0]
  rhsNonContracting := [0]
  lhsBatch := []
  rhsBatch := []
  wf := dot_S32x1024_S256x1024_S32x256_1_1_0_0_n_n_wf
def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf
def dot_S32x1280_S256x1280_S32x256_1_1_0_0_n_n : DotDims S32x1280 S256x1280 S32x256 where
  lhsContracting := [1]
  rhsContracting := [1]
  lhsNonContracting := [0]
  rhsNonContracting := [0]
  lhsBatch := []
  rhsBatch := []
  wf := dot_S32x1280_S256x1280_S32x256_1_1_0_0_n_n_wf
def dot_S32x1536_S512x1536_S32x512_1_1_0_0_n_n : DotDims S32x1536 S512x1536 S32x512 where
  lhsContracting := [1]
  rhsContracting := [1]
  lhsNonContracting := [0]
  rhsNonContracting := [0]
  lhsBatch := []
  rhsBatch := []
  wf := dot_S32x1536_S512x1536_S32x512_1_1_0_0_n_n_wf

abbrev win0_0 : Pipeline.Window sig grid0 :=
  Pipeline.Window.ofSpec (Memref.whole main_arg0) S8x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S256x1280.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg13) S256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg14) S256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg15) S256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg16) S256x256.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_arg17) S256.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg18) S256.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_arg19) S256.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_arg20) S512x1536.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_arg21) S512.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_arg22) S512.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_arg23) S512.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v1) S32x512.size cc1_transform_23 reads1_23 true true 1 stage1_23 sem1_23
    hrank1 hreads1_23 hinb1_23 nbuf1_23 (Memref.isWhole_whole _) hwx1_23 hstage1_23

abbrev win1 : Fin 24 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | ⟨_ + 24, h⟩ => absurd h (Nat.not_lt.2 (Nat.le_add_left _ _))
abbrev spec1 : Fin 24 → Pipeline.WinSpec sig grid1.rank := fun w => (win1 w).toWinSpec

class Facts : Prop extends Facts₀ where

variable [Facts]
-- ==== ReferenceIdeal.lean ====
abbrev S32x3x2048 : Shape := ⟨3, ![32, 3, 2048]⟩
abbrev S1024x3 : Shape := ⟨2, ![1024, 3]⟩
abbrev S1024 : Shape := ⟨1, ![1024]⟩
abbrev S256x1024 : Shape := ⟨2, ![256, 1024]⟩
abbrev S256 : Shape := ⟨1, ![256]⟩
abbrev S256x256 : Shape := ⟨2, ![256, 256]⟩
abbrev S256x1280 : Shape := ⟨2, ![256, 1280]⟩
abbrev S512x1536 : Shape := ⟨2, ![512, 1536]⟩
abbrev S512 : Shape := ⟨1, ![512]⟩
abbrev S32x2048x3 : Shape := ⟨3, ![32, 2048, 3]⟩
abbrev S65536x3 : Shape := ⟨2, ![65536, 3]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1024 : Shape := ⟨2, ![65536, 1024]⟩
abbrev S3x1024 : Shape := ⟨2, ![3, 1024]⟩
abbrev S32x2048x1024 : Shape := ⟨3, ![32, 2048, 1024]⟩
abbrev S32x1024 : Shape := ⟨2, ![32, 1024]⟩
abbrev S1024x256 : Shape := ⟨2, ![1024, 256]⟩
abbrev S32x256 : Shape := ⟨2, ![32, 256]⟩
abbrev S1x256 : Shape := ⟨2, ![1, 256]⟩
abbrev S32x1280 : Shape := ⟨2, ![32, 1280]⟩
abbrev S1280x256 : Shape := ⟨2, ![1280, 256]⟩
abbrev S32x1536 : Shape := ⟨2, ![32, 1536]⟩
abbrev S1536x512 : Shape := ⟨2, ![1536, 512]⟩
abbrev S32x512 : Shape := ⟨2, ![32, 512]⟩
abbrev S1x512 : Shape := ⟨2, ![1, 512]⟩

abbrev nBuf : Space → Nat
  | .hbm => 356
  | .vmem => 0
  | .smem => 0
  | _ => 0

abbrev hbmTy0_0 (i : Nat) : BufTy := match i % 128 with
  | 0 => ⟨S32x3x2048, .f32⟩
  | 1 => ⟨S1024x3, .f32⟩
  | 2 => ⟨S1024, .f32⟩
  | 3 => ⟨S1024, .f32⟩
  | 4 => ⟨S256x1024, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S256x1280, .f32⟩
  | 13 => ⟨S256, .f32⟩
  | 14 => ⟨S256, .f32⟩
  | 15 => ⟨S256, .f32⟩
  | 16 => ⟨S256x256, .f32⟩
  | 17 => ⟨S256, .f32⟩
  | 18 => ⟨S256, .f32⟩
  | 19 => ⟨S256, .f32⟩
  | 20 => ⟨S512x1536, .f32⟩
  | 21 => ⟨S512, .f32⟩
  | 22 => ⟨S512, .f32⟩
  | 23 => ⟨S512, .f32⟩
  | 24 => ⟨S32x2048x3, .f32⟩
  | 25 => ⟨S65536x3, .f32⟩
  | 26 => ⟨S65536x3, .f32⟩
  | 27 => ⟨S_, .f32⟩
  | 28 => ⟨S65536, .f32⟩
  | 29 => ⟨S65536x1, .f32⟩
  | 30 => ⟨S1024x3, .f32⟩
  | 31 => ⟨S_, .f32⟩
  | 32 => ⟨S1024, .f32⟩
  | 33 => ⟨S1x1024, .f32⟩
  | 34 => ⟨S65536x1024, .f32⟩
  | 35 => ⟨S65536x1024, .f32⟩
  | 36 => ⟨S65536x1024, .f32⟩
  | 37 => ⟨S3x1024, .f32⟩
  | 38 => ⟨S65536x1024, .f32⟩
  | 39 => ⟨S_, .f32⟩
  | 40 => ⟨S65536x1024, .f32⟩
  | 41 => ⟨S65536x1024, .f32⟩
  | 42 => ⟨S65536x1024, .f32⟩
  | 43 => ⟨S_, .f32⟩
  | 44 => ⟨S65536x1024, .f32⟩
  | 45 => ⟨S65536x1024, .f32⟩
  | 46 => ⟨S32x2048x1024, .f32⟩
  | 47 => ⟨S_, .f32⟩
  | 48 => ⟨S32x1024, .f32⟩
  | 49 => ⟨S32x1024, .f32⟩
  | 50 => ⟨S_, .f32⟩
  | 51 => ⟨S1024, .f32⟩
  | 52 => ⟨S_, .f32⟩
  | 53 => ⟨S1024, .f32⟩
  | 54 => ⟨S1024, .f32⟩
  | 55 => ⟨S_, .i32⟩
  | 56 => ⟨S_, .f32⟩
  | 57 => ⟨S1024, .f32⟩
  | 58 => ⟨S1x1024, .f32⟩
  | 59 => ⟨S_, .f32⟩
  | 60 => ⟨S1x1024, .f32⟩
  | 61 => ⟨S1x1024, .f32⟩
  | 62 => ⟨S32x1024, .f32⟩
  | 63 => ⟨S32x1024, .f32⟩
  | 64 => ⟨S32x1024, .f32⟩
  | 65 => ⟨S_, .f32⟩
  | 66 => ⟨S_, .f32⟩
  | 67 => ⟨S_, .f32⟩
  | 68 => ⟨S_, .f32⟩
  | 69 => ⟨S1024, .f32⟩
  | 70 => ⟨S1024, .f32⟩
  | 71 => ⟨S1024, .f32⟩
  | 72 => ⟨S_, .f32⟩
  | 73 => ⟨S_, .i1⟩
  | 74 => ⟨S_, .f32⟩
  | 75 => ⟨S_, .f32⟩
  | 76 => ⟨S1024, .f32⟩
  | 77 => ⟨S1024, .f32⟩
  | 78 => ⟨S1x1024, .f32⟩
  | 79 => ⟨S32x1024, .f32⟩
  | 80 => ⟨S32x1024, .f32⟩
  | 81 => ⟨S_, .f32⟩
  | 82 => ⟨S1024, .f32⟩
  | 83 => ⟨S1024, .f32⟩
  | 84 => ⟨S1024, .f32⟩
  | 85 => ⟨S1x1024, .f32⟩
  | 86 => ⟨S32x1024, .f32⟩
  | 87 => ⟨S32x1024, .f32⟩
  | 88 => ⟨S1x1024, .f32⟩
  | 89 => ⟨S32x1024, .f32⟩
  | 90 => ⟨S32x1024, .f32⟩
  | 91 => ⟨S1x1024, .f32⟩
  | 92 => ⟨S32x1024, .f32⟩
  | 93 => ⟨S32x1024, .f32⟩
  | 94 => ⟨S1024x256, .f32⟩
  | 95 => ⟨S32x256, .f32⟩
  | 96 => ⟨S1x256, .f32⟩
  | 97 => ⟨S32x256, .f32⟩
  | 98 => ⟨S32x256, .f32⟩
  | 99 => ⟨S_, .f32⟩
  | 100 => ⟨S32x256, .f32⟩
  | 101 => ⟨S32x256, .f32⟩
  | 102 => ⟨S_, .f32⟩
  | 103 => ⟨S256, .f32⟩
  | 104 => ⟨S_, .f32⟩
  | 105 => ⟨S256, .f32⟩
  | 106 => ⟨S256, .f32⟩
  | 107 => ⟨S_, .i32⟩
  | 108 => ⟨S_, .f32⟩
  | 109 => ⟨S256, .f32⟩
  | 110 => ⟨S1x256, .f32⟩
  | 111 => ⟨S_, .f32⟩
  | 112 => ⟨S1x256, .f32⟩
  | 113 => ⟨S1x256, .f32⟩
  | 114 => ⟨S32x256, .f32⟩
  | 115 => ⟨S32x256, .f32⟩
  | 116 => ⟨S32x256, .f32⟩
  | 117 => ⟨S_, .f32⟩
  | 118 => ⟨S_, .f32⟩
  | 119 => ⟨S_, .f32⟩
  | 120 => ⟨S_, .f32⟩
  | 121 => ⟨S256, .f32⟩
  | 122 => ⟨S256, .f32⟩
  | 123 => ⟨S256, .f32⟩
  | 124 => ⟨S_, .f32⟩
  | 125 => ⟨S_, .i1⟩
  | 126 => ⟨S_, .f32⟩
  | 127 => ⟨S_, .f32⟩
  | _ => ⟨S32x3x2048, .f32⟩

abbrev hbmTy0_1 (i : Nat) : BufTy := match i % 128 with
  | 0 => ⟨S256, .f32⟩
  | 1 => ⟨S256, .f32⟩
  | 2 => ⟨S1x256, .f32⟩
  | 3 => ⟨S32x256, .f32⟩
  | 4 => ⟨S32x256, .f32⟩
  | 5 => ⟨S_, .f32⟩
  | 6 => ⟨S256, .f32⟩
  | 7 => ⟨S256, .f32⟩
  | 8 => ⟨S256, .f32⟩
  | 9 => ⟨S1x256, .f32⟩
  | 10 => ⟨S32x256, .f32⟩
  | 11 => ⟨S32x256, .f32⟩
  | 12 => ⟨S1x256, .f32⟩
  | 13 => ⟨S32x256, .f32⟩
  | 14 => ⟨S32x256, .f32⟩
  | 15 => ⟨S1x256, .f32⟩
  | 16 => ⟨S32x256, .f32⟩
  | 17 => ⟨S32x256, .f32⟩
  | 18 => ⟨S256x256, .f32⟩
  | 19 => ⟨S32x256, .f32⟩
  | 20 => ⟨S1x256, .f32⟩
  | 21 => ⟨S32x256, .f32⟩
  | 22 => ⟨S32x256, .f32⟩
  | 23 => ⟨S_, .f32⟩
  | 24 => ⟨S32x256, .f32⟩
  | 25 => ⟨S32x256, .f32⟩
  | 26 => ⟨S_, .f32⟩
  | 27 => ⟨S256, .f32⟩
  | 28 => ⟨S_, .f32⟩
  | 29 => ⟨S256, .f32⟩
  | 30 => ⟨S256, .f32⟩
  | 31 => ⟨S_, .i32⟩
  | 32 => ⟨S_, .f32⟩
  | 33 => ⟨S256, .f32⟩
  | 34 => ⟨S1x256, .f32⟩
  | 35 => ⟨S_, .f32⟩
  | 36 => ⟨S1x256, .f32⟩
  | 37 => ⟨S1x256, .f32⟩
  | 38 => ⟨S32x256, .f32⟩
  | 39 => ⟨S32x256, .f32⟩
  | 40 => ⟨S32x256, .f32⟩
  | 41 => ⟨S_, .f32⟩
  | 42 => ⟨S_, .f32⟩
  | 43 => ⟨S_, .f32⟩
  | 44 => ⟨S_, .f32⟩
  | 45 => ⟨S256, .f32⟩
  | 46 => ⟨S256, .f32⟩
  | 47 => ⟨S256, .f32⟩
  | 48 => ⟨S_, .f32⟩
  | 49 => ⟨S_, .i1⟩
  | 50 => ⟨S_, .f32⟩
  | 51 => ⟨S_, .f32⟩
  | 52 => ⟨S256, .f32⟩
  | 53 => ⟨S256, .f32⟩
  | 54 => ⟨S1x256, .f32⟩
  | 55 => ⟨S32x256, .f32⟩
  | 56 => ⟨S32x256, .f32⟩
  | 57 => ⟨S_, .f32⟩
  | 58 => ⟨S256, .f32⟩
  | 59 => ⟨S256, .f32⟩
  | 60 => ⟨S256, .f32⟩
  | 61 => ⟨S1x256, .f32⟩
  | 62 => ⟨S32x256, .f32⟩
  | 63 => ⟨S32x256, .f32⟩
  | 64 => ⟨S1x256, .f32⟩
  | 65 => ⟨S32x256, .f32⟩
  | 66 => ⟨S32x256, .f32⟩
  | 67 => ⟨S1x256, .f32⟩
  | 68 => ⟨S32x256, .f32⟩
  | 69 => ⟨S32x256, .f32⟩
  | 70 => ⟨S32x1280, .f32⟩
  | 71 => ⟨S1280x256, .f32⟩
  | 72 => ⟨S32x256, .f32⟩
  | 73 => ⟨S1x256, .f32⟩
  | 74 => ⟨S32x256, .f32⟩
  | 75 => ⟨S32x256, .f32⟩
  | 76 => ⟨S_, .f32⟩
  | 77 => ⟨S32x256, .f32⟩
  | 78 => ⟨S32x256, .f32⟩
  | 79 => ⟨S_, .f32⟩
  | 80 => ⟨S256, .f32⟩
  | 81 => ⟨S_, .f32⟩
  | 82 => ⟨S256, .f32⟩
  | 83 => ⟨S256, .f32⟩
  | 84 => ⟨S_, .i32⟩
  | 85 => ⟨S_, .f32⟩
  | 86 => ⟨S256, .f32⟩
  | 87 => ⟨S1x256, .f32⟩
  | 88 => ⟨S_, .f32⟩
  | 89 => ⟨S1x256, .f32⟩
  | 90 => ⟨S1x256, .f32⟩
  | 91 => ⟨S32x256, .f32⟩
  | 92 => ⟨S32x256, .f32⟩
  | 93 => ⟨S32x256, .f32⟩
  | 94 => ⟨S_, .f32⟩
  | 95 => ⟨S_, .f32⟩
  | 96 => ⟨S_, .f32⟩
  | 97 => ⟨S_, .f32⟩
  | 98 => ⟨S256, .f32⟩
  | 99 => ⟨S256, .f32⟩
  | 100 => ⟨S256, .f32⟩
  | 101 => ⟨S_, .f32⟩
  | 102 => ⟨S_, .i1⟩
  | 103 => ⟨S_, .f32⟩
  | 104 => ⟨S_, .f32⟩
  | 105 => ⟨S256, .f32⟩
  | 106 => ⟨S256, .f32⟩
  | 107 => ⟨S1x256, .f32⟩
  | 108 => ⟨S32x256, .f32⟩
  | 109 => ⟨S32x256, .f32⟩
  | 110 => ⟨S_, .f32⟩
  | 111 => ⟨S256, .f32⟩
  | 112 => ⟨S256, .f32⟩
  | 113 => ⟨S256, .f32⟩
  | 114 => ⟨S1x256, .f32⟩
  | 115 => ⟨S32x256, .f32⟩
  | 116 => ⟨S32x256, .f32⟩
  | 117 => ⟨S1x256, .f32⟩
  | 118 => ⟨S32x256, .f32⟩
  | 119 => ⟨S32x256, .f32⟩
  | 120 => ⟨S1x256, .f32⟩
  | 121 => ⟨S32x256, .f32⟩
  | 122 => ⟨S32x256, .f32⟩
  | 123 => ⟨S256x256, .f32⟩
  | 124 => ⟨S32x256, .f32⟩
  | 125 => ⟨S1x256, .f32⟩
  | 126 => ⟨S32x256, .f32⟩
  | 127 => ⟨S32x256, .f32⟩
  | _ => ⟨S32x3x2048, .f32⟩

abbrev hbmTy0_2 (i : Nat) : BufTy := match i % 128 with
  | 0 => ⟨S_, .f32⟩
  | 1 => ⟨S32x256, .f32⟩
  | 2 => ⟨S32x256, .f32⟩
  | 3 => ⟨S_, .f32⟩
  | 4 => ⟨S256, .f32⟩
  | 5 => ⟨S_, .f32⟩
  | 6 => ⟨S256, .f32⟩
  | 7 => ⟨S256, .f32⟩
  | 8 => ⟨S_, .i32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S32x256, .f32⟩
  | 16 => ⟨S32x256, .f32⟩
  | 17 => ⟨S32x256, .f32⟩
  | 18 => ⟨S_, .f32⟩
  | 19 => ⟨S_, .f32⟩
  | 20 => ⟨S_, .f32⟩
  | 21 => ⟨S_, .f32⟩
  | 22 => ⟨S256, .f32⟩
  | 23 => ⟨S256, .f32⟩
  | 24 => ⟨S256, .f32⟩
  | 25 => ⟨S_, .f32⟩
  | 26 => ⟨S_, .i1⟩
  | 27 => ⟨S_, .f32⟩
  | 28 => ⟨S_, .f32⟩
  | 29 => ⟨S256, .f32⟩
  | 30 => ⟨S256, .f32⟩
  | 31 => ⟨S1x256, .f32⟩
  | 32 => ⟨S32x256, .f32⟩
  | 33 => ⟨S32x256, .f32⟩
  | 34 => ⟨S_, .f32⟩
  | 35 => ⟨S256, .f32⟩
  | 36 => ⟨S256, .f32⟩
  | 37 => ⟨S256, .f32⟩
  | 38 => ⟨S1x256, .f32⟩
  | 39 => ⟨S32x256, .f32⟩
  | 40 => ⟨S32x256, .f32⟩
  | 41 => ⟨S1x256, .f32⟩
  | 42 => ⟨S32x256, .f32⟩
  | 43 => ⟨S32x256, .f32⟩
  | 44 => ⟨S1x256, .f32⟩
  | 45 => ⟨S32x256, .f32⟩
  | 46 => ⟨S32x256, .f32⟩
  | 47 => ⟨S32x1536, .f32⟩
  | 48 => ⟨S1536x512, .f32⟩
  | 49 => ⟨S32x512, .f32⟩
  | 50 => ⟨S1x512, .f32⟩
  | 51 => ⟨S32x512, .f32⟩
  | 52 => ⟨S32x512, .f32⟩
  | 53 => ⟨S_, .f32⟩
  | 54 => ⟨S32x512, .f32⟩
  | 55 => ⟨S32x512, .f32⟩
  | 56 => ⟨S_, .f32⟩
  | 57 => ⟨S512, .f32⟩
  | 58 => ⟨S_, .f32⟩
  | 59 => ⟨S512, .f32⟩
  | 60 => ⟨S512, .f32⟩
  | 61 => ⟨S_, .i32⟩
  | 62 => ⟨S_, .f32⟩
  | 63 => ⟨S512, .f32⟩
  | 64 => ⟨S1x512, .f32⟩
  | 65 => ⟨S_, .f32⟩
  | 66 => ⟨S1x512, .f32⟩
  | 67 => ⟨S1x512, .f32⟩
  | 68 => ⟨S32x512, .f32⟩
  | 69 => ⟨S32x512, .f32⟩
  | 70 => ⟨S32x512, .f32⟩
  | 71 => ⟨S_, .f32⟩
  | 72 => ⟨S_, .f32⟩
  | 73 => ⟨S_, .f32⟩
  | 74 => ⟨S_, .f32⟩
  | 75 => ⟨S512, .f32⟩
  | 76 => ⟨S512, .f32⟩
  | 77 => ⟨S512, .f32⟩
  | 78 => ⟨S_, .f32⟩
  | 79 => ⟨S_, .i1⟩
  | 80 => ⟨S_, .f32⟩
  | 81 => ⟨S_, .f32⟩
  | 82 => ⟨S512, .f32⟩
  | 83 => ⟨S512, .f32⟩
  | 84 => ⟨S1x512, .f32⟩
  | 85 => ⟨S32x512, .f32⟩
  | 86 => ⟨S32x512, .f32⟩
  | 87 => ⟨S_, .f32⟩
  | 88 => ⟨S512, .f32⟩
  | 89 => ⟨S512, .f32⟩
  | 90 => ⟨S512, .f32⟩
  | 91 => ⟨S1x512, .f32⟩
  | 92 => ⟨S32x512, .f32⟩
  | 93 => ⟨S32x512, .f32⟩
  | 94 => ⟨S1x512, .f32⟩
  | 95 => ⟨S32x512, .f32⟩
  | 96 => ⟨S32x512, .f32⟩
  | 97 => ⟨S1x512, .f32⟩
  | 98 => ⟨S32x512, .f32⟩
  | 99 => ⟨S32x512, .f32⟩
  | _ => ⟨S32x3x2048, .f32⟩

abbrev hbmTy (i : Nat) : BufTy := match i / 128 with
  | 0 => hbmTy0_0 i
  | 1 => hbmTy0_1 i
  | 2 => hbmTy0_2 i
  | _ => ⟨S32x3x2048, .f32⟩

abbrev bufTy : (tb : Table) → Fin (tcTables nBuf tb) → BufTy
  | .hbm, ⟨i, _⟩ => hbmTy i
  | _, _ => ⟨S32x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_3 : Ref sig .tc := ⟨.hbm, 47, rfl⟩
abbrev main_v19 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_cst_5 : Ref sig .tc := ⟨.hbm, 52, rfl⟩
abbrev main_v22 : Ref sig .tc := ⟨.hbm, 53, rfl⟩
abbrev main_v23 : Ref sig .tc := ⟨.hbm, 54, rfl⟩
abbrev main_c : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_6 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_call1_cst : Ref sig .tc := ⟨.hbm, 99, rfl⟩
abbrev main_call1_v0 : Ref sig .tc := ⟨.hbm, 100, rfl⟩
abbrev main_v45 : Ref sig .tc := ⟨.hbm, 101, rfl⟩
abbrev main_cst_7 : Ref sig .tc := ⟨.hbm, 102, rfl⟩
abbrev main_v46 : Ref sig .tc := ⟨.hbm, 103, rfl⟩
abbrev main_cst_8 : Ref sig .tc := ⟨.hbm, 104, rfl⟩
abbrev main_v47 : Ref sig .tc := ⟨.hbm, 105, rfl⟩
abbrev main_v48 : Ref sig .tc := ⟨.hbm, 106, rfl⟩
abbrev main_c_9 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_cst_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_cst_2 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_cst_3 : Ref sig .tc := ⟨.hbm, 124, rfl⟩
abbrev main_call2_v12 : Ref sig .tc := ⟨.hbm, 125, rfl⟩
abbrev main_call2_cst_4 : Ref sig .tc := ⟨.hbm, 126, rfl⟩
abbrev main_call2_call0_v0 : Ref sig .tc := ⟨.hbm, 127, rfl⟩
abbrev main_call2_call0_v1 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_10 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_call3_cst : Ref sig .tc := ⟨.hbm, 151, rfl⟩
abbrev main_call3_v0 : Ref sig .tc := ⟨.hbm, 152, rfl⟩
abbrev main_v70 : Ref sig .tc := ⟨.hbm, 153, rfl⟩
abbrev main_cst_11 : Ref sig .tc := ⟨.hbm, 154, rfl⟩
abbrev main_v71 : Ref sig .tc := ⟨.hbm, 155, rfl⟩
abbrev main_cst_12 : Ref sig .tc := ⟨.hbm, 156, rfl⟩
abbrev main_v72 : Ref sig .tc := ⟨.hbm, 157, rfl⟩
abbrev main_v73 : Ref sig .tc := ⟨.hbm, 158, rfl⟩
abbrev main_c_13 : Ref sig .tc := ⟨.hbm, 159, rfl⟩
abbrev main_call4_cst : Ref sig .tc := ⟨.hbm, 160, rfl⟩
abbrev main_call4_v0 : Ref sig .tc := ⟨.hbm, 161, rfl⟩
abbrev main_call4_v1 : Ref sig .tc := ⟨.hbm, 162, rfl⟩
abbrev main_call4_cst_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_v7 : Ref sig .tc := ⟨.hbm, 169, rfl⟩
abbrev main_call4_cst_1 : Ref sig .tc := ⟨.hbm, 170, rfl⟩
abbrev main_call4_v8 : Ref sig .tc := ⟨.hbm, 171, rfl⟩
abbrev main_call4_cst_2 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_cst_3 : Ref sig .tc := ⟨.hbm, 176, rfl⟩
abbrev main_call4_v12 : Ref sig .tc := ⟨.hbm, 177, rfl⟩
abbrev main_call4_cst_4 : Ref sig .tc := ⟨.hbm, 178, rfl⟩
abbrev main_call4_call0_v0 : Ref sig .tc := ⟨.hbm, 179, rfl⟩
abbrev main_call4_call0_v1 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_cst_14 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_call5_cst : Ref sig .tc := ⟨.hbm, 204, rfl⟩
abbrev main_call5_v0 : Ref sig .tc := ⟨.hbm, 205, rfl⟩
abbrev main_v96 : Ref sig .tc := ⟨.hbm, 206, rfl⟩
abbrev main_cst_15 : Ref sig .tc := ⟨.hbm, 207, rfl⟩
abbrev main_v97 : Ref sig .tc := ⟨.hbm, 208, rfl⟩
abbrev main_cst_16 : Ref sig .tc := ⟨.hbm, 209, rfl⟩
abbrev main_v98 : Ref sig .tc := ⟨.hbm, 210, rfl⟩
abbrev main_v99 : Ref sig .tc := ⟨.hbm, 211, rfl⟩
abbrev main_c_17 : Ref sig .tc := ⟨.hbm, 212, rfl⟩
abbrev main_call6_cst : Ref sig .tc := ⟨.hbm, 213, rfl⟩
abbrev main_call6_v0 : Ref sig .tc := ⟨.hbm, 214, rfl⟩
abbrev main_call6_v1 : Ref sig .tc := ⟨.hbm, 215, rfl⟩
abbrev main_call6_cst_0 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_call6_v5 : Ref sig .tc := ⟨.hbm, 220, rfl⟩
abbrev main_call6_v6 : Ref sig .tc := ⟨.hbm, 221, rfl⟩
abbrev main_call6_v7 : Ref sig .tc := ⟨.hbm, 222, rfl⟩
abbrev main_call6_cst_1 : Ref sig .tc := ⟨.hbm, 223, rfl⟩
abbrev main_call6_v8 : Ref sig .tc := ⟨.hbm, 224, rfl⟩
abbrev main_call6_cst_2 : Ref sig .tc := ⟨.hbm, 225, rfl⟩
abbrev main_call6_v9 : Ref sig .tc := ⟨.hbm, 226, rfl⟩
abbrev main_call6_v10 : Ref sig .tc := ⟨.hbm, 227, rfl⟩
abbrev main_call6_v11 : Ref sig .tc := ⟨.hbm, 228, rfl⟩
abbrev main_call6_cst_3 : Ref sig .tc := ⟨.hbm, 229, rfl⟩
abbrev main_call6_v12 : Ref sig .tc := ⟨.hbm, 230, rfl⟩
abbrev main_call6_cst_4 : Ref sig .tc := ⟨.hbm, 231, rfl⟩
abbrev main_call6_call0_v0 : Ref sig .tc := ⟨.hbm, 232, rfl⟩
abbrev main_call6_call0_v1 : Ref sig .tc := ⟨.hbm, 233, rfl⟩
abbrev main_v100 : Ref sig .tc := ⟨.hbm, 234, rfl⟩
abbrev main_v101 : Ref sig .tc := ⟨.hbm, 235, rfl⟩
abbrev main_v102 : Ref sig .tc := ⟨.hbm, 236, rfl⟩
abbrev main_v103 : Ref sig .tc := ⟨.hbm, 237, rfl⟩
abbrev main_cst_18 : Ref sig .tc := ⟨.hbm, 238, rfl⟩
abbrev main_v104 : Ref sig .tc := ⟨.hbm, 239, rfl⟩
abbrev main_v105 : Ref sig .tc := ⟨.hbm, 240, rfl⟩
abbrev main_v106 : Ref sig .tc := ⟨.hbm, 241, rfl⟩
abbrev main_v107 : Ref sig .tc := ⟨.hbm, 242, rfl⟩
abbrev main_v108 : Ref sig .tc := ⟨.hbm, 243, rfl⟩
abbrev main_v109 : Ref sig .tc := ⟨.hbm, 244, rfl⟩
abbrev main_v110 : Ref sig .tc := ⟨.hbm, 245, rfl⟩
abbrev main_v111 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_call7_cst : Ref sig .tc := ⟨.hbm, 256, rfl⟩
abbrev main_call7_v0 : Ref sig .tc := ⟨.hbm, 257, rfl⟩
abbrev main_v121 : Ref sig .tc := ⟨.hbm, 258, rfl⟩
abbrev main_cst_19 : Ref sig .tc := ⟨.hbm, 259, rfl⟩
abbrev main_v122 : Ref sig .tc := ⟨.hbm, 260, rfl⟩
abbrev main_cst_20 : Ref sig .tc := ⟨.hbm, 261, rfl⟩
abbrev main_v123 : Ref sig .tc := ⟨.hbm, 262, rfl⟩
abbrev main_v124 : Ref sig .tc := ⟨.hbm, 263, rfl⟩
abbrev main_c_21 : Ref sig .tc := ⟨.hbm, 264, rfl⟩
abbrev main_call8_cst : Ref sig .tc := ⟨.hbm, 265, rfl⟩
abbrev main_call8_v0 : Ref sig .tc := ⟨.hbm, 266, rfl⟩
abbrev main_call8_v1 : Ref sig .tc := ⟨.hbm, 267, rfl⟩
abbrev main_call8_cst_0 : Ref sig .tc := ⟨.hbm, 268, rfl⟩
abbrev main_call8_v2 : Ref sig .tc := ⟨.hbm, 269, rfl⟩
abbrev main_call8_v3 : Ref sig .tc := ⟨.hbm, 270, rfl⟩
abbrev main_call8_v4 : Ref sig .tc := ⟨.hbm, 271, rfl⟩
abbrev main_call8_v5 : Ref sig .tc := ⟨.hbm, 272, rfl⟩
abbrev main_call8_v6 : Ref sig .tc := ⟨.hbm, 273, rfl⟩
abbrev main_call8_v7 : Ref sig .tc := ⟨.hbm, 274, rfl⟩
abbrev main_call8_cst_1 : Ref sig .tc := ⟨.hbm, 275, rfl⟩
abbrev main_call8_v8 : Ref sig .tc := ⟨.hbm, 276, rfl⟩
abbrev main_call8_cst_2 : Ref sig .tc := ⟨.hbm, 277, rfl⟩
abbrev main_call8_v9 : Ref sig .tc := ⟨.hbm, 278, rfl⟩
abbrev main_call8_v10 : Ref sig .tc := ⟨.hbm, 279, rfl⟩
abbrev main_call8_v11 : Ref sig .tc := ⟨.hbm, 280, rfl⟩
abbrev main_call8_cst_3 : Ref sig .tc := ⟨.hbm, 281, rfl⟩
abbrev main_call8_v12 : Ref sig .tc := ⟨.hbm, 282, rfl⟩
abbrev main_call8_cst_4 : Ref sig .tc := ⟨.hbm, 283, rfl⟩
abbrev main_call8_call0_v0 : Ref sig .tc := ⟨.hbm, 284, rfl⟩
abbrev main_call8_call0_v1 : Ref sig .tc := ⟨.hbm, 285, rfl⟩
abbrev main_v125 : Ref sig .tc := ⟨.hbm, 286, rfl⟩
abbrev main_v126 : Ref sig .tc := ⟨.hbm, 287, rfl⟩
abbrev main_v127 : Ref sig .tc := ⟨.hbm, 288, rfl⟩
abbrev main_v128 : Ref sig .tc := ⟨.hbm, 289, rfl⟩
abbrev main_cst_22 : Ref sig .tc := ⟨.hbm, 290, rfl⟩
abbrev main_v129 : Ref sig .tc := ⟨.hbm, 291, rfl⟩
abbrev main_v130 : Ref sig .tc := ⟨.hbm, 292, rfl⟩
abbrev main_v131 : Ref sig .tc := ⟨.hbm, 293, rfl⟩
abbrev main_v132 : Ref sig .tc := ⟨.hbm, 294, rfl⟩
abbrev main_v133 : Ref sig .tc := ⟨.hbm, 295, rfl⟩
abbrev main_v134 : Ref sig .tc := ⟨.hbm, 296, rfl⟩
abbrev main_v135 : Ref sig .tc := ⟨.hbm, 297, rfl⟩
abbrev main_v136 : Ref sig .tc := ⟨.hbm, 298, rfl⟩
abbrev main_v137 : Ref sig .tc := ⟨.hbm, 299, rfl⟩
abbrev main_v138 : Ref sig .tc := ⟨.hbm, 300, rfl⟩
abbrev main_v139 : Ref sig .tc := ⟨.hbm, 301, rfl⟩
abbrev main_v140 : Ref sig .tc := ⟨.hbm, 302, rfl⟩
abbrev main_v141 : Ref sig .tc := ⟨.hbm, 303, rfl⟩
abbrev main_v142 : Ref sig .tc := ⟨.hbm, 304, rfl⟩
abbrev main_v143 : Ref sig .tc := ⟨.hbm, 305, rfl⟩
abbrev main_v144 : Ref sig .tc := ⟨.hbm, 306, rfl⟩
abbrev main_v145 : Ref sig .tc := ⟨.hbm, 307, rfl⟩
abbrev main_v146 : Ref sig .tc := ⟨.hbm, 308, rfl⟩
abbrev main_call9_cst : Ref sig .tc := ⟨.hbm, 309, rfl⟩
abbrev main_call9_v0 : Ref sig .tc := ⟨.hbm, 310, rfl⟩
abbrev main_v147 : Ref sig .tc := ⟨.hbm, 311, rfl⟩
abbrev main_cst_23 : Ref sig .tc := ⟨.hbm, 312, rfl⟩
abbrev main_v148 : Ref sig .tc := ⟨.hbm, 313, rfl⟩
abbrev main_cst_24 : Ref sig .tc := ⟨.hbm, 314, rfl⟩
abbrev main_v149 : Ref sig .tc := ⟨.hbm, 315, rfl⟩
abbrev main_v150 : Ref sig .tc := ⟨.hbm, 316, rfl⟩
abbrev main_c_25 : Ref sig .tc := ⟨.hbm, 317, rfl⟩
abbrev main_call10_cst : Ref sig .tc := ⟨.hbm, 318, rfl⟩
abbrev main_call10_v0 : Ref sig .tc := ⟨.hbm, 319, rfl⟩
abbrev main_call10_v1 : Ref sig .tc := ⟨.hbm, 320, rfl⟩
abbrev main_call10_cst_0 : Ref sig .tc := ⟨.hbm, 321, rfl⟩
abbrev main_call10_v2 : Ref sig .tc := ⟨.hbm, 322, rfl⟩
abbrev main_call10_v3 : Ref sig .tc := ⟨.hbm, 323, rfl⟩
abbrev main_call10_v4 : Ref sig .tc := ⟨.hbm, 324, rfl⟩
abbrev main_call10_v5 : Ref sig .tc := ⟨.hbm, 325, rfl⟩
abbrev main_call10_v6 : Ref sig .tc := ⟨.hbm, 326, rfl⟩
abbrev main_call10_v7 : Ref sig .tc := ⟨.hbm, 327, rfl⟩
abbrev main_call10_cst_1 : Ref sig .tc := ⟨.hbm, 328, rfl⟩
abbrev main_call10_v8 : Ref sig .tc := ⟨.hbm, 329, rfl⟩
abbrev main_call10_cst_2 : Ref sig .tc := ⟨.hbm, 330, rfl⟩
abbrev main_call10_v9 : Ref sig .tc := ⟨.hbm, 331, rfl⟩
abbrev main_call10_v10 : Ref sig .tc := ⟨.hbm, 332, rfl⟩
abbrev main_call10_v11 : Ref sig .tc := ⟨.hbm, 333, rfl⟩
abbrev main_call10_cst_3 : Ref sig .tc := ⟨.hbm, 334, rfl⟩
abbrev main_call10_v12 : Ref sig .tc := ⟨.hbm, 335, rfl⟩
abbrev main_call10_cst_4 : Ref sig .tc := ⟨.hbm, 336, rfl⟩
abbrev main_call10_call0_v0 : Ref sig .tc := ⟨.hbm, 337, rfl⟩
abbrev main_call10_call0_v1 : Ref sig .tc := ⟨.hbm, 338, rfl⟩
abbrev main_v151 : Ref sig .tc := ⟨.hbm, 339, rfl⟩
abbrev main_v152 : Ref sig .tc := ⟨.hbm, 340, rfl⟩
abbrev main_v153 : Ref sig .tc := ⟨.hbm, 341, rfl⟩
abbrev main_v154 : Ref sig .tc := ⟨.hbm, 342, rfl⟩
abbrev main_cst_26 : Ref sig .tc := ⟨.hbm, 343, rfl⟩
abbrev main_v155 : Ref sig .tc := ⟨.hbm, 344, rfl⟩
abbrev main_v156 : Ref sig .tc := ⟨.hbm, 345, rfl⟩
abbrev main_v157 : Ref sig .tc := ⟨.hbm, 346, rfl⟩
abbrev main_v158 : Ref sig .tc := ⟨.hbm, 347, rfl⟩
abbrev main_v159 : Ref sig .tc := ⟨.hbm, 348, rfl⟩
abbrev main_v160 : Ref sig .tc := ⟨.hbm, 349, rfl⟩
abbrev main_v161 : Ref sig .tc := ⟨.hbm, 350, rfl⟩
abbrev main_v162 : Ref sig .tc := ⟨.hbm, 351, rfl⟩
abbrev main_v163 : Ref sig .tc := ⟨.hbm, 352, rfl⟩
abbrev main_v164 : Ref sig .tc := ⟨.hbm, 353, rfl⟩
abbrev main_v165 : Ref sig .tc := ⟨.hbm, 354, rfl⟩
abbrev main_v166 : Ref sig .tc := ⟨.hbm, 355, rfl⟩

abbrev nD : Nat := 1
abbrev τ : Topo := Topo.v7x

variable {F : FTy → Type} [FloatOps F]

class Facts₀ : Prop where
  transposes_S32x3x2048_S32x2048x3_0_2_1 : S32x3x2048.Transposes [0, 2, 1] S32x2048x3
  shapeCasts_S32x2048x3_S65536x3 : S32x2048x3.ShapeCasts S65536x3
  reducesTo_S65536x3_S65536_d1 : S65536x3.ReducesTo [1] S65536
  h_S_ : 0 < S_.numel
  bcast_S65536_S65536x1_0 : S65536.BroadcastsInDim S65536x1 (![0] : Fin 1 → Fin S65536x1.rank)
  reducesTo_S1024x3_S1024_d1 : S1024x3.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x3_S3x1024_1_0 : S1024x3.Transposes [1, 0] S3x1024
  bcast_S_S65536x1024 : S_.BroadcastsInDim S65536x1024 (![] : Fin 0 → Fin S65536x1024.rank)
  shapeCasts_S65536x1024_S32x2048x1024 : S65536x1024.ShapeCasts S32x2048x1024
  reducesTo_S32x2048x1024_S32x1024_d1 : S32x2048x1024.ReducesTo [1] S32x1024
  reducesTo_S32x1024_S1024_d0 : S32x1024.ReducesTo [0] S1024
  bcast_S_S1024 : S_.BroadcastsInDim S1024 (![] : Fin 0 → Fin S1024.rank)
  bcast_S_S1x1024 : S_.BroadcastsInDim S1x1024 (![] : Fin 0 → Fin S1x1024.rank)
  bcast_S1x1024_S32x1024_0_1 : S1x1024.BroadcastsInDim S32x1024 (![0, 1] : Fin 2 → Fin S32x1024.rank)
  transposes_S256x1024_S1024x256_1_0 : S256x1024.Transposes [1, 0] S1024x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  reducesTo_S32x256_S256_d0 : S32x256.ReducesTo [0] S256
  bcast_S_S256 : S_.BroadcastsInDim S256 (![] : Fin 0 → Fin S256.rank)
  bcast_S_S1x256 : S_.BroadcastsInDim S1x256 (![] : Fin 0 → Fin S1x256.rank)
  transposes_S256x256_S256x256_1_0 : S256x256.Transposes [1, 0] S256x256
  concatenates_S32x1024_S32x256_S32x1280_d1 : Shape.Concatenates [S32x1024, S32x256] S32x1280 1
  transposes_S256x1280_S1280x256_1_0 : S256x1280.Transposes [1, 0] S1280x256
  concatenates_S32x1024_S32x256_S32x256_S32x1536_d1 : Shape.Concatenates [S32x1024, S32x256, S32x256] S32x1536 1
  transposes_S512x1536_S1536x512_1_0 : S512x1536.Transposes [1, 0] S1536x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  reducesTo_S32x512_S512_d0 : S32x512.ReducesTo [0] S512
  bcast_S_S512 : S_.BroadcastsInDim S512 (![] : Fin 0 → Fin S512.rank)
  bcast_S_S1x512 : S_.BroadcastsInDim S1x512 (![] : Fin 0 → Fin S1x512.rank)
  dot_S65536x3_S3x1024_S65536x1024_1_0_0_1_n_n_wf : DotDims.WF S65536x3 S3x1024 S65536x1024 [1] [0] [0] [1] [] []
  dot_S32x1024_S1024x256_S32x256_1_0_0_1_n_n_wf : DotDims.WF S32x1024 S1024x256 S32x256 [1] [0] [0] [1] [] []
  dot_S32x256_S256x256_S32x256_1_0_0_1_n_n_wf : DotDims.WF S32x256 S256x256 S32x256 [1] [0] [0] [1] [] []
  dot_S32x1280_S1280x256_S32x256_1_0_0_1_n_n_wf : DotDims.WF S32x1280 S1280x256 S32x256 [1] [0] [0] [1] [] []
  dot_S32x1536_S1536x512_S32x512_1_0_0_1_n_n_wf : DotDims.WF S32x1536 S1536x512 S32x512 [1] [0] [0] [1] [] []

variable [Facts₀]

def dot_S65536x3_S3x1024_S65536x1024_1_0_0_1_n_n : DotDims S65536x3 S3x1024 S65536x1024 where
  lhsContracting := [1]
  rhsContracting := [0]
  lhsNonContracting := [0]
  rhsNonContracting := [1]
  lhsBatch := []
  rhsBatch := []
  wf := dot_S65536x3_S3x1024_S65536x1024_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x1280_S1280x256_S32x256_1_0_0_1_n_n : DotDims S32x1280 S1280x256 S32x256 where
  lhsContracting := [1]
  rhsContracting := [0]
  lhsNonContracting := [0]
  rhsNonContracting := [1]
  lhsBatch := []
  rhsBatch := []
  wf := dot_S32x1280_S1280x256_S32x256_1_0_0_1_n_n_wf
def dot_S32x1536_S1536x512_S32x512_1_0_0_1_n_n : DotDims S32x1536 S1536x512 S32x512 where
  lhsContracting := [1]
  rhsContracting := [0]
  lhsNonContracting := [0]
  rhsNonContracting := [1]
  lhsBatch := []
  rhsBatch := []
  wf := dot_S32x1536_S1536x512_S32x512_1_0_0_1_n_n_wf

class Facts : Prop extends Facts₀ where

variable [Facts]
-- ==== Proof.KDefs.lean ====
/-
  The idealized kernel's two stages as pure functions of whole arrays.

  Stage one (the first launch): the feature array. Its row `b` is the loop body's value at batch element `b` of
  the point cloud: for basis point `p`, the square root of max(|basis_p|² + min over the points n of
  (|x_n|² + Σ_k (−2·basis_p,k)·x_k,n), 0).  `slab x b` is the [1, 3, 2048] slab of batch element `b` the loop
  loads; `feat` reads the body's value of that slab at column `p`.

  Stage two (the second launch, one grid point, every operand one whole block): the dense multilayer perceptron
  with batch normalisation, as the body's value of the 23 whole operands.
-/
import proofs.«165364_j46282567582129_2_alg».proof.Proof.Gen.KernelIdeal.Skeleton
import Idealize.ShloMosaic.Lib.ValueIdx

noncomputable section

namespace Cert.KernelIdeal.KDefs

open Idealize.ShloMosaic Idealize.ShloMosaic.ValueIdx Cert.KernelIdeal Cert.KernelIdeal.Gen

variable {F : FTy → Type} [FloatOps F]

/-- Batch element `b` of the point cloud as a [1, 3, 2048] slab. -/
def slab (x : Vec F S32x3x2048 .f32) (b : Fin 32) : Vec F S1x3x2048 .f32 :=
  fun j => x (ix3 b (j 1) (j 2))

/-- The feature array: entry (b, p) is the loop body's value of batch element `b` at basis point `p`. -/
def feat (x : Vec F S32x3x2048 .f32) (basis : Vec F S1024x3 .f32) : Vec F S32x1024 .f32 :=
  fun i => k0_pay1 basis (slab x (i 0)) (ix2 (0 : Fin 1) (i 1))

/-- The second launch's body on its 23 whole operands. -/
def mlp (x0 : Vec F S32x1024 .f32) (x1 : Vec F S1024 .f32) (x2 : Vec F S1024 .f32) (x3 : Vec F S256x1024 .f32) (x4 : Vec F S256 .f32) (x5 : Vec F S256 .f32) (x6 : Vec F S256 .f32) (x7 : Vec F S256x256 .f32) (x8 : Vec F S256 .f32) (x9 : Vec F S256 .f32) (x10 : Vec F S256 .f32) (x11 : Vec F S256x1280 .f32) (x12 : Vec F S256 .f32) (x13 : Vec F S256 .f32) (x14 : Vec F S256 .f32) (x15 : Vec F S256x256 .f32) (x16 : Vec F S256 .f32) (x17 : Vec F S256 .f32) (x18 : Vec F S256 .f32) (x19 : Vec F S512x1536 .f32) (x20 : Vec F S512 .f32) (x21 : Vec F S512 .f32) (x22 : Vec F S512 .f32) : Vec F S32x512 .f32 :=
  k1_pay1 (k1_pay10 (k1_pay2 x0 x1 x2) (k1_pay8 (k1_pay5 (k1_pay3 x0 x1 x2 x3 x4) x5 x6 (k1_pay4 x0 x1 x2 x3 x4) x7 x8) x9 x10 (k1_pay6 (k1_pay3 x0 x1 x2 x3 x4) x5 x6 (k1_pay4 x0 x1 x2 x3 x4) x7 x8) (k1_pay7 (k1_pay3 x0 x1 x2 x3 x4) x5 x6 (k1_pay4 x0 x1 x2 x3 x4) x7 x8)) x14 (k1_pay9 (k1_pay2 x0 x1 x2) (k1_pay5 (k1_pay3 x0 x1 x2 x3 x4) x5 x6 (k1_pay4 x0 x1 x2 x3 x4) x7 x8) x9 x10 (k1_pay6 (k1_pay3 x0 x1 x2 x3 x4) x5 x6 (k1_pay4 x0 x1 x2 x3 x4) x7 x8) (k1_pay7 (k1_pay3 x0 x1 x2 x3 x4) x5 x6 (k1_pay4 x0 x1 x2 x3 x4) x7 x8) x11 x12 x13) x15 x16 x17 x18 x19) x20 x21 x22

/-- The program's result as a function of its 24 argument arrays. -/
def out (a0 : Vec F S32x3x2048 .f32) (a1 : Vec F S1024x3 .f32) (a2 : Vec F S1024 .f32) (a3 : Vec F S1024 .f32) (a4 : Vec F S256x1024 .f32) (a5 : Vec F S256 .f32) (a6 : Vec F S256 .f32) (a7 : Vec F S256 .f32) (a8 : Vec F S256x256 .f32) (a9 : Vec F S256 .f32) (a10 : Vec F S256 .f32) (a11 : Vec F S256 .f32) (a12 : Vec F S256x1280 .f32) (a13 : Vec F S256 .f32) (a14 : Vec F S256 .f32) (a15 : Vec F S256 .f32) (a16 : Vec F S256x256 .f32) (a17 : Vec F S256 .f32) (a18 : Vec F S256 .f32) (a19 : Vec F S256 .f32) (a20 : Vec F S512x1536 .f32) (a21 : Vec F S512 .f32) (a22 : Vec F S512 .f32) (a23 : Vec F S512 .f32) : Vec F S32x512 .f32 :=
  mlp (feat a0 a1) a2 a3 a4 a5 a6 a7 a8 a9 a10 a11 a12 a13 a14 a15 a16 a17 a18 a19 a20 a21 a22 a23

end Cert.KernelIdeal.KDefs

end
-- ==== Proof.KBlock0.lean ====
/-
  The first launch's body on one block: the eight trips of its loop each store one row of the block, row k being the
  loop body's value of slab k of the point-cloud block, so the block the body leaves is ONE function of the two
  input blocks (`blockFeat`).
-/
import proofs.«165364_j46282567582129_2_alg».proof.Proof.Gen.KernelIdeal.Frame
import proofs.«165364_j46282567582129_2_alg».proof.Proof.KDefs
import Idealize.ShloMosaic.Lib.Pipeline.Value
import Idealize.ShloMosaic.Lib.WholeRead
import Idealize.ShloMosaic.Lib.Tactic

set_option maxRecDepth 16384

noncomputable section

namespace Cert.KernelIdeal.KBlock0

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

/-- What the body leaves in its output block: entry (k, p) is the loop body's value of slab k of the point-cloud block
    at basis point p. -/
def blockFeat (x0 : Vec F S8x3x2048 .f32) (x1 : Vec F S1024x3 .f32) : Vec F S8x1024 .f32 :=
  fun y => k0_pay1 x1 (fun j => x0 (ix3 (y 0) (j 1) (j 2))) (ix2 (0 : Fin 1) (y 1))

theorem hz2 : (![0, 0] : Fin 2 → Nat) = fun _ => 0 := funext fun a => by fin_cases a <;> rfl

/-- One trip's pieces: the one store of row k. -/
theorem tripL_eq (c : Dev nD) (i : grid0.Coords) (arg1 : Memref sig .tc .vmem S8x3x2048 .f32) (harg1 : arg1.IsWhole) (arg2 : Memref sig .tc .vmem S1024x3 .f32) (harg2 : arg2.IsWhole) (arg3 : Memref sig .tc .vmem S8x1024 .f32) (harg3 : arg3.IsWhole)
    (v0 : Vec F S1024x3 .f32) (X : BufTy.Contents (Elt F) arg1.view.ty) (k : Fin k0_t1_loop.trips) :
    tripL_k0_t1 (F := F) Variants.none c none i arg1 harg1 arg2 harg2 arg3 harg3 v0 X k
      = [⟨Rect.unit (s := S8x1024) (k0_off2 k) S1x1024.size (k0_off2_inb k),
          k0_pay1 v0 (View.readAt (Elt F) arg1.view (Rect.unit (s := S8x3x2048) (k0_off1 k) S1x3x2048.size (k0_off1_inb k)).toLoadRect X)⟩] := by
  unfold tripL_k0_t1 trip_k0_t1
  rfl

/-- The stored row is the block function on the row's rectangle: the slab loaded at row k of the point-cloud block is
    the slab the block function reads at an index of row k. -/
theorem trip_piece (arg1 : Memref sig .tc .vmem S8x3x2048 .f32) (harg1 : arg1.IsWhole)
    (v0 : Vec F S1024x3 .f32) (x0 : Vec F S8x3x2048 .f32) (k : Fin k0_t1_loop.trips) (x : S1x1024.Idx) :
    k0_pay1 v0 (View.readAt (Elt F) arg1.view (Rect.unit (s := S8x3x2048) (k0_off1 k) S1x3x2048.size (k0_off1_inb k)).toLoadRect (harg1.unread x0)) x
      = blockFeat x0 v0 ((Rect.unit (s := S8x1024) (k0_off2 k) S1x1024.size (k0_off2_inb k)).emb x) := by
  unfold blockFeat
  have e1 : View.readAt (Elt F) arg1.view (Rect.unit (s := S8x3x2048) (k0_off1 k) S1x3x2048.size (k0_off1_inb k)).toLoadRect (harg1.unread x0)
      = fun j => x0 (ix3 ((Rect.unit (s := S8x1024) (k0_off2 k) S1x1024.size (k0_off2_inb k)).emb x 0) (j 1) (j 2)) := by
    funext j
    rw [harg1.readAt_unread]
    congr 1
    funext a
    apply Fin.ext
    have h0 : (j 0 : Nat) < 1 := (j 0).isLt
    have hx0 : (x 0 : Nat) < 1 := (x 0).isLt
    have o10 : k0_off1 k 0 = k.val := congrFun (k0_off1_eq k) 0
    have o11 : k0_off1 k 1 = 0 := congrFun (k0_off1_eq k) 1
    have o12 : k0_off1 k 2 = 0 := congrFun (k0_off1_eq k) 2
    have o20 : k0_off2 k 0 = k.val := congrFun (k0_off2_eq k) 0
    match a with
    | ⟨0, _⟩ =>
      show k0_off1 k 0 + 1 * (j 0 : Nat) = k0_off2 k 0 + 1 * (x 0 : Nat)
      omega
    | ⟨1, _⟩ =>
      show k0_off1 k 1 + 1 * (j 1 : Nat) = (j 1 : Nat)
      omega
    | ⟨2, _⟩ =>
      show k0_off1 k 2 + 1 * (j 2 : Nat) = (j 2 : Nat)
      omega
  have e2 : x = ix2 (0 : Fin 1) ((Rect.unit (s := S8x1024) (k0_off2 k) S1x1024.size (k0_off2_inb k)).emb x 1) := by
    funext a
    apply Fin.ext
    have hx0 : (x 0 : Nat) < 1 := (x 0).isLt
    have o21 : k0_off2 k 1 = 0 := congrFun (k0_off2_eq k) 1
    match a with
    | ⟨0, _⟩ => show (x 0 : Nat) = 0; omega
    | ⟨1, _⟩ =>
      show (x 1 : Nat) = k0_off2 k 1 + 1 * (x 1 : Nat)
      omega
  rw [e1]
  exact congrArg _ e2

/-- Every piece of the trips before `n` is the block function on its rectangle. -/
theorem pieces_pb (c : Dev nD) (i : grid0.Coords) (arg1 : Memref sig .tc .vmem S8x3x2048 .f32) (harg1 : arg1.IsWhole) (arg2 : Memref sig .tc .vmem S1024x3 .f32) (harg2 : arg2.IsWhole) (arg3 : Memref sig .tc .vmem S8x1024 .f32) (harg3 : arg3.IsWhole)
    (v0 : Vec F S1024x3 .f32) (x0 : Vec F S8x3x2048 .f32) :
    ∀ n : ℕ, ∀ p ∈ pb_k0_t1 (F := F) Variants.none c none i arg1 harg1 arg2 harg2 arg3 harg3 v0 (harg1.unread x0) n,
      ∀ x : p.1.shape.Idx, p.2 x = blockFeat x0 v0 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with h | h
      · rw [tripL_eq] at h
        obtain rfl := List.mem_singleton.mp h
        intro x
        exact trip_piece arg1 harg1 v0 x0 _ x
      · exact pieces_pb c i arg1 harg1 arg2 harg2 arg3 harg3 v0 x0 n p h
    · exact pieces_pb c i arg1 harg1 arg2 harg2 arg3 harg3 v0 x0 n p hp

/-- THE BLOCK: what the first launch's body leaves in its output block is the block function of its two input blocks. -/
theorem out0_eq (c : Dev nD) (i : grid0.Coords) (arg1 : Memref sig .tc .vmem S8x3x2048 .f32) (harg1 : arg1.IsWhole) (arg2 : Memref sig .tc .vmem S1024x3 .f32) (harg2 : arg2.IsWhole) (arg3 : Memref sig .tc .vmem S8x1024 .f32) (harg3 : arg3.IsWhole)
    (x0 : Vec F S8x3x2048 .f32) (x1 : Vec F S1024x3 .f32) :
    out0_A_2 c i arg1 harg1 arg2 harg2 arg3 harg3 x0 x1 = blockFeat x0 x1 := by
  unfold out0_A_2
  rw [View.read_writes_eq_canon _ _ _ (cover0_A_2 c i arg1 harg1 arg2 harg2 arg3 harg3 x0 x1)]
  funext y
  refine View.canon_apply_of_pieces (blockFeat x0 x1) _ ?_ y (cover0_A_2 c i arg1 harg1 arg2 harg2 arg3 harg3 x0 x1 y)
  have hv : View.readAt (Elt F) arg2.view (Rect.unit (s := S1024x3) ![0, 0] S1024x3.size inb_S1024x3_S1024x3_0_0).toLoadRect (harg2.unread x1) = x1 := by
    rw [View.readAt_eq_ld, harg2.read_unread, View.ld_unit_zero (S := S1024x3) hz2]
  have hrun : (kernelRun0_A c i arg1 harg1 arg2 harg2 arg3 harg3 x0 x1).1
      = pb_k0_t1 (F := F) Variants.none c none i arg1 harg1 arg2 harg2 arg3 harg3
          (View.readAt (Elt F) arg2.view (Rect.unit (s := S1024x3) ![0, 0] S1024x3.size inb_S1024x3_S1024x3_0_0).toLoadRect (harg2.unread x1))
          (harg1.unread x0) (Scf.trips (0#32) (Scalar.addi 0#32 8#32) 1#32) := by
    unfold kernelRun0_A
    rfl
  rw [hrun, hv]
  exact pieces_pb c i arg1 harg1 arg2 harg2 arg3 harg3 x1 x0 _

end Cert.KernelIdeal.KBlock0

end
-- ==== Proof.KRegion0.lean ====
/-
  The first launch on its grid of four points: point t reads rows 8t … 8t+7 of the point cloud and the whole basis,
  and writes back rows 8t … 8t+7 of the feature array; the four row bands tile the array, so after the launch the
  array holds the feature function of the two arrays as the launch found them.
-/
import proofs.«165364_j46282567582129_2_alg».proof.Proof.Gen.KernelIdeal.Frame
import proofs.«165364_j46282567582129_2_alg».proof.Proof.KDefs
import proofs.«165364_j46282567582129_2_alg».proof.Proof.KBlock0
import Idealize.ShloMosaic.Lib.Pipeline.Value
import Idealize.ShloMosaic.Lib.WholeRead
import Idealize.ShloMosaic.Lib.Tactic

set_option maxRecDepth 16384

noncomputable section

namespace Cert.KernelIdeal.KRegion0

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The block indices of the three windows at each of the four points. -/
theorem idx0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)

/-- The point-cloud block at point t is rows 8t … 8t+7 of the array. -/
theorem iblk0_0_apply (c : Dev nD) (t : Fin cfg0.N) (y : S8x3x2048.Idx) (i : S32x3x2048.Idx)
    (h0 : (i 0).val = 8 * t.val + (y 0).val) (h1 : (i 1).val = (y 1).val) (h2 : (i 2).val = (y 2).val) :
    (iblk0 V c 0 t : Vec F S8x3x2048 .f32) y = (V c main_arg0 : Vec F S32x3x2048 .f32) i := by
  obtain ⟨i0, i1, i2⟩ := idx0_0 t
  unfold iblk0
  rw [View.read_apply]
  show V c main_arg0 _ = V c main_arg0 _
  congr 1
  funext a
  apply Fin.ext
  match a with
  | ⟨0, _⟩ => show win0_0.index t 0 * 8 + 1 * (y 0).val = (i 0).val; rw [i0, h0]; omega
  | ⟨1, _⟩ => show win0_0.index t 1 * 3 + 1 * (y 1).val = (i 1).val; rw [i1, h1]; omega
  | ⟨2, _⟩ => show win0_0.index t 2 * 2048 + 1 * (y 2).val = (i 2).val; rw [i2, h2]; omega

/-- The basis block at every point is the whole basis array. -/
theorem iblk0_1_eq (c : Dev nD) (t : Fin cfg0.N) :
    (iblk0 V c 1 t : Vec F S1024x3 .f32) = (V c main_arg1 : Vec F S1024x3 .f32) := by
  obtain ⟨i0, i1⟩ := idx0_1 t
  funext y
  unfold iblk0
  rw [View.read_apply]
  show V c main_arg1 _ = V c main_arg1 _
  congr 1
  funext a
  apply Fin.ext
  match a with
  | ⟨0, _⟩ => show win0_1.index t 0 * 1024 + 1 * (y 0).val = (y 0).val; rw [i0]; omega
  | ⟨1, _⟩ => show win0_1.index t 1 * 3 + 1 * (y 1).val = (y 1).val; rw [i1]; omega

/-- The block function of a row band of the point cloud is the feature function on that band's rows. -/
theorem blockFeat_eq_feat (x : Vec F S32x3x2048 .f32) (basis : Vec F S1024x3 .f32) (x0 : Vec F S8x3x2048 .f32) (tv : ℕ)
    (hx0 : ∀ (y : S8x3x2048.Idx) (i : S32x3x2048.Idx), (i 0).val = 8 * tv + (y 0).val → (i 1).val = (y 1).val →
      (i 2).val = (y 2).val → x0 y = x i)
    (y : S8x1024.Idx) (i : S32x1024.Idx) (h0 : (i 0).val = 8 * tv + (y 0).val) (h1 : (i 1).val = (y 1).val) :
    KBlock0.blockFeat x0 basis y = KDefs.feat x basis i := by
  have e1 : (fun j : S1x3x2048.Idx => x0 (ix3 (y 0) (j 1) (j 2))) = fun j : S1x3x2048.Idx => x (ix3 (i 0) (j 1) (j 2)) :=
    funext fun j => hx0 _ _ h0 rfl rfl
  have e2 : (y 1 : Fin 1024) = (i 1 : Fin 1024) := Fin.ext h1.symm
  show k0_pay1 basis (fun j : S1x3x2048.Idx => x0 (ix3 (y 0) (j 1) (j 2))) (ix2 (0 : Fin 1) (y 1 : Fin 1024))
    = k0_pay1 basis (fun j : S1x3x2048.Idx => x (ix3 (i 0) (j 1) (j 2))) (ix2 (0 : Fin 1) (i 1 : Fin 1024))
  rw [e1, e2]

/-- What point t writes back is its row band of the feature function. -/
theorem flushed0_eq (c : Dev nD) (t : Fin cfg0.N) (hf : (cfg0.win 2).flush t = true) :
    (dat0 V c).flushed 2 t
      = ((cfg0.win 2).blk t).view.read (Elt F) (KDefs.feat (V c main_arg0) (V c main_arg1)) := by
  obtain ⟨i0, i1⟩ := idx0_2 t
  show (cfg0.win 2).cut (grid0.coords t) ((dat0 V c).after 2 t) = _
  rw [after0_2]
  unfold outsAt0
  rw [KBlock0.out0_eq, iblk0_1_eq V c t]
  funext y
  rw [View.read_apply]
  refine blockFeat_eq_feat (V c main_arg0) (V c main_arg1) (iblk0 V c 0 t) t.val (iblk0_0_apply V c t)
    ((cfg0.win 2).xinj (grid0.coords t) y) (((cfg0.win 2).blk t).view.emb y) ?_ ?_
  · show win0_2.index t 0 * 8 + 1 * (y 0).val = 8 * t.val + (y 0).val
    rw [i0]; omega
  · show win0_2.index t 1 * 1024 + 1 * (y 1).val = (y 1).val
    rw [i1]; omega

/-- Row r of the feature array is in the band of point r / 8. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : ((i 0 : Fin 32) : Nat) < 32 := (i 0).isLt
  have hi1 : ((i 1 : Fin 1024) : Nat) < 1024 := (i 1).isLt
  have hN : cfg0.N = 4 := rfl
  obtain ⟨t0, ht0⟩ : ∃ t0 : Fin cfg0.N, t0.val = ((i 0 : Fin 32) : Nat) / 8 := ⟨⟨((i 0 : Fin 32) : Nat) / 8, by rw [hN]; omega⟩, rfl⟩
  obtain ⟨i0, i1⟩ := idx0_2 t0
  refine ⟨t0, flush0_2 t0, ?_⟩
  show i ∈ ((View.whole main_v0).slice (win0_2.rect t0)).set
  rw [View.set_slice_whole, Rect.mem_set_unit]
  intro a
  match a with
  | ⟨0, _⟩ =>
    show win0_2.index t0 0 * 8 ≤ ((i 0 : Fin 32) : Nat) ∧ ((i 0 : Fin 32) : Nat) < win0_2.index t0 0 * 8 + 8
    rw [i0, ht0]; omega
  | ⟨1, _⟩ =>
    show win0_2.index t0 1 * 1024 ≤ ((i 1 : Fin 1024) : Nat) ∧ ((i 1 : Fin 1024) : Nat) < win0_2.index t0 1 * 1024 + 1024
    rw [i1]; omega

/-- THE FIRST LAUNCH'S RESULT: after its four points the feature array holds the feature function of the point cloud and
    the basis as the launch found them. -/
theorem feat_arr (c : Dev nD) :
    (dat0 V c).arrAt 2 cfg0.N = KDefs.feat (V c main_arg0) (V c main_arg1) :=
  (dat0 V c).arrAt_eq_of_cover 2 (KDefs.feat (V c main_arg0) (V c main_arg1)) (flushed0_eq V c) (cover0 c)

end Cert.KernelIdeal.KRegion0

end
-- ==== Proof.KRegion1.lean ====
/-
  The second launch: one grid point, every window one whole block. The body's one store through the whole output block
  leaves the perceptron function of the 23 whole operands, and that block is the whole result array.
-/
import proofs.«165364_j46282567582129_2_alg».proof.Proof.Gen.KernelIdeal.Frame
import proofs.«165364_j46282567582129_2_alg».proof.Proof.KDefs
import Idealize.ShloMosaic.Lib.Pipeline.Value
import Idealize.ShloMosaic.Lib.WholeRead
import Idealize.ShloMosaic.Lib.Tactic

set_option maxRecDepth 16384

noncomputable section

namespace Cert.KernelIdeal.KRegion1

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The body's output block, its loads and its store through whole-block rectangles, is the perceptron function of the
    input blocks. -/
theorem out1_eq (x0 : Vec F S32x1024 .f32) (x1 : Vec F S1024 .f32) (x2 : Vec F S1024 .f32) (x3 : Vec F S256x1024 .f32) (x4 : Vec F S256 .f32) (x5 : Vec F S256 .f32) (x6 : Vec F S256 .f32) (x7 : Vec F S256x256 .f32) (x8 : Vec F S256 .f32) (x9 : Vec F S256 .f32) (x10 : Vec F S256 .f32) (x11 : Vec F S256x1280 .f32) (x12 : Vec F S256 .f32) (x13 : Vec F S256 .f32) (x14 : Vec F S256 .f32) (x15 : Vec F S256x256 .f32) (x16 : Vec F S256 .f32) (x17 : Vec F S256 .f32) (x18 : Vec F S256 .f32) (x19 : Vec F S512x1536 .f32) (x20 : Vec F S512 .f32) (x21 : Vec F S512 .f32) (x22 : Vec F S512 .f32) :
    out1_23 x0 x1 x2 x3 x4 x5 x6 x7 x8 x9 x10 x11 x12 x13 x14 x15 x16 x17 x18 x19 x20 x21 x22 = KDefs.mlp x0 x1 x2 x3 x4 x5 x6 x7 x8 x9 x10 x11 x12 x13 x14 x15 x16 x17 x18 x19 x20 x21 x22 := by
  unfold out1_23 KDefs.mlp
  rw [View.canon_unit_zero hz2]
  simp only [View.ld_unit_zero (S := S32x1024) hz2, View.ld_unit_zero (S := S1024) hz1, View.ld_unit_zero (S := S256x1024) hz2, View.ld_unit_zero (S := S256) hz1, View.ld_unit_zero (S := S256x256) hz2, View.ld_unit_zero (S := S256x1280) hz2, View.ld_unit_zero (S := S512x1536) hz2, View.ld_unit_zero (S := S512) hz1]

/-- Window 0's one block is the whole array. -/
theorem iblk1_0 (c : Dev nD) (t : Fin cfg1.N) : iblk1 V c 0 t = V c main_v0 := by
  have hz' : (fun a => win1_0.index t a * main_v0.ty.shape.size a) = fun _ => 0 :=
    funext (by revert t; exact (by decide +kernel : ∀ t : Fin grid1.N, ∀ a, win1_0.index t a * main_v0.ty.shape.size a = 0))
  unfold iblk1
  exact Memref.read_access_unit_zero (Elt F) main_v0 hz' (fun a => by rw [congrFun hz' a]; simp) (V c main_v0)

/-- Window 1's one block is the whole array. -/
theorem iblk1_1 (c : Dev nD) (t : Fin cfg1.N) : iblk1 V c 1 t = V c main_arg2 := by
  have hz' : (fun a => win1_1.index t a * main_arg2.ty.shape.size a) = fun _ => 0 :=
    funext (by revert t; exact (by decide +kernel : ∀ t : Fin grid1.N, ∀ a, win1_1.index t a * main_arg2.ty.shape.size a = 0))
  unfold iblk1
  exact Memref.read_access_unit_zero (Elt F) main_arg2 hz' (fun a => by rw [congrFun hz' a]; simp) (V c main_arg2)

/-- Window 2's one block is the whole array. -/
theorem iblk1_2 (c : Dev nD) (t : Fin cfg1.N) : iblk1 V c 2 t = V c main_arg3 := by
  have hz' : (fun a => win1_2.index t a * main_arg3.ty.shape.size a) = fun _ => 0 :=
    funext (by revert t; exact (by decide +kernel : ∀ t : Fin grid1.N, ∀ a, win1_2.index t a * main_arg3.ty.shape.size a = 0))
  unfold iblk1
  exact Memref.read_access_unit_zero (Elt F) main_arg3 hz' (fun a => by rw [congrFun hz' a]; simp) (V c main_arg3)

/-- Window 3's one block is the whole array. -/
theorem iblk1_3 (c : Dev nD) (t : Fin cfg1.N) : iblk1 V c 3 t = V c main_arg4 := by
  have hz' : (fun a => win1_3.index t a * main_arg4.ty.shape.size a) = fun _ => 0 :=
    funext (by revert t; exact (by decide +kernel : ∀ t : Fin grid1.N, ∀ a, win1_3.index t a * main_arg4.ty.shape.size a = 0))
  unfold iblk1
  exact Memref.read_access_unit_zero (Elt F) main_arg4 hz' (fun a => by rw [congrFun hz' a]; simp) (V c main_arg4)

/-- Window 4's one block is the whole array. -/
theorem iblk1_4 (c : Dev nD) (t : Fin cfg1.N) : iblk1 V c 4 t = V c main_arg5 := by
  have hz' : (fun a => win1_4.index t a * main_arg5.ty.shape.size a) = fun _ => 0 :=
    funext (by revert t; exact (by decide +kernel : ∀ t : Fin grid1.N, ∀ a, win1_4.index t a * main_arg5.ty.shape.size a = 0))
  unfold iblk1
  exact Memref.read_access_unit_zero (Elt F) main_arg5 hz' (fun a => by rw [congrFun hz' a]; simp) (V c main_arg5)

/-- Window 5's one block is the whole array. -/
theorem iblk1_5 (c : Dev nD) (t : Fin cfg1.N) : iblk1 V c 5 t = V c main_arg6 := by
  have hz' : (fun a => win1_5.index t a * main_arg6.ty.shape.size a) = fun _ => 0 :=
    funext (by revert t; exact (by decide +kernel : ∀ t : Fin grid1.N, ∀ a, win1_5.index t a * main_arg6.ty.shape.size a = 0))
  unfold iblk1
  exact Memref.read_access_unit_zero (Elt F) main_arg6 hz' (fun a => by rw [congrFun hz' a]; simp) (V c main_arg6)

/-- Window 6's one block is the whole array. -/
theorem iblk1_6 (c : Dev nD) (t : Fin cfg1.N) : iblk1 V c 6 t = V c main_arg7 := by
  have hz' : (fun a => win1_6.index t a * main_arg7.ty.shape.size a) = fun _ => 0 :=
    funext (by revert t; exact (by decide +kernel : ∀ t : Fin grid1.N, ∀ a, win1_6.index t a * main_arg7.ty.shape.size a = 0))
  unfold iblk1
  exact Memref.read_access_unit_zero (Elt F) main_arg7 hz' (fun a => by rw [congrFun hz' a]; simp) (V c main_arg7)

/-- Window 7's one block is the whole array. -/
theorem iblk1_7 (c : Dev nD) (t : Fin cfg1.N) : iblk1 V c 7 t = V c main_arg8 := by
  have hz' : (fun a => win1_7.index t a * main_arg8.ty.shape.size a) = fun _ => 0 :=
    funext (by revert t; exact (by decide +kernel : ∀ t : Fin grid1.N, ∀ a, win1_7.index t a * main_arg8.ty.shape.size a = 0))
  unfold iblk1
  exact Memref.read_access_unit_zero (Elt F) main_arg8 hz' (fun a => by rw [congrFun hz' a]; simp) (V c main_arg8)

/-- Window 8's one block is the whole array. -/
theorem iblk1_8 (c : Dev nD) (t : Fin cfg1.N) : iblk1 V c 8 t = V c main_arg9 := by
  have hz' : (fun a => win1_8.index t a * main_arg9.ty.shape.size a) = fun _ => 0 :=
    funext (by revert t; exact (by decide +kernel : ∀ t : Fin grid1.N, ∀ a, win1_8.index t a * main_arg9.ty.shape.size a = 0))
  unfold iblk1
  exact Memref.read_access_unit_zero (Elt F) main_arg9 hz' (fun a => by rw [congrFun hz' a]; simp) (V c main_arg9)

/-- Window 9's one block is the whole array. -/
theorem iblk1_9 (c : Dev nD) (t : Fin cfg1.N) : iblk1 V c 9 t = V c main_arg10 := by
  have hz' : (fun a => win1_9.index t a * main_arg10.ty.shape.size a) = fun _ => 0 :=
    funext (by revert t; exact (by decide +kernel : ∀ t : Fin grid1.N, ∀ a, win1_9.index t a * main_arg10.ty.shape.size a = 0))
  unfold iblk1
  exact Memref.read_access_unit_zero (Elt F) main_arg10 hz' (fun a => by rw [congrFun hz' a]; simp) (V c main_arg10)

/-- Window 10's one block is the whole array. -/
theorem iblk1_10 (c : Dev nD) (t : Fin cfg1.N) : iblk1 V c 10 t = V c main_arg11 := by
  have hz' : (fun a => win1_10.index t a * main_arg11.ty.shape.size a) = fun _ => 0 :=
    funext (by revert t; exact (by decide +kernel : ∀ t : Fin grid1.N, ∀ a, win1_10.index t a * main_arg11.ty.shape.size a = 0))
  unfold iblk1
  exact Memref.read_access_unit_zero (Elt F) main_arg11 hz' (fun a => by rw [congrFun hz' a]; simp) (V c main_arg11)

/-- Window 11's one block is the whole array. -/
theorem iblk1_11 (c : Dev nD) (t : Fin cfg1.N) : iblk1 V c 11 t = V c main_arg12 := by
  have hz' : (fun a => win1_11.index t a * main_arg12.ty.shape.size a) = fun _ => 0 :=
    funext (by revert t; exact (by decide +kernel : ∀ t : Fin grid1.N, ∀ a, win1_11.index t a * main_arg12.ty.shape.size a = 0))
  unfold iblk1
  exact Memref.read_access_unit_zero (Elt F) main_arg12 hz' (fun a => by rw [congrFun hz' a]; simp) (V c main_arg12)

/-- Window 12's one block is the whole array. -/
theorem iblk1_12 (c : Dev nD) (t : Fin cfg1.N) : iblk1 V c 12 t = V c main_arg13 := by
  have hz' : (fun a => win1_12.index t a * main_arg13.ty.shape.size a) = fun _ => 0 :=
    funext (by revert t; exact (by decide +kernel : ∀ t : Fin grid1.N, ∀ a, win1_12.index t a * main_arg13.ty.shape.size a = 0))
  unfold iblk1
  exact Memref.read_access_unit_zero (Elt F) main_arg13 hz' (fun a => by rw [congrFun hz' a]; simp) (V c main_arg13)

/-- Window 13's one block is the whole array. -/
theorem iblk1_13 (c : Dev nD) (t : Fin cfg1.N) : iblk1 V c 13 t = V c main_arg14 := by
  have hz' : (fun a => win1_13.index t a * main_arg14.ty.shape.size a) = fun _ => 0 :=
    funext (by revert t; exact (by decide +kernel : ∀ t : Fin grid1.N, ∀ a, win1_13.index t a * main_arg14.ty.shape.size a = 0))
  unfold iblk1
  exact Memref.read_access_unit_zero (Elt F) main_arg14 hz' (fun a => by rw [congrFun hz' a]; simp) (V c main_arg14)

/-- Window 14's one block is the whole array. -/
theorem iblk1_14 (c : Dev nD) (t : Fin cfg1.N) : iblk1 V c 14 t = V c main_arg15 := by
  have hz' : (fun a => win1_14.index t a * main_arg15.ty.shape.size a) = fun _ => 0 :=
    funext (by revert t; exact (by decide +kernel : ∀ t : Fin grid1.N, ∀ a, win1_14.index t a * main_arg15.ty.shape.size a = 0))
  unfold iblk1
  exact Memref.read_access_unit_zero (Elt F) main_arg15 hz' (fun a => by rw [congrFun hz' a]; simp) (V c main_arg15)

/-- Window 15's one block is the whole array. -/
theorem iblk1_15 (c : Dev nD) (t : Fin cfg1.N) : iblk1 V c 15 t = V c main_arg16 := by
  have hz' : (fun a => win1_15.index t a * main_arg16.ty.shape.size a) = fun _ => 0 :=
    funext (by revert t; exact (by decide +kernel : ∀ t : Fin grid1.N, ∀ a, win1_15.index t a * main_arg16.ty.shape.size a = 0))
  unfold iblk1
  exact Memref.read_access_unit_zero (Elt F) main_arg16 hz' (fun a => by rw [congrFun hz' a]; simp) (V c main_arg16)

/-- Window 16's one block is the whole array. -/
theorem iblk1_16 (c : Dev nD) (t : Fin cfg1.N) : iblk1 V c 16 t = V c main_arg17 := by
  have hz' : (fun a => win1_16.index t a * main_arg17.ty.shape.size a) = fun _ => 0 :=
    funext (by revert t; exact (by decide +kernel : ∀ t : Fin grid1.N, ∀ a, win1_16.index t a * main_arg17.ty.shape.size a = 0))
  unfold iblk1
  exact Memref.read_access_unit_zero (Elt F) main_arg17 hz' (fun a => by rw [congrFun hz' a]; simp) (V c main_arg17)

/-- Window 17's one block is the whole array. -/
theorem iblk1_17 (c : Dev nD) (t : Fin cfg1.N) : iblk1 V c 17 t = V c main_arg18 := by
  have hz' : (fun a => win1_17.index t a * main_arg18.ty.shape.size a) = fun _ => 0 :=
    funext (by revert t; exact (by decide +kernel : ∀ t : Fin grid1.N, ∀ a, win1_17.index t a * main_arg18.ty.shape.size a = 0))
  unfold iblk1
  exact Memref.read_access_unit_zero (Elt F) main_arg18 hz' (fun a => by rw [congrFun hz' a]; simp) (V c main_arg18)

/-- Window 18's one block is the whole array. -/
theorem iblk1_18 (c : Dev nD) (t : Fin cfg1.N) : iblk1 V c 18 t = V c main_arg19 := by
  have hz' : (fun a => win1_18.index t a * main_arg19.ty.shape.size a) = fun _ => 0 :=
    funext (by revert t; exact (by decide +kernel : ∀ t : Fin grid1.N, ∀ a, win1_18.index t a * main_arg19.ty.shape.size a = 0))
  unfold iblk1
  exact Memref.read_access_unit_zero (Elt F) main_arg19 hz' (fun a => by rw [congrFun hz' a]; simp) (V c main_arg19)

/-- Window 19's one block is the whole array. -/
theorem iblk1_19 (c : Dev nD) (t : Fin cfg1.N) : iblk1 V c 19 t = V c main_arg20 := by
  have hz' : (fun a => win1_19.index t a * main_arg20.ty.shape.size a) = fun _ => 0 :=
    funext (by revert t; exact (by decide +kernel : ∀ t : Fin grid1.N, ∀ a, win1_19.index t a * main_arg20.ty.shape.size a = 0))
  unfold iblk1
  exact Memref.read_access_unit_zero (Elt F) main_arg20 hz' (fun a => by rw [congrFun hz' a]; simp) (V c main_arg20)

/-- Window 20's one block is the whole array. -/
theorem iblk1_20 (c : Dev nD) (t : Fin cfg1.N) : iblk1 V c 20 t = V c main_arg21 := by
  have hz' : (fun a => win1_20.index t a * main_arg21.ty.shape.size a) = fun _ => 0 :=
    funext (by revert t; exact (by decide +kernel : ∀ t : Fin grid1.N, ∀ a, win1_20.index t a * main_arg21.ty.shape.size a = 0))
  unfold iblk1
  exact Memref.read_access_unit_zero (Elt F) main_arg21 hz' (fun a => by rw [congrFun hz' a]; simp) (V c main_arg21)

/-- Window 21's one block is the whole array. -/
theorem iblk1_21 (c : Dev nD) (t : Fin cfg1.N) : iblk1 V c 21 t = V c main_arg22 := by
  have hz' : (fun a => win1_21.index t a * main_arg22.ty.shape.size a) = fun _ => 0 :=
    funext (by revert t; exact (by decide +kernel : ∀ t : Fin grid1.N, ∀ a, win1_21.index t a * main_arg22.ty.shape.size a = 0))
  unfold iblk1
  exact Memref.read_access_unit_zero (Elt F) main_arg22 hz' (fun a => by rw [congrFun hz' a]; simp) (V c main_arg22)

/-- Window 22's one block is the whole array. -/
theorem iblk1_22 (c : Dev nD) (t : Fin cfg1.N) : iblk1 V c 22 t = V c main_arg23 := by
  have hz' : (fun a => win1_22.index t a * main_arg23.ty.shape.size a) = fun _ => 0 :=
    funext (by revert t; exact (by decide +kernel : ∀ t : Fin grid1.N, ∀ a, win1_22.index t a * main_arg23.ty.shape.size a = 0))
  unfold iblk1
  exact Memref.read_access_unit_zero (Elt F) main_arg23 hz' (fun a => by rw [congrFun hz' a]; simp) (V c main_arg23)

/-- What the one point leaves in the output block. -/
theorem after1_mlp (c : Dev nD) (t : Fin cfg1.N) :
    (dat1 V c).after 23 t = KDefs.mlp (V c main_v0) (V c main_arg2) (V c main_arg3) (V c main_arg4) (V c main_arg5) (V c main_arg6) (V c main_arg7) (V c main_arg8) (V c main_arg9) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23) := by
  rw [after1_23, iblk1_0 V c t, iblk1_1 V c t, iblk1_2 V c t, iblk1_3 V c t, iblk1_4 V c t, iblk1_5 V c t, iblk1_6 V c t, iblk1_7 V c t, iblk1_8 V c t, iblk1_9 V c t, iblk1_10 V c t, iblk1_11 V c t, iblk1_12 V c t, iblk1_13 V c t, iblk1_14 V c t, iblk1_15 V c t, iblk1_16 V c t, iblk1_17 V c t, iblk1_18 V c t, iblk1_19 V c t, iblk1_20 V c t, iblk1_21 V c t, iblk1_22 V c t]
  exact out1_eq (V c main_v0) (V c main_arg2) (V c main_arg3) (V c main_arg4) (V c main_arg5) (V c main_arg6) (V c main_arg7) (V c main_arg8) (V c main_arg9) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23)

/-- What the one point writes back is the (one, whole) block of the perceptron function. -/
theorem flushed1_eq (c : Dev nD) (t : Fin cfg1.N) (hf : (cfg1.win 23).flush t = true) :
    (dat1 V c).flushed 23 t
      = ((cfg1.win 23).blk t).view.read (Elt F) (KDefs.mlp (V c main_v0) (V c main_arg2) (V c main_arg3) (V c main_arg4) (V c main_arg5) (V c main_arg6) (V c main_arg7) (V c main_arg8) (V c main_arg9) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23)) := by
  show (cfg1.win 23).cut (grid1.coords t) ((dat1 V c).after 23 t) = _
  rw [after1_mlp V c t]
  have hz' : (fun a => win1_23.index t a * main_v1.ty.shape.size a) = fun _ => 0 :=
    funext ((by decide +kernel : ∀ t : Fin grid1.N, ∀ a, win1_23.index t a * main_v1.ty.shape.size a = 0) t)
  exact (Memref.read_access_unit_zero (Elt F) main_v1 hz' (fun a => by rw [congrFun hz' a]; simp) _).symm

/-- Every index of the result array is in the one block. -/
theorem cover1 (c : Dev nD) (i : ((cfg1.win 23).arr.view.loc (c.tc : Thread nD τ)).2.ty.Idx) :
    ∃ t : Fin cfg1.N, (cfg1.win 23).flush t = true ∧ i ∈ ((cfg1.win 23).blk t).view.set := by
  have hi0 : ((i 0 : Fin 32) : Nat) < 32 := (i 0).isLt
  have hi1 : ((i 1 : Fin 512) : Nat) < 512 := (i 1).isLt
  have hN : cfg1.N = 1 := rfl
  obtain ⟨t0, ht0⟩ : ∃ t0 : Fin cfg1.N, t0.val = 0 := ⟨⟨0, by rw [hN]; omega⟩, rfl⟩
  have hz' : ∀ a, win1_23.index t0 a = 0 := by
    revert t0; exact (by decide +kernel : ∀ t : Fin grid1.N, t.val = 0 → ∀ a, win1_23.index t a = 0)
  refine ⟨t0, flush1_23 t0, ?_⟩
  show i ∈ ((View.whole main_v1).slice (win1_23.rect t0)).set
  rw [View.set_slice_whole, Rect.mem_set_unit]
  intro a
  match a with
  | ⟨0, _⟩ =>
    show win1_23.index t0 0 * 32 ≤ ((i 0 : Fin 32) : Nat) ∧ ((i 0 : Fin 32) : Nat) < win1_23.index t0 0 * 32 + 32
    rw [hz' 0]; omega
  | ⟨1, _⟩ =>
    show win1_23.index t0 1 * 512 ≤ ((i 1 : Fin 512) : Nat) ∧ ((i 1 : Fin 512) : Nat) < win1_23.index t0 1 * 512 + 512
    rw [hz' 1]; omega

/-- THE SECOND LAUNCH'S RESULT: after its one point the result array holds the perceptron function of the 23 operand
    arrays as the launch found them. -/
theorem mlp_arr (c : Dev nD) :
    (dat1 V c).arrAt 23 cfg1.N = KDefs.mlp (V c main_v0) (V c main_arg2) (V c main_arg3) (V c main_arg4) (V c main_arg5) (V c main_arg6) (V c main_arg7) (V c main_arg8) (V c main_arg9) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23) :=
  (dat1 V c).arrAt_eq_of_cover 23 (KDefs.mlp (V c main_v0) (V c main_arg2) (V c main_arg3) (V c main_arg4) (V c main_arg5) (V c main_arg6) (V c main_arg7) (V c main_arg8) (V c main_arg9) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23)) (flushed1_eq V c) (cover1 c)

end Cert.KernelIdeal.KRegion1

end
-- ==== Proof.KRun.lean ====
/-
  The idealized kernel program's run with its result named: every weakly fair execution of @main on the TensorCores
  terminates with the result array at `KDefs.out` of the 24 argument arrays as launched, and the arguments unchanged.
  The first launch leaves the feature array (KRegion0), the second reads it and the 22 other operands, which no launch
  writes, and leaves the perceptron's value (KRegion1); the launch kit reads the final memory against the last
  boundary's contents.
-/
import proofs.«165364_j46282567582129_2_alg».proof.Proof.Gen.KernelIdeal.Frame
import proofs.«165364_j46282567582129_2_alg».proof.Proof.KDefs
import proofs.«165364_j46282567582129_2_alg».proof.Proof.KRegion0
import proofs.«165364_j46282567582129_2_alg».proof.Proof.KRegion1
import Idealize.ShloMosaic.Lib.Pipeline.Value
import Idealize.ShloMosaic.Lib.WholeRead
import Idealize.ShloMosaic.Lib.Tactic

set_option maxRecDepth 16384

noncomputable section

namespace Cert.KernelIdeal.KRun

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

open Idealize.ShloMosaic.Rounds
open Idealize.ShloMosaic.Pipeline (BodyObligation cellOf)

local notation "𝕄" => MT nD τ sig Unit (Elt F) ℕ (UR sig nD τ) ℕ

variable (m : (ℓ : Loc nD τ sig) → Buf (Elt F) ℓ) (ρ : Dev nD → PrngReg)

/-- The feature array as the second launch finds it: the first launch's result on the point cloud and the basis as
    launched. -/
theorem V1_main_v0 (c : Dev nD) :
    V1 m ρ c main_v0 = KDefs.feat (m ((c.tc : Thread nD τ).loc main_arg0)) (m ((c.tc : Thread nD τ).loc main_arg1)) :=
  (W1_arr m ρ c 2).trans (KRegion0.feat_arr (V0 m ρ) c)

/-- The first launch does not touch argument 2. -/
theorem V1_main_arg2 (c : Dev nD) : V1 m ρ c main_arg2 = m ((c.tc : Thread nD τ).loc main_arg2) :=
  W1_of_ne m ρ c main_arg2 (by decide)
/-- The first launch does not touch argument 3. -/
theorem V1_main_arg3 (c : Dev nD) : V1 m ρ c main_arg3 = m ((c.tc : Thread nD τ).loc main_arg3) :=
  W1_of_ne m ρ c main_arg3 (by decide)
/-- The first launch does not touch argument 4. -/
theorem V1_main_arg4 (c : Dev nD) : V1 m ρ c main_arg4 = m ((c.tc : Thread nD τ).loc main_arg4) :=
  W1_of_ne m ρ c main_arg4 (by decide)
/-- The first launch does not touch argument 5. -/
theorem V1_main_arg5 (c : Dev nD) : V1 m ρ c main_arg5 = m ((c.tc : Thread nD τ).loc main_arg5) :=
  W1_of_ne m ρ c main_arg5 (by decide)
/-- The first launch does not touch argument 6. -/
theorem V1_main_arg6 (c : Dev nD) : V1 m ρ c main_arg6 = m ((c.tc : Thread nD τ).loc main_arg6) :=
  W1_of_ne m ρ c main_arg6 (by decide)
/-- The first launch does not touch argument 7. -/
theorem V1_main_arg7 (c : Dev nD) : V1 m ρ c main_arg7 = m ((c.tc : Thread nD τ).loc main_arg7) :=
  W1_of_ne m ρ c main_arg7 (by decide)
/-- The first launch does not touch argument 8. -/
theorem V1_main_arg8 (c : Dev nD) : V1 m ρ c main_arg8 = m ((c.tc : Thread nD τ).loc main_arg8) :=
  W1_of_ne m ρ c main_arg8 (by decide)
/-- The first launch does not touch argument 9. -/
theorem V1_main_arg9 (c : Dev nD) : V1 m ρ c main_arg9 = m ((c.tc : Thread nD τ).loc main_arg9) :=
  W1_of_ne m ρ c main_arg9 (by decide)
/-- The first launch does not touch argument 10. -/
theorem V1_main_arg10 (c : Dev nD) : V1 m ρ c main_arg10 = m ((c.tc : Thread nD τ).loc main_arg10) :=
  W1_of_ne m ρ c main_arg10 (by decide)
/-- The first launch does not touch argument 11. -/
theorem V1_main_arg11 (c : Dev nD) : V1 m ρ c main_arg11 = m ((c.tc : Thread nD τ).loc main_arg11) :=
  W1_of_ne m ρ c main_arg11 (by decide)
/-- The first launch does not touch argument 12. -/
theorem V1_main_arg12 (c : Dev nD) : V1 m ρ c main_arg12 = m ((c.tc : Thread nD τ).loc main_arg12) :=
  W1_of_ne m ρ c main_arg12 (by decide)
/-- The first launch does not touch argument 13. -/
theorem V1_main_arg13 (c : Dev nD) : V1 m ρ c main_arg13 = m ((c.tc : Thread nD τ).loc main_arg13) :=
  W1_of_ne m ρ c main_arg13 (by decide)
/-- The first launch does not touch argument 14. -/
theorem V1_main_arg14 (c : Dev nD) : V1 m ρ c main_arg14 = m ((c.tc : Thread nD τ).loc main_arg14) :=
  W1_of_ne m ρ c main_arg14 (by decide)
/-- The first launch does not touch argument 15. -/
theorem V1_main_arg15 (c : Dev nD) : V1 m ρ c main_arg15 = m ((c.tc : Thread nD τ).loc main_arg15) :=
  W1_of_ne m ρ c main_arg15 (by decide)
/-- The first launch does not touch argument 16. -/
theorem V1_main_arg16 (c : Dev nD) : V1 m ρ c main_arg16 = m ((c.tc : Thread nD τ).loc main_arg16) :=
  W1_of_ne m ρ c main_arg16 (by decide)
/-- The first launch does not touch argument 17. -/
theorem V1_main_arg17 (c : Dev nD) : V1 m ρ c main_arg17 = m ((c.tc : Thread nD τ).loc main_arg17) :=
  W1_of_ne m ρ c main_arg17 (by decide)
/-- The first launch does not touch argument 18. -/
theorem V1_main_arg18 (c : Dev nD) : V1 m ρ c main_arg18 = m ((c.tc : Thread nD τ).loc main_arg18) :=
  W1_of_ne m ρ c main_arg18 (by decide)
/-- The first launch does not touch argument 19. -/
theorem V1_main_arg19 (c : Dev nD) : V1 m ρ c main_arg19 = m ((c.tc : Thread nD τ).loc main_arg19) :=
  W1_of_ne m ρ c main_arg19 (by decide)
/-- The first launch does not touch argument 20. -/
theorem V1_main_arg20 (c : Dev nD) : V1 m ρ c main_arg20 = m ((c.tc : Thread nD τ).loc main_arg20) :=
  W1_of_ne m ρ c main_arg20 (by decide)
/-- The first launch does not touch argument 21. -/
theorem V1_main_arg21 (c : Dev nD) : V1 m ρ c main_arg21 = m ((c.tc : Thread nD τ).loc main_arg21) :=
  W1_of_ne m ρ c main_arg21 (by decide)
/-- The first launch does not touch argument 22. -/
theorem V1_main_arg22 (c : Dev nD) : V1 m ρ c main_arg22 = m ((c.tc : Thread nD τ).loc main_arg22) :=
  W1_of_ne m ρ c main_arg22 (by decide)
/-- The first launch does not touch argument 23. -/
theorem V1_main_arg23 (c : Dev nD) : V1 m ρ c main_arg23 = m ((c.tc : Thread nD τ).loc main_arg23) :=
  W1_of_ne m ρ c main_arg23 (by decide)

set_option maxHeartbeats 4000000 in
/-- The result array at the last boundary is the program's result function of the arguments as launched. -/
theorem W2_main_v1 (c : Dev nD) :
    W2 m ρ c (Proc.devRef .tc main_v1) = KDefs.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  calc W2 m ρ c (Proc.devRef .tc main_v1)
    _ = (dat1 (V1 m ρ) c).arrAt 23 cfg1.N := W2_arr m ρ c 23
    _ = KDefs.mlp (V1 m ρ c main_v0) (V1 m ρ c main_arg2) (V1 m ρ c main_arg3) (V1 m ρ c main_arg4) (V1 m ρ c main_arg5) (V1 m ρ c main_arg6) (V1 m ρ c main_arg7) (V1 m ρ c main_arg8) (V1 m ρ c main_arg9) (V1 m ρ c main_arg10) (V1 m ρ c main_arg11) (V1 m ρ c main_arg12) (V1 m ρ c main_arg13) (V1 m ρ c main_arg14) (V1 m ρ c main_arg15) (V1 m ρ c main_arg16) (V1 m ρ c main_arg17) (V1 m ρ c main_arg18) (V1 m ρ c main_arg19) (V1 m ρ c main_arg20) (V1 m ρ c main_arg21) (V1 m ρ c main_arg22) (V1 m ρ c main_arg23) := KRegion1.mlp_arr (V1 m ρ) c
    _ = KDefs.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
      rw [V1_main_v0 m ρ c, V1_main_arg2 m ρ c, V1_main_arg3 m ρ c, V1_main_arg4 m ρ c, V1_main_arg5 m ρ c, V1_main_arg6 m ρ c, V1_main_arg7 m ρ c, V1_main_arg8 m ρ c, V1_main_arg9 m ρ c, V1_main_arg10 m ρ c, V1_main_arg11 m ρ c, V1_main_arg12 m ρ c, V1_main_arg13 m ρ c, V1_main_arg14 m ρ c, V1_main_arg15 m ρ c, V1_main_arg16 m ρ c, V1_main_arg17 m ρ c, V1_main_arg18 m ρ c, V1_main_arg19 m ρ c, V1_main_arg20 m ρ c, V1_main_arg21 m ρ c, V1_main_arg22 m ρ c, V1_main_arg23 m ρ c]
      rfl

set_option backward.isDefEq.respectTransparency.types false in
/-- THE RUN: at the compiled mesh, from any memory with zero counters, every weakly fair execution of @main on the
    TensorCores terminates, nothing faulting, and every final state has the result array at `KDefs.out` of the
    arguments as launched and the argument arrays as launched. -/
theorem run : θ_run defs (onTc (τ := τ) (main (F := F))) ⟨m, fun _ => 0, ρ⟩ (fun r => ∀ c : Dev nD,
      r.2.mem ((c.tc : Thread nD τ).loc main_v1) = KDefs.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c),
       (h c _ (mem_uc main_arg10 (by decide))).trans (W2_main_arg10 m ρ c),
       (h c _ (mem_uc main_arg11 (by decide))).trans (W2_main_arg11 m ρ c),
       (h c _ (mem_uc main_arg12 (by decide))).trans (W2_main_arg12 m ρ c),
       (h c _ (mem_uc main_arg13 (by decide))).trans (W2_main_arg13 m ρ c),
       (h c _ (mem_uc main_arg14 (by decide))).trans (W2_main_arg14 m ρ c),
       (h c _ (mem_uc main_arg15 (by decide))).trans (W2_main_arg15 m ρ c),
       (h c _ (mem_uc main_arg16 (by decide))).trans (W2_main_arg16 m ρ c),
       (h c _ (mem_uc main_arg17 (by decide))).trans (W2_main_arg17 m ρ c),
       (h c _ (mem_uc main_arg18 (by decide))).trans (W2_main_arg18 m ρ c),
       (h c _ (mem_uc main_arg19 (by decide))).trans (W2_main_arg19 m ρ c),
       (h c _ (mem_uc main_arg20 (by decide))).trans (W2_main_arg20 m ρ c),
       (h c _ (mem_uc main_arg21 (by decide))).trans (W2_main_arg21 m ρ c),
       (h c _ (mem_uc main_arg22 (by decide))).trans (W2_main_arg22 m ρ c),
       (h c _ (mem_uc main_arg23 (by decide))).trans (W2_main_arg23 m ρ c)⟩)

end Cert.KernelIdeal.KRun

end
-- ==== Proof.RDefs.lean ====
/-
  The reference program's result as one pure function of its 24 argument arrays, composed of named stages.

  `feat`: the basis-point-set encoding — entry (b, p) is the square root of the minimum, over the 2048 points n of
  batch element b, of max(|x_n|² + |basis_p|² − 2·⟨x_n, basis_p⟩, 0).
  `bnN`: batch normalisation over the 32 rows (training mode): (x − mean) · rsqrt(var + ε) · g + b, the variance the
  mean of the squared centred values (divisor 32 − 0, selected against NaN by the sign of the divisor).
  `layerN`: a dense layer with bias followed by max(·, 0).  `cat2`, `cat3`: concatenation along the feature axis.
  Each body is the composition of the program's operations in the program's order, written as nested applications.
-/
import proofs.«165364_j46282567582129_2_alg».proof.ReferenceIdeal

noncomputable section

namespace Cert.ReferenceIdeal.RDefs

open Idealize.ShloMosaic Cert.ReferenceIdeal
open Cert.ReferenceIdeal.Facts₀ Cert.ReferenceIdeal.Facts

variable {F : FTy → Type} [FloatOps F] [Facts]

/-- The feature array [32, 1024]: √(min over the 2048 points of max(|x|² + |basis|² − 2·x·basisᵀ, 0)). -/
def feat (x : FVec F S32x3x2048 .f32) (basis : FVec F S1024x3 .f32) : FVec F S32x1024 .f32 :=
  Host.sqrt (Host.reduce FloatOps.minimumf (shapeCast S32x2048x1024 (maximumf (subf (addf (broadcastInDim S65536x1024 ![0, 1]
    bcast_S65536x1_S65536x1024_0_1 (broadcastInDim S65536x1 ![0] bcast_S65536_S65536x1_0 (Host.reduceAdd (mulf (shapeCast S65536x3 (transpose
    S32x2048x3 [0, 2, 1] x transposes_S32x3x2048_S32x2048x3_0_2_1) shapeCasts_S32x2048x3_S65536x3) (shapeCast S65536x3 (transpose S32x2048x3 [0,
    2, 1] x transposes_S32x3x2048_S32x2048x3_0_2_1) shapeCasts_S32x2048x3_S65536x3)) (constant S_ .f32 0x00000000#32)
    reducesTo_S65536x3_S65536_d1 h_S_))) (broadcastInDim S65536x1024 ![0, 1] bcast_S1x1024_S65536x1024_0_1 (broadcastInDim S1x1024 ![1]
    bcast_S1024_S1x1024_1 (Host.reduceAdd (mulf basis basis) (constant S_ .f32 0x00000000#32) reducesTo_S1024x3_S1024_d1 h_S_)))) (mulf
    (broadcastInDim S65536x1024 ![] bcast_S_S65536x1024 (constant S_ .f32 0x40000000#32)) (Host.dotGeneral
    dot_S65536x3_S3x1024_S65536x1024_1_0_0_1_n_n none (shapeCast S65536x3 (transpose S32x2048x3 [0, 2, 1] x
    transposes_S32x3x2048_S32x2048x3_0_2_1) shapeCasts_S32x2048x3_S65536x3) (transpose S3x1024 [1, 0] basis transposes_S1024x3_S3x1024_1_0))))
    (broadcastInDim S65536x1024 ![] bcast_S_S65536x1024 (constant S_ .f32 0x00000000#32))) shapeCasts_S65536x1024_S32x2048x1024) (constant S_
    .f32 0x7F800000#32) reducesTo_S32x2048x1024_S32x1024_d1 h_S_)

/-- Batch normalisation of a [32, 1024] array over its 32 rows: (x − mean)·rsqrt(var + ε)·g + b. -/
def bn1024 (x : FVec F S32x1024 .f32) (g b : FVec F S1024 .f32) : FVec F S32x1024 .f32 :=
  addf (mulf (mulf (subf x (broadcastInDim S32x1024 ![0, 1] bcast_S1x1024_S32x1024_0_1 (broadcastInDim S1x1024 ![1] bcast_S1024_S1x1024_1
    (Host.divf (Host.reduceAdd x (constant S_ .f32 0x00000000#32) reducesTo_S32x1024_S1024_d0 h_S_) (broadcastInDim S1024 ![] bcast_S_S1024
    (constant S_ .f32 0x42000000#32)))))) (broadcastInDim S32x1024 ![0, 1] bcast_S1x1024_S32x1024_0_1 (broadcastInDim S1x1024 ![1]
    bcast_S1024_S1x1024_1 (Host.rsqrt (addf (select (broadcastInDim S1024 ![] bcast_S_S1024 (cmpf (F := F) .ogt (subf (constant S_ .f32
    0x42000000#32) (sitofp .f32 (constantI S_ 32 0#32))) (constant S_ .f32 0x00000000#32))) (Host.divf (Host.reduceAdd (mulf (subf x
    (broadcastInDim S32x1024 ![0, 1] bcast_S1x1024_S32x1024_0_1 (Host.divf (broadcastInDim S1x1024 ![1] bcast_S1024_S1x1024_1 (Host.reduceAdd x
    (constant S_ .f32 0x00000000#32) reducesTo_S32x1024_S1024_d0 h_S_)) (broadcastInDim S1x1024 ![] bcast_S_S1x1024 (constant S_ .f32
    0x42000000#32))))) (subf x (broadcastInDim S32x1024 ![0, 1] bcast_S1x1024_S32x1024_0_1 (Host.divf (broadcastInDim S1x1024 ![1]
    bcast_S1024_S1x1024_1 (Host.reduceAdd x (constant S_ .f32 0x00000000#32) reducesTo_S32x1024_S1024_d0 h_S_)) (broadcastInDim S1x1024 ![]
    bcast_S_S1x1024 (constant S_ .f32 0x42000000#32)))))) (constant S_ .f32 0x00000000#32) reducesTo_S32x1024_S1024_d0 h_S_) (broadcastInDim
    S1024 ![] bcast_S_S1024 (subf (constant S_ .f32 0x42000000#32) (sitofp .f32 (constantI S_ 32 0#32))))) (broadcastInDim S1024 ![]
    bcast_S_S1024 (constant S_ .f32 0x7FC00000#32))) (broadcastInDim S1024 ![] bcast_S_S1024 (constant S_ .f32 0x3727C5AC#32)))))))
    (broadcastInDim S32x1024 ![0, 1] bcast_S1x1024_S32x1024_0_1 (broadcastInDim S1x1024 ![1] bcast_S1024_S1x1024_1 g))) (broadcastInDim S32x1024
    ![0, 1] bcast_S1x1024_S32x1024_0_1 (broadcastInDim S1x1024 ![1] bcast_S1024_S1x1024_1 b))

/-- Batch normalisation of a [32, 256] array over its 32 rows: (x − mean)·rsqrt(var + ε)·g + b. -/
def bn256 (x : FVec F S32x256 .f32) (g b : FVec F S256 .f32) : FVec F S32x256 .f32 :=
  addf (mulf (mulf (subf x (broadcastInDim S32x256 ![0, 1] bcast_S1x256_S32x256_0_1 (broadcastInDim S1x256 ![1] bcast_S256_S1x256_1 (Host.divf
    (Host.reduceAdd x (constant S_ .f32 0x00000000#32) reducesTo_S32x256_S256_d0 h_S_) (broadcastInDim S256 ![] bcast_S_S256 (constant S_ .f32
    0x42000000#32)))))) (broadcastInDim S32x256 ![0, 1] bcast_S1x256_S32x256_0_1 (broadcastInDim S1x256 ![1] bcast_S256_S1x256_1 (Host.rsqrt
    (addf (select (broadcastInDim S256 ![] bcast_S_S256 (cmpf (F := F) .ogt (subf (constant S_ .f32 0x42000000#32) (sitofp .f32 (constantI S_ 32
    0#32))) (constant S_ .f32 0x00000000#32))) (Host.divf (Host.reduceAdd (mulf (subf x (broadcastInDim S32x256 ![0, 1] bcast_S1x256_S32x256_0_1
    (Host.divf (broadcastInDim S1x256 ![1] bcast_S256_S1x256_1 (Host.reduceAdd x (constant S_ .f32 0x00000000#32) reducesTo_S32x256_S256_d0
    h_S_)) (broadcastInDim S1x256 ![] bcast_S_S1x256 (constant S_ .f32 0x42000000#32))))) (subf x (broadcastInDim S32x256 ![0, 1]
    bcast_S1x256_S32x256_0_1 (Host.divf (broadcastInDim S1x256 ![1] bcast_S256_S1x256_1 (Host.reduceAdd x (constant S_ .f32 0x00000000#32)
    reducesTo_S32x256_S256_d0 h_S_)) (broadcastInDim S1x256 ![] bcast_S_S1x256 (constant S_ .f32 0x42000000#32)))))) (constant S_ .f32
    0x00000000#32) reducesTo_S32x256_S256_d0 h_S_) (broadcastInDim S256 ![] bcast_S_S256 (subf (constant S_ .f32 0x42000000#32) (sitofp .f32
    (constantI S_ 32 0#32))))) (broadcastInDim S256 ![] bcast_S_S256 (constant S_ .f32 0x7FC00000#32))) (broadcastInDim S256 ![] bcast_S_S256
    (constant S_ .f32 0x3727C5AC#32))))))) (broadcastInDim S32x256 ![0, 1] bcast_S1x256_S32x256_0_1 (broadcastInDim S1x256 ![1]
    bcast_S256_S1x256_1 g))) (broadcastInDim S32x256 ![0, 1] bcast_S1x256_S32x256_0_1 (broadcastInDim S1x256 ![1] bcast_S256_S1x256_1 b))

/-- Batch normalisation of a [32, 512] array over its 32 rows: (x − mean)·rsqrt(var + ε)·g + b. -/
def bn512 (x : FVec F S32x512 .f32) (g b : FVec F S512 .f32) : FVec F S32x512 .f32 :=
  addf (mulf (mulf (subf x (broadcastInDim S32x512 ![0, 1] bcast_S1x512_S32x512_0_1 (broadcastInDim S1x512 ![1] bcast_S512_S1x512_1 (Host.divf
    (Host.reduceAdd x (constant S_ .f32 0x00000000#32) reducesTo_S32x512_S512_d0 h_S_) (broadcastInDim S512 ![] bcast_S_S512 (constant S_ .f32
    0x42000000#32)))))) (broadcastInDim S32x512 ![0, 1] bcast_S1x512_S32x512_0_1 (broadcastInDim S1x512 ![1] bcast_S512_S1x512_1 (Host.rsqrt
    (addf (select (broadcastInDim S512 ![] bcast_S_S512 (cmpf (F := F) .ogt (subf (constant S_ .f32 0x42000000#32) (sitofp .f32 (constantI S_ 32
    0#32))) (constant S_ .f32 0x00000000#32))) (Host.divf (Host.reduceAdd (mulf (subf x (broadcastInDim S32x512 ![0, 1] bcast_S1x512_S32x512_0_1
    (Host.divf (broadcastInDim S1x512 ![1] bcast_S512_S1x512_1 (Host.reduceAdd x (constant S_ .f32 0x00000000#32) reducesTo_S32x512_S512_d0
    h_S_)) (broadcastInDim S1x512 ![] bcast_S_S1x512 (constant S_ .f32 0x42000000#32))))) (subf x (broadcastInDim S32x512 ![0, 1]
    bcast_S1x512_S32x512_0_1 (Host.divf (broadcastInDim S1x512 ![1] bcast_S512_S1x512_1 (Host.reduceAdd x (constant S_ .f32 0x00000000#32)
    reducesTo_S32x512_S512_d0 h_S_)) (broadcastInDim S1x512 ![] bcast_S_S1x512 (constant S_ .f32 0x42000000#32)))))) (constant S_ .f32
    0x00000000#32) reducesTo_S32x512_S512_d0 h_S_) (broadcastInDim S512 ![] bcast_S_S512 (subf (constant S_ .f32 0x42000000#32) (sitofp .f32
    (constantI S_ 32 0#32))))) (broadcastInDim S512 ![] bcast_S_S512 (constant S_ .f32 0x7FC00000#32))) (broadcastInDim S512 ![] bcast_S_S512
    (constant S_ .f32 0x3727C5AC#32))))))) (broadcastInDim S32x512 ![0, 1] bcast_S1x512_S32x512_0_1 (broadcastInDim S1x512 ![1]
    bcast_S512_S1x512_1 g))) (broadcastInDim S32x512 ![0, 1] bcast_S1x512_S32x512_0_1 (broadcastInDim S1x512 ![1] bcast_S512_S1x512_1 b))

/-- The dense layer [32, 1024] → [32, 256]: max(x·Wᵀ + b, 0). -/
def layer1024 (x : FVec F S32x1024 .f32) (W : FVec F S256x1024 .f32) (b : FVec F S256 .f32) : FVec F S32x256 .f32 :=
  maximumf (addf (Host.dotGeneral dot_S32x1024_S1024x256_S32x256_1_0_0_1_n_n none x (transpose S1024x256 [1, 0] W
    transposes_S256x1024_S1024x256_1_0)) (broadcastInDim S32x256 ![0, 1] bcast_S1x256_S32x256_0_1 (broadcastInDim S1x256 ![1]
    bcast_S256_S1x256_1 b))) (broadcastInDim S32x256 ![] bcast_S_S32x256 (constant S_ .f32 0x00000000#32))

/-- The dense layer [32, 256] → [32, 256]: max(x·Wᵀ + b, 0). -/
def layer256 (x : FVec F S32x256 .f32) (W : FVec F S256x256 .f32) (b : FVec F S256 .f32) : FVec F S32x256 .f32 :=
  maximumf (addf (Host.dotGeneral dot_S32x256_S256x256_S32x256_1_0_0_1_n_n none x (transpose S256x256 [1, 0] W
    transposes_S256x256_S256x256_1_0)) (broadcastInDim S32x256 ![0, 1] bcast_S1x256_S32x256_0_1 (broadcastInDim S1x256 ![1] bcast_S256_S1x256_1
    b))) (broadcastInDim S32x256 ![] bcast_S_S32x256 (constant S_ .f32 0x00000000#32))

/-- The dense layer [32, 1280] → [32, 256]: max(x·Wᵀ + b, 0). -/
def layer1280 (x : FVec F S32x1280 .f32) (W : FVec F S256x1280 .f32) (b : FVec F S256 .f32) : FVec F S32x256 .f32 :=
  maximumf (addf (Host.dotGeneral dot_S32x1280_S1280x256_S32x256_1_0_0_1_n_n none x (transpose S1280x256 [1, 0] W
    transposes_S256x1280_S1280x256_1_0)) (broadcastInDim S32x256 ![0, 1] bcast_S1x256_S32x256_0_1 (broadcastInDim S1x256 ![1]
    bcast_S256_S1x256_1 b))) (broadcastInDim S32x256 ![] bcast_S_S32x256 (constant S_ .f32 0x00000000#32))

/-- The dense layer [32, 1536] → [32, 512]: max(x·Wᵀ + b, 0). -/
def layer1536 (x : FVec F S32x1536 .f32) (W : FVec F S512x1536 .f32) (b : FVec F S512 .f32) : FVec F S32x512 .f32 :=
  maximumf (addf (Host.dotGeneral dot_S32x1536_S1536x512_S32x512_1_0_0_1_n_n none x (transpose S1536x512 [1, 0] W
    transposes_S512x1536_S1536x512_1_0)) (broadcastInDim S32x512 ![0, 1] bcast_S1x512_S32x512_0_1 (broadcastInDim S1x512 ![1]
    bcast_S512_S1x512_1 b))) (broadcastInDim S32x512 ![] bcast_S_S32x512 (constant S_ .f32 0x00000000#32))

/-- Two arrays side by side along the feature axis: [32, 1024] ++ [32, 256]. -/
def cat2 (u : FVec F S32x1024 .f32) (v : FVec F S32x256 .f32) : FVec F S32x1280 .f32 :=
  concatenate S32x1280 1 [⟨S32x1024, u⟩, ⟨S32x256, v⟩] concatenates_S32x1024_S32x256_S32x1280_d1

/-- Three arrays side by side along the feature axis: [32, 1024] ++ [32, 256] ++ [32, 256]. -/
def cat3 (u : FVec F S32x1024 .f32) (v w : FVec F S32x256 .f32) : FVec F S32x1536 .f32 :=
  concatenate S32x1536 1 [⟨S32x1024, u⟩, ⟨S32x256, v⟩, ⟨S32x256, w⟩] concatenates_S32x1024_S32x256_S32x256_S32x1536_d1

/-- The normalised features. -/
def x0 (a0 : FVec F S32x3x2048 .f32) (a1 : FVec F S1024x3 .f32) (a2 : FVec F S1024 .f32) (a3 : FVec F S1024 .f32) : FVec F S32x1024 .f32 :=
  bn1024 (feat a0 a1) a2 a3

/-- The first block: two dense layers, each followed by batch normalisation. -/
def h1 (a0 : FVec F S32x3x2048 .f32) (a1 : FVec F S1024x3 .f32) (a2 : FVec F S1024 .f32) (a3 : FVec F S1024 .f32) (a4 : FVec F S256x1024 .f32) (a5 : FVec F S256 .f32) (a6 : FVec F S256 .f32) (a7 : FVec F S256 .f32) (a8 : FVec F S256x256 .f32) (a9 : FVec F S256 .f32) (a10 : FVec F S256 .f32) (a11 : FVec F S256 .f32) : FVec F S32x256 .f32 :=
  bn256 (layer256 (bn256 (layer1024 (x0 a0 a1 a2 a3) a4 a5) a6 a7) a8 a9) a10 a11

/-- The second block, on the features and the first block's output side by side. -/
def h2 (a0 : FVec F S32x3x2048 .f32) (a1 : FVec F S1024x3 .f32) (a2 : FVec F S1024 .f32) (a3 : FVec F S1024 .f32) (a4 : FVec F S256x1024 .f32) (a5 : FVec F S256 .f32) (a6 : FVec F S256 .f32) (a7 : FVec F S256 .f32) (a8 : FVec F S256x256 .f32) (a9 : FVec F S256 .f32) (a10 : FVec F S256 .f32) (a11 : FVec F S256 .f32) (a12 : FVec F S256x1280 .f32) (a13 : FVec F S256 .f32) (a14 : FVec F S256 .f32) (a15 : FVec F S256 .f32) (a16 : FVec F S256x256 .f32) (a17 : FVec F S256 .f32) (a18 : FVec F S256 .f32) (a19 : FVec F S256 .f32) : FVec F S32x256 .f32 :=
  bn256 (layer256 (bn256 (layer1280 (cat2 (x0 a0 a1 a2 a3) (h1 a0 a1 a2 a3 a4 a5 a6 a7 a8 a9 a10 a11)) a12 a13) a14 a15) a16 a17) a18 a19

/-- The program's result as a function of its 24 argument arrays. -/
def out (a0 : FVec F S32x3x2048 .f32) (a1 : FVec F S1024x3 .f32) (a2 : FVec F S1024 .f32) (a3 : FVec F S1024 .f32) (a4 : FVec F S256x1024 .f32) (a5 : FVec F S256 .f32) (a6 : FVec F S256 .f32) (a7 : FVec F S256 .f32) (a8 : FVec F S256x256 .f32) (a9 : FVec F S256 .f32) (a10 : FVec F S256 .f32) (a11 : FVec F S256 .f32) (a12 : FVec F S256x1280 .f32) (a13 : FVec F S256 .f32) (a14 : FVec F S256 .f32) (a15 : FVec F S256 .f32) (a16 : FVec F S256x256 .f32) (a17 : FVec F S256 .f32) (a18 : FVec F S256 .f32) (a19 : FVec F S256 .f32) (a20 : FVec F S512x1536 .f32) (a21 : FVec F S512 .f32) (a22 : FVec F S512 .f32) (a23 : FVec F S512 .f32) : FVec F S32x512 .f32 :=
  bn512 (layer1536 (cat3 (x0 a0 a1 a2 a3) (h1 a0 a1 a2 a3 a4 a5 a6 a7 a8 a9 a10 a11) (h2 a0 a1 a2 a3 a4 a5 a6 a7 a8 a9 a10 a11 a12 a13 a14 a15 a16 a17 a18 a19)) a20 a21) a22 a23

end Cert.ReferenceIdeal.RDefs

end
-- ==== Proof.RefRun.lean ====
/-
  The reference program's run, read back: its @main is a straight line of 332 array operations (the functions it
  calls unfolded at their calls), and every weakly fair execution of it terminates with the result buffer at
  `RDefs.out` of the 24 arguments' launch contents and the arguments unchanged.

  The line is read in fourteen stretches, one per stage of `RDefs` (the feature array, six batch normalisations,
  five dense layers, two concatenations): for ANY contents `V` of the device's buffers, the contents after a
  stretch hold the stage's function of what `V` held at the stretch's operands, and every buffer the stretch does
  not write keeps its contents. The stretches compose to the whole line.
-/
import proofs.«165364_j46282567582129_2_alg».proof.Proof.RDefs
import Idealize.ShloMosaic.Lib.StableHlo.Run

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 1: the feature array (its result `main_v20`). -/
abbrev st1 : List (HloOp τ sig (Elt F)) :=
  [ StableHlo.unary main_arg0 main_v0 ((transpose S32x2048x3 [0, 2, 1] · transposes_S32x3x2048_S32x2048x3_0_2_1) : (⟨S32x3x2048, .f32⟩ : BufTy).Contents (Elt F) → (⟨S32x2048x3, .f32⟩ : BufTy).Contents (Elt F)),
    StableHlo.reshape main_v0 main_v1 rfl shapeCasts_S32x2048x3_S65536x3,
    StableHlo.binary main_v1 main_v1 main_v2 (mulf : (⟨S65536x3, .f32⟩ : BufTy).Contents (Elt F) → (⟨S65536x3, .f32⟩ : BufTy).Contents (Elt F) → (⟨S65536x3, .f32⟩ : BufTy).Contents (Elt F)),
    StableHlo.nullary main_cst (constant S_ .f32 0x00000000#32),
    StableHlo.binary main_v2 main_cst main_v3 ((fun x v => Host.reduceAdd x v reducesTo_S65536x3_S65536_d1 h_S_) : (⟨S65536x3, .f32⟩ : BufTy).Contents (Elt F) → (⟨S_, .f32⟩ : BufTy).Contents (Elt F) → (⟨S65536, .f32⟩ : BufTy).Contents (Elt F)),
    StableHlo.unary main_v3 main_v4 (broadcastInDim S65536x1 ![0] bcast_S65536_S65536x1_0 : (⟨S65536, .f32⟩ : BufTy).Contents (Elt F) → (⟨S65536x1, .f32⟩ : BufTy).Contents (Elt F)),
    StableHlo.binary main_arg1 main_arg1 main_v5 (mulf : (⟨S1024x3, .f32⟩ : BufTy).Contents (Elt F) → (⟨S1024x3, .f32⟩ : BufTy).Contents (Elt F) → (⟨S1024x3, .f32⟩ : BufTy).Contents (Elt F)),
    StableHlo.nullary main_cst_0 (constant S_ .f32 0x00000000#32),
    StableHlo.binary main_v5 main_cst_0 main_v6 ((fun x v => Host.reduceAdd x v reducesTo_S1024x3_S1024_d1 h_S_) : (⟨S1024x3, .f32⟩ : BufTy).Contents (Elt F) → (⟨S_, .f32⟩ : BufTy).Contents (Elt F) → (⟨S1024, .f32⟩ : BufTy).Contents (Elt F)),
    StableHlo.unary main_v6 main_v7 (broadcastInDim S1x1024 ![1] bcast_S1024_S1x1024_1 : (⟨S1024, .f32⟩ : BufTy).Contents (Elt F) → (⟨S1x1024, .f32⟩ : BufTy).Contents (Elt F)),
    StableHlo.unary main_v4 main_v8 (broadcastInDim S65536x1024 ![0, 1] bcast_S65536x1_S65536x1024_0_1 : (⟨S65536x1, .f32⟩ : BufTy).Contents (Elt F) → (⟨S65536x1024, .f32⟩ : BufTy).Contents (Elt F)),
    StableHlo.unary main_v7 main_v9 (broadcastInDim S65536x1024 ![0, 1] bcast_S1x1024_S65536x1024_0_1 : (⟨S1x1024, .f32⟩ : BufTy).Contents (Elt F) → (⟨S65536x1024, .f32⟩ : BufTy).Contents (Elt F)),
    StableHlo.binary main_v8 main_v9 main_v10 (addf : (⟨S65536x1024, .f32⟩ : BufTy).Contents (Elt F) → (⟨S65536x1024, .f32⟩ : BufTy).Contents (Elt F) → (⟨S65536x1024, .f32⟩ : BufTy).Contents (Elt F)),
    StableHlo.unary main_arg1 main_v11 ((transpose S3x1024 [1, 0] · transposes_S1024x3_S3x1024_1_0) : (⟨S1024x3, .f32⟩ : BufTy).Contents (Elt F) → (⟨S3x1024, .f32⟩ : BufTy).Contents (Elt F)),
    StableHlo.binary main_v1 main_v11 main_v12 ((fun l r => Host.dotGeneral dot_S65536x3_S3x1024_S65536x1024_1_0_0_1_n_n none l r) : (⟨S65536x3, .f32⟩ : BufTy).Contents (Elt F) → (⟨S3x1024, .f32⟩ : BufTy).Contents (Elt F) → (⟨S65536x1024, .f32⟩ : BufTy).Contents (Elt F)),
    StableHlo.nullary main_cst_1 (constant S_ .f32 0x40000000#32),
    StableHlo.unary main_cst_1 main_v13 (broadcastInDim S65536x1024 ![] bcast_S_S65536x1024 : (⟨S_, .f32⟩ : BufTy).Contents (Elt F) → (⟨S65536x1024, .f32⟩ : BufTy).Contents (Elt F)),
    StableHlo.binary main_v13 main_v12 main_v14 (mulf : (⟨S65536x1024, .f32⟩ : BufTy).Contents (Elt F) → (⟨S65536x1024, .f32⟩ : BufTy).Contents (Elt F) → (⟨S65536x1024, .f32⟩ : BufTy).Contents (Elt F)),
    StableHlo.binary main_v10 main_v14 main_v15 (subf : (⟨S65536x1024, .f32⟩ : BufTy).Contents (Elt F) → (⟨S65536x1024, .f32⟩ : BufTy).Contents (Elt F) → (⟨S65536x1024, .f32⟩ : BufTy).Contents (Elt F)),
    StableHlo.nullary main_cst_2 (constant S_ .f32 0x00000000#32),
    StableHlo.unary main_cst_2 main_v16 (broadcastInDim S65536x1024 ![] bcast_S_S65536x1024 : (⟨S_, .f32⟩ : BufTy).Contents (Elt F) → (⟨S65536x1024, .f32⟩ : BufTy).Contents (Elt F)),
    StableHlo.binary main_v15 main_v16 main_v17 (maximumf : (⟨S65536x1024, .f32⟩ : BufTy).Contents (Elt F) → (⟨S65536x1024, .f32⟩ : BufTy).Contents (Elt F) → (⟨S65536x1024, .f32⟩ : BufTy).Contents (Elt F)),
    StableHlo.reshape main_v17 main_v18 rfl shapeCasts_S65536x1024_S32x2048x1024,
    StableHlo.nullary main_cst_3 (constant S_ .f32 0x7F800000#32),
    StableHlo.binary main_v18 main_cst_3 main_v19 ((fun x v => Host.reduce FloatOps.minimumf x v reducesTo_S32x2048x1024_S32x1024_d1 h_S_) : (⟨S32x2048x1024, .f32⟩ : BufTy).Contents (Elt F) → (⟨S_, .f32⟩ : BufTy).Contents (Elt F) → (⟨S32x1024, .f32⟩ : BufTy).Contents (Elt F)),
    StableHlo.unary main_v19 main_v20 (Host.sqrt : (⟨S32x1024, .f32⟩ : BufTy).Contents (Elt F) → (⟨S32x1024, .f32⟩ : BufTy).Contents (Elt F)) ]

/-- Stretch 2: the batch normalisation of the features (its result `main_v39`). -/
abbrev st2 : List (HloOp τ sig (Elt F)) :=
  [ StableHlo.nullary main_cst_4 (constant S_ .f32 0x00000000#32),
    StableHlo.binary main_v20 main_cst_4 main_v21 ((fun x v => Host.reduceAdd x v reducesTo_S32x1024_S1024_d0 h_S_) : (⟨S32x1024, .f32⟩ : BufTy).Contents (Elt F) → (⟨S_, .f32⟩ : BufTy).Contents (Elt F) → (⟨S1024, .f32⟩ : BufTy).Contents (Elt F)),
    StableHlo.nullary main_cst_5 (constant S_ .f32 0x42000000#32),
    StableHlo.unary main_cst_5 main_v22 (broadcastInDim S1024 ![] bcast_S_S1024 : (⟨S_, .f32⟩ : BufTy).Contents (Elt F) → (⟨S1024, .f32⟩ : BufTy).Contents (Elt F)),
    StableHlo.binary main_v21 main_v22 main_v23 (Host.divf : (⟨S1024, .f32⟩ : BufTy).Contents (Elt F) → (⟨S1024, .f32⟩ : BufTy).Contents (Elt F) → (⟨S1024, .f32⟩ : BufTy).Contents (Elt F)),
    StableHlo.nullary main_c (constantI S_ 32 0#32),
    StableHlo.TRef.nullary main_call0.cst (constant S_ .f32 0x00000000#32),
    StableHlo.TRef.binary (.of main_v20 : StableHlo.TRef sig ⟨S32x1024, .f32⟩) main_call0.cst main_call0.v0 (fun x v => Host.reduceAdd x v reducesTo_S32x1024_S1024_d0 h_S_),
    StableHlo.TRef.unary main_call0.v0 main_call0.v1 (broadcastInDim S1x1024 ![1] bcast_S1024_S1x1024_1),
    StableHlo.TRef.nullary main_call0.cst_0 (constant S_ .f32 0x42000000#32),
    StableHlo.TRef.unary main_call0.cst_0 main_call0.v2 (broadcastInDim S1x1024 ![] bcast_S_S1x1024),
    StableHlo.TRef.binary main_call0.v1 main_call0.v2 main_call0.v3 Host.divf,
    StableHlo.TRef.unary main_call0.v3 main_call0.v4 (broadcastInDim S32x1024 ![0, 1] bcast_S1x1024_S32x1024_0_1),
    StableHlo.TRef.binary (.of main_v20 : StableHlo.TRef sig ⟨S32x1024, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x42000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x1024_S1024_d0 h_S_),
    StableHlo.TRef.unary main_call0.v8 main_call0.v10 (broadcastInDim S1024 ![] bcast_S_S1024),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1024 ![] bcast_S_S1024),
    StableHlo.TRef.ternary main_call0.v12 main_call0.v11 main_call0.call0.v1 main_call0.call0.v2 (fun p a b => select (broadcastInDim S1024 ![] bcast_S_S1024 p) a b),
    StableHlo.unary main_v23 main_v25 (broadcastInDim S1x1024 ![1] bcast_S1024_S1x1024_1 : (⟨S1024, .f32⟩ : BufTy).Contents (Elt F) → (⟨S1x1024, .f32⟩ : BufTy).Contents (Elt F)),
    StableHlo.unary main_v25 main_v26 (broadcastInDim S32x1024 ![0, 1] bcast_S1x1024_S32x1024_0_1 : (⟨S1x1024, .f32⟩ : BufTy).Contents (Elt F) → (⟨S32x1024, .f32⟩ : BufTy).Contents (Elt F)),
    StableHlo.binary main_v20 main_v26 main_v27 (subf : (⟨S32x1024, .f32⟩ : BufTy).Contents (Elt F) → (⟨S32x1024, .f32⟩ : BufTy).Contents (Elt F) → (⟨S32x1024, .f32⟩ : BufTy).Contents (Elt F)),
    StableHlo.nullary main_cst_6 (constant S_ .f32 0x3727C5AC#32),
    StableHlo.unary main_cst_6 main_v28 (broadcastInDim S1024 ![] bcast_S_S1024 : (⟨S_, .f32⟩ : BufTy).Contents (Elt F) → (⟨S1024, .f32⟩ : BufTy).Contents (Elt F)),
    StableHlo.binary main_v24 main_v28 main_v29 (addf : (⟨S1024, .f32⟩ : BufTy).Contents (Elt F) → (⟨S1024, .f32⟩ : BufTy).Contents (Elt F) → (⟨S1024, .f32⟩ : BufTy).Contents (Elt F)),
    StableHlo.unary main_v29 main_v30 (Host.rsqrt : (⟨S1024, .f32⟩ : BufTy).Contents (Elt F) → (⟨S1024, .f32⟩ : BufTy).Contents (Elt F)),
    StableHlo.unary main_v30 main_v31 (broadcastInDim S1x1024 ![1] bcast_S1024_S1x1024_1 : (⟨S1024, .f32⟩ : BufTy).Contents (Elt F) → (⟨S1x1024, .f32⟩ : BufTy).Contents (Elt F)),
    StableHlo.unary main_v31 main_v32 (broadcastInDim S32x1024 ![0, 1] bcast_S1x1024_S32x1024_0_1 : (⟨S1x1024, .f32⟩ : BufTy).Contents (Elt F) → (⟨S32x1024, .f32⟩ : BufTy).Contents (Elt F)),
    StableHlo.binary main_v27 main_v32 main_v33 (mulf : (⟨S32x1024, .f32⟩ : BufTy).Contents (Elt F) → (⟨S32x1024, .f32⟩ : BufTy).Contents (Elt F) → (⟨S32x1024, .f32⟩ : BufTy).Contents (Elt F)),
    StableHlo.unary main_arg2 main_v34 (broadcastInDim S1x1024 ![1] bcast_S1024_S1x1024_1 : (⟨S1024, .f32⟩ : BufTy).Contents (Elt F) → (⟨S1x1024, .f32⟩ : BufTy).Contents (Elt F)),
    StableHlo.unary main_v34 main_v35 (broadcastInDim S32x1024 ![0, 1] bcast_S1x1024_S32x1024_0_1 : (⟨S1x1024, .f32⟩ : BufTy).Contents (Elt F) → (⟨S32x1024, .f32⟩ : BufTy).Contents (Elt F)),
    StableHlo.binary main_v33 main_v35 main_v36 (mulf : (⟨S32x1024, .f32⟩ : BufTy).Contents (Elt F) → (⟨S32x1024, .f32⟩ : BufTy).Contents (Elt F) → (⟨S32x1024, .f32⟩ : BufTy).Contents (Elt F)),
    StableHlo.unary main_arg3 main_v37 (broadcastInDim S1x1024 ![1] bcast_S1024_S1x1024_1 : (⟨S1024, .f32⟩ : BufTy).Contents (Elt F) → (⟨S1x1024, .f32⟩ : BufTy).Contents (Elt F)),
    StableHlo.unary main_v37 main_v38 (broadcastInDim S32x1024 ![0, 1] bcast_S1x1024_S32x1024_0_1 : (⟨S1x1024, .f32⟩ : BufTy).Contents (Elt F) → (⟨S32x1024, .f32⟩ : BufTy).Contents (Elt F)),
    StableHlo.binary main_v36 main_v38 main_v39 (addf : (⟨S32x1024, .f32⟩ : BufTy).Contents (Elt F) → (⟨S32x1024, .f32⟩ : BufTy).Contents (Elt F) → (⟨S32x1024, .f32⟩ : BufTy).Contents (Elt F)) ]

/-- Stretch 3: the dense layer on the normalised features (its result `main_v45`). -/
abbrev st3 : List (HloOp τ sig (Elt F)) :=
  [ StableHlo.unary main_arg4 main_v40 ((transpose S1024x256 [1, 0] · transposes_S256x1024_S1024x256_1_0) : (⟨S256x1024, .f32⟩ : BufTy).Contents (Elt F) → (⟨S1024x256, .f32⟩ : BufTy).Contents (Elt F)),
    StableHlo.binary main_v39 main_v40 main_v41 ((fun l r => Host.dotGeneral dot_S32x1024_S1024x256_S32x256_1_0_0_1_n_n none l r) : (⟨S32x1024, .f32⟩ : BufTy).Contents (Elt F) → (⟨S1024x256, .f32⟩ : BufTy).Contents (Elt F) → (⟨S32x256, .f32⟩ : BufTy).Contents (Elt F)),
    StableHlo.unary main_arg5 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S32x256 ![0, 1] bcast_S1x256_S32x256_0_1 : (⟨S1x256, .f32⟩ : BufTy).Contents (Elt F) → (⟨S32x256, .f32⟩ : BufTy).Contents (Elt F)),
    StableHlo.binary main_v41 main_v43 main_v44 (addf : (⟨S32x256, .f32⟩ : BufTy).Contents (Elt F) → (⟨S32x256, .f32⟩ : BufTy).Contents (Elt F) → (⟨S32x256, .f32⟩ : BufTy).Contents (Elt F)),
    StableHlo.TRef.nullary main_call1.cst (constant S_ .f32 0x00000000#32),
    StableHlo.TRef.unary main_call1.cst main_call1.v0 (broadcastInDim S32x256 ![] bcast_S_S32x256),
    StableHlo.TRef.binary (.of main_v44 : StableHlo.TRef sig ⟨S32x256, .f32⟩) main_call1.v0 main_call1.v1 maximumf ]

/-- Stretch 4: a batch normalisation at width 256 (its result `main_v64`), its operations in the earlier window. -/
abbrev st4a : List (HloOp τ sig (Elt F)) :=
  [ StableHlo.nullary main_cst_7 (constant S_ .f32 0x00000000#32),
    StableHlo.binary main_v45 main_cst_7 main_v46 ((fun x v => Host.reduceAdd x v reducesTo_S32x256_S256_d0 h_S_) : (⟨S32x256, .f32⟩ : BufTy).Contents (Elt F) → (⟨S_, .f32⟩ : BufTy).Contents (Elt F) → (⟨S256, .f32⟩ : BufTy).Contents (Elt F)),
    StableHlo.nullary main_cst_8 (constant S_ .f32 0x42000000#32),
    StableHlo.unary main_cst_8 main_v47 (broadcastInDim S256 ![] bcast_S_S256 : (⟨S_, .f32⟩ : BufTy).Contents (Elt F) → (⟨S256, .f32⟩ : BufTy).Contents (Elt F)),
    StableHlo.binary main_v46 main_v47 main_v48 (Host.divf : (⟨S256, .f32⟩ : BufTy).Contents (Elt F) → (⟨S256, .f32⟩ : BufTy).Contents (Elt F) → (⟨S256, .f32⟩ : BufTy).Contents (Elt F)) ]

/-- Stretch 4: a batch normalisation at width 256 (its result `main_v64`), its operations in the later window. -/
abbrev st4b : List (HloOp τ sig (Elt F)) :=
  [ StableHlo.nullary main_c_9 (constantI S_ 32 0#32),
    StableHlo.TRef.nullary main_call2.cst (constant S_ .f32 0x00000000#32),
    StableHlo.TRef.binary (.of main_v45 : StableHlo.TRef sig ⟨S32x256, .f32⟩) main_call2.cst main_call2.v0 (fun x v => Host.reduceAdd x v reducesTo_S32x256_S256_d0 h_S_),
    StableHlo.TRef.unary main_call2.v0 main_call2.v1 (broadcastInDim S1x256 ![1] bcast_S256_S1x256_1),
    StableHlo.TRef.nullary main_call2.cst_0 (constant S_ .f32 0x42000000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S32x256 ![0, 1] bcast_S1x256_S32x256_0_1),
    StableHlo.TRef.binary (.of main_v45 : StableHlo.TRef sig ⟨S32x256, .f32⟩) main_call2.v4 main_call2.v5 subf,
    StableHlo.TRef.binary main_call2.v5 main_call2.v5 main_call2.v6 mulf,
    StableHlo.TRef.unary (.of main_c_9 : StableHlo.TRef sig ⟨S_, .i32⟩) main_call2.v7 (sitofp .f32),
    StableHlo.TRef.nullary main_call2.cst_1 (constant S_ .f32 0x42000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v48 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S32x256 ![0, 1] bcast_S1x256_S32x256_0_1 : (⟨S1x256, .f32⟩ : BufTy).Contents (Elt F) → (⟨S32x256, .f32⟩ : BufTy).Contents (Elt F)),
    StableHlo.binary main_v45 main_v51 main_v52 (subf : (⟨S32x256, .f32⟩ : BufTy).Contents (Elt F) → (⟨S32x256, .f32⟩ : BufTy).Contents (Elt F) → (⟨S32x256, .f32⟩ : BufTy).Contents (Elt F)),
    StableHlo.nullary main_cst_10 (constant S_ .f32 0x3727C5AC#32),
    StableHlo.unary main_cst_10 main_v53 (broadcastInDim S256 ![] bcast_S_S256 : (⟨S_, .f32⟩ : BufTy).Contents (Elt F) → (⟨S256, .f32⟩ : BufTy).Contents (Elt F)),
    StableHlo.binary main_v49 main_v53 main_v54 (addf : (⟨S256, .f32⟩ : BufTy).Contents (Elt F) → (⟨S256, .f32⟩ : BufTy).Contents (Elt F) → (⟨S256, .f32⟩ : BufTy).Contents (Elt F)),
    StableHlo.unary main_v54 main_v55 (Host.rsqrt : (⟨S256, .f32⟩ : BufTy).Contents (Elt F) → (⟨S256, .f32⟩ : BufTy).Contents (Elt F)),
    StableHlo.unary main_v55 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S32x256 ![0, 1] bcast_S1x256_S32x256_0_1 : (⟨S1x256, .f32⟩ : BufTy).Contents (Elt F) → (⟨S32x256, .f32⟩ : BufTy).Contents (Elt F)),
    StableHlo.binary main_v52 main_v57 main_v58 (mulf : (⟨S32x256, .f32⟩ : BufTy).Contents (Elt F) → (⟨S32x256, .f32⟩ : BufTy).Contents (Elt F) → (⟨S32x256, .f32⟩ : BufTy).Contents (Elt F)),
    StableHlo.unary main_arg6 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S32x256 ![0, 1] bcast_S1x256_S32x256_0_1 : (⟨S1x256, .f32⟩ : BufTy).Contents (Elt F) → (⟨S32x256, .f32⟩ : BufTy).Contents (Elt F)),
    StableHlo.binary main_v58 main_v60 main_v61 (mulf : (⟨S32x256, .f32⟩ : BufTy).Contents (Elt F) → (⟨S32x256, .f32⟩ : BufTy).Contents (Elt F) → (⟨S32x256, .f32⟩ : BufTy).Contents (Elt F)),
    StableHlo.unary main_arg7 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S32x256 ![0, 1] bcast_S1x256_S32x256_0_1 : (⟨S1x256, .f32⟩ : BufTy).Contents (Elt F) → (⟨S32x256, .f32⟩ : BufTy).Contents (Elt F)),
    StableHlo.binary main_v61 main_v63 main_v64 (addf : (⟨S32x256, .f32⟩ : BufTy).Contents (Elt F) → (⟨S32x256, .f32⟩ : BufTy).Contents (Elt F) → (⟨S32x256, .f32⟩ : BufTy).Contents (Elt F)) ]

/-- Stretch 5: a dense layer at width 256 (its result `main_v70`). -/
abbrev st5 : List (HloOp τ sig (Elt F)) :=
  [ StableHlo.unary main_arg8 main_v65 ((transpose S256x256 [1, 0] · transposes_S256x256_S256x256_1_0) : (⟨S256x256, .f32⟩ : BufTy).Contents (Elt F) → (⟨S256x256, .f32⟩ : BufTy).Contents (Elt F)),
    StableHlo.binary main_v64 main_v65 main_v66 ((fun l r => Host.dotGeneral dot_S32x256_S256x256_S32x256_1_0_0_1_n_n none l r) : (⟨S32x256, .f32⟩ : BufTy).Contents (Elt F) → (⟨S256x256, .f32⟩ : BufTy).Contents (Elt F) → (⟨S32x256, .f32⟩ : BufTy).Contents (Elt F)),
    StableHlo.unary main_arg9 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S32x256 ![0, 1] bcast_S1x256_S32x256_0_1 : (⟨S1x256, .f32⟩ : BufTy).Contents (Elt F) → (⟨S32x256, .f32⟩ : BufTy).Contents (Elt F)),
    StableHlo.binary main_v66 main_v68 main_v69 (addf : (⟨S32x256, .f32⟩ : BufTy).Contents (Elt F) → (⟨S32x256, .f32⟩ : BufTy).Contents (Elt F) → (⟨S32x256, .f32⟩ : BufTy).Contents (Elt F)),
    StableHlo.TRef.nullary main_call3.cst (constant S_ .f32 0x00000000#32),
    StableHlo.TRef.unary main_call3.cst main_call3.v0 (broadcastInDim S32x256 ![] bcast_S_S32x256),
    StableHlo.TRef.binary (.of main_v69 : StableHlo.TRef sig ⟨S32x256, .f32⟩) main_call3.v0 main_call3.v1 maximumf ]

/-- Stretch 6: a batch normalisation at width 256 (its result `main_v89`). -/
abbrev st6 : List (HloOp τ sig (Elt F)) :=
  [ StableHlo.nullary main_cst_11 (constant S_ .f32 0x00000000#32),
    StableHlo.binary main_v70 main_cst_11 main_v71 ((fun x v => Host.reduceAdd x v reducesTo_S32x256_S256_d0 h_S_) : (⟨S32x256, .f32⟩ : BufTy).Contents (Elt F) → (⟨S_, .f32⟩ : BufTy).Contents (Elt F) → (⟨S256, .f32⟩ : BufTy).Contents (Elt F)),
    StableHlo.nullary main_cst_12 (constant S_ .f32 0x42000000#32),
    StableHlo.unary main_cst_12 main_v72 (broadcastInDim S256 ![] bcast_S_S256 : (⟨S_, .f32⟩ : BufTy).Contents (Elt F) → (⟨S256, .f32⟩ : BufTy).Contents (Elt F)),
    StableHlo.binary main_v71 main_v72 main_v73 (Host.divf : (⟨S256, .f32⟩ : BufTy).Contents (Elt F) → (⟨S256, .f32⟩ : BufTy).Contents (Elt F) → (⟨S256, .f32⟩ : BufTy).Contents (Elt F)),
    StableHlo.nullary main_c_13 (constantI S_ 32 0#32),
    StableHlo.TRef.nullary main_call4.cst (constant S_ .f32 0x00000000#32),
    StableHlo.TRef.binary (.of main_v70 : StableHlo.TRef sig ⟨S32x256, .f32⟩) main_call4.cst main_call4.v0 (fun x v => Host.reduceAdd x v reducesTo_S32x256_S256_d0 h_S_),
    StableHlo.TRef.unary main_call4.v0 main_call4.v1 (broadcastInDim S1x256 ![1] bcast_S256_S1x256_1),
    StableHlo.TRef.nullary main_call4.cst_0 (constant S_ .f32 0x42000000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S32x256 ![0, 1] bcast_S1x256_S32x256_0_1),
    StableHlo.TRef.binary (.of main_v70 : StableHlo.TRef sig ⟨S32x256, .f32⟩) main_call4.v4 main_call4.v5 subf,
    StableHlo.TRef.binary main_call4.v5 main_call4.v5 main_call4.v6 mulf,
    StableHlo.TRef.unary (.of main_c_13 : StableHlo.TRef sig ⟨S_, .i32⟩) main_call4.v7 (sitofp .f32),
    StableHlo.TRef.nullary main_call4.cst_1 (constant S_ .f32 0x42000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S32x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v73 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S32x256 ![0, 1] bcast_S1x256_S32x256_0_1 : (⟨S1x256, .f32⟩ : BufTy).Contents (Elt F) → (⟨S32x256, .f32⟩ : BufTy).Contents (Elt F)),
    StableHlo.binary main_v70 main_v76 main_v77 (subf : (⟨S32x256, .f32⟩ : BufTy).Contents (Elt F) → (⟨S32x256, .f32⟩ : BufTy).Contents (Elt F) → (⟨S32x256, .f32⟩ : BufTy).Contents (Elt F)),
    StableHlo.nullary main_cst_14 (constant S_ .f32 0x3727C5AC#32),
    StableHlo.unary main_cst_14 main_v78 (broadcastInDim S256 ![] bcast_S_S256 : (⟨S_, .f32⟩ : BufTy).Contents (Elt F) → (⟨S256, .f32⟩ : BufTy).Contents (Elt F)),
    StableHlo.binary main_v74 main_v78 main_v79 (addf : (⟨S256, .f32⟩ : BufTy).Contents (Elt F) → (⟨S256, .f32⟩ : BufTy).Contents (Elt F) → (⟨S256, .f32⟩ : BufTy).Contents (Elt F)),
    StableHlo.unary main_v79 main_v80 (Host.rsqrt : (⟨S256, .f32⟩ : BufTy).Contents (Elt F) → (⟨S256, .f32⟩ : BufTy).Contents (Elt F)),
    StableHlo.unary main_v80 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S32x256 ![0, 1] bcast_S1x256_S32x256_0_1 : (⟨S1x256, .f32⟩ : BufTy).Contents (Elt F) → (⟨S32x256, .f32⟩ : BufTy).Contents (Elt F)),
    StableHlo.binary main_v77 main_v82 main_v83 (mulf : (⟨S32x256, .f32⟩ : BufTy).Contents (Elt F) → (⟨S32x256, .f32⟩ : BufTy).Contents (Elt F) → (⟨S32x256, .f32⟩ : BufTy).Contents (Elt F)),
    StableHlo.unary main_arg10 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S32x256 ![0, 1] bcast_S1x256_S32x256_0_1 : (⟨S1x256, .f32⟩ : BufTy).Contents (Elt F) → (⟨S32x256, .f32⟩ : BufTy).Contents (Elt F)),
    StableHlo.binary main_v83 main_v85 main_v86 (mulf : (⟨S32x256, .f32⟩ : BufTy).Contents (Elt F) → (⟨S32x256, .f32⟩ : BufTy).Contents (Elt F) → (⟨S32x256, .f32⟩ : BufTy).Contents (Elt F)),
    StableHlo.unary main_arg11 main_v87 (broadcastInDim S1x256 ![1] bcast_S256_S1x256_1 : (⟨S256, .f32⟩ : BufTy).Contents (Elt F) → (⟨S1x256, .f32⟩ : BufTy).Contents (Elt F)),
    StableHlo.unary main_v87 main_v88 (broadcastInDim S32x256 ![0, 1] bcast_S1x256_S32x256_0_1 : (⟨S1x256, .f32⟩ : BufTy).Contents (Elt F) → (⟨S32x256, .f32⟩ : BufTy).Contents (Elt F)),
    StableHlo.binary main_v86 main_v88 main_v89 (addf : (⟨S32x256, .f32⟩ : BufTy).Contents (Elt F) → (⟨S32x256, .f32⟩ : BufTy).Contents (Elt F) → (⟨S32x256, .f32⟩ : BufTy).Contents (Elt F)) ]

/-- Stretch 7: the concatenation of two pieces (its result `main_v90`). -/
abbrev st7 : List (HloOp τ sig (Elt F)) :=
  [ StableHlo.binary main_v39 main_v89 main_v90 ((fun a b => concatenate S32x1280 1 [⟨S32x1024, a⟩, ⟨S32x256, b⟩] concatenates_S32x1024_S32x256_S32x1280_d1) : (⟨S32x1024, .f32⟩ : BufTy).Contents (Elt F) → (⟨S32x256, .f32⟩ : BufTy).Contents (Elt F) → (⟨S32x1280, .f32⟩ : BufTy).Contents (Elt F)) ]

/-- Stretch 8: the dense layer at width 1280 (its result `main_v96`). -/
abbrev st8 : List (HloOp τ sig (Elt F)) :=
  [ StableHlo.unary main_arg12 main_v91 ((transpose S1280x256 [1, 0] · transposes_S256x1280_S1280x256_1_0) : (⟨S256x1280, .f32⟩ : BufTy).Contents (Elt F) → (⟨S1280x256, .f32⟩ : BufTy).Contents (Elt F)),
    StableHlo.binary main_v90 main_v91 main_v92 ((fun l r => Host.dotGeneral dot_S32x1280_S1280x256_S32x256_1_0_0_1_n_n none l r) : (⟨S32x1280, .f32⟩ : BufTy).Contents (Elt F) → (⟨S1280x256, .f32⟩ : BufTy).Contents (Elt F) → (⟨S32x256, .f32⟩ : BufTy).Contents (Elt F)),
    StableHlo.unary main_arg13 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S32x256 ![0, 1] bcast_S1x256_S32x256_0_1 : (⟨S1x256, .f32⟩ : BufTy).Contents (Elt F) → (⟨S32x256, .f32⟩ : BufTy).Contents (Elt F)),
    StableHlo.binary main_v92 main_v94 main_v95 (addf : (⟨S32x256, .f32⟩ : BufTy).Contents (Elt F) → (⟨S32x256, .f32⟩ : BufTy).Contents (Elt F) → (⟨S32x256, .f32⟩ : BufTy).Contents (Elt F)),
    StableHlo.TRef.nullary main_call5.cst (constant S_ .f32 0x00000000#32),
    StableHlo.TRef.unary main_call5.cst main_call5.v0 (broadcastInDim S32x256 ![] bcast_S_S32x256),
    StableHlo.TRef.binary (.of main_v95 : StableHlo.TRef sig ⟨S32x256, .f32⟩) main_call5.v0 main_call5.v1 maximumf ]

/-- Stretch 9: a batch normalisation at width 256 (its result `main_v115`), its operations in the earlier window. -/
abbrev st9a : List (HloOp τ sig (Elt F)) :=
  [ StableHlo.nullary main_cst_15 (constant S_ .f32 0x00000000#32),
    StableHlo.binary main_v96 main_cst_15 main_v97 ((fun x v => Host.reduceAdd x v reducesTo_S32x256_S256_d0 h_S_) : (⟨S32x256, .f32⟩ : BufTy).Contents (Elt F) → (⟨S_, .f32⟩ : BufTy).Contents (Elt F) → (⟨S256, .f32⟩ : BufTy).Contents (Elt F)),
    StableHlo.nullary main_cst_16 (constant S_ .f32 0x42000000#32),
    StableHlo.unary main_cst_16 main_v98 (broadcastInDim S256 ![] bcast_S_S256 : (⟨S_, .f32⟩ : BufTy).Contents (Elt F) → (⟨S256, .f32⟩ : BufTy).Contents (Elt F)),
    StableHlo.binary main_v97 main_v98 main_v99 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32) ]

/-- Stretch 9: a batch normalisation at width 256 (its result `main_v115`), its operations in the later window. -/
abbrev st9b : List (HloOp τ sig (Elt F)) :=
  [ StableHlo.TRef.nullary main_call6.cst (constant S_ .f32 0x00000000#32),
    StableHlo.TRef.binary (.of main_v96 : StableHlo.TRef sig ⟨S32x256, .f32⟩) main_call6.cst main_call6.v0 (fun x v => Host.reduceAdd x v reducesTo_S32x256_S256_d0 h_S_),
    StableHlo.TRef.unary main_call6.v0 main_call6.v1 (broadcastInDim S1x256 ![1] bcast_S256_S1x256_1),
    StableHlo.TRef.nullary main_call6.cst_0 (constant S_ .f32 0x42000000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S32x256 ![0, 1] bcast_S1x256_S32x256_0_1),
    StableHlo.TRef.binary (.of main_v96 : StableHlo.TRef sig ⟨S32x256, .f32⟩) main_call6.v4 main_call6.v5 subf,
    StableHlo.TRef.binary main_call6.v5 main_call6.v5 main_call6.v6 mulf,
    StableHlo.TRef.unary (.of main_c_17 : StableHlo.TRef sig ⟨S_, .i32⟩) main_call6.v7 (sitofp .f32),
    StableHlo.TRef.nullary main_call6.cst_1 (constant S_ .f32 0x42000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S32x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v99 main_v101 (broadcastInDim S1x256 ![1] bcast_S256_S1x256_1 : (⟨S256, .f32⟩ : BufTy).Contents (Elt F) → (⟨S1x256, .f32⟩ : BufTy).Contents (Elt F)),
    StableHlo.unary main_v101 main_v102 (broadcastInDim S32x256 ![0, 1] bcast_S1x256_S32x256_0_1 : (⟨S1x256, .f32⟩ : BufTy).Contents (Elt F) → (⟨S32x256, .f32⟩ : BufTy).Contents (Elt F)),
    StableHlo.binary main_v96 main_v102 main_v103 (subf : (⟨S32x256, .f32⟩ : BufTy).Contents (Elt F) → (⟨S32x256, .f32⟩ : BufTy).Contents (Elt F) → (⟨S32x256, .f32⟩ : BufTy).Contents (Elt F)),
    StableHlo.nullary main_cst_18 (constant S_ .f32 0x3727C5AC#32),
    StableHlo.unary main_cst_18 main_v104 (broadcastInDim S256 ![] bcast_S_S256 : (⟨S_, .f32⟩ : BufTy).Contents (Elt F) → (⟨S256, .f32⟩ : BufTy).Contents (Elt F)),
    StableHlo.binary main_v100 main_v104 main_v105 (addf : (⟨S256, .f32⟩ : BufTy).Contents (Elt F) → (⟨S256, .f32⟩ : BufTy).Contents (Elt F) → (⟨S256, .f32⟩ : BufTy).Contents (Elt F)),
    StableHlo.unary main_v105 main_v106 (Host.rsqrt : (⟨S256, .f32⟩ : BufTy).Contents (Elt F) → (⟨S256, .f32⟩ : BufTy).Contents (Elt F)),
    StableHlo.unary main_v106 main_v107 (broadcastInDim S1x256 ![1] bcast_S256_S1x256_1 : (⟨S256, .f32⟩ : BufTy).Contents (Elt F) → (⟨S1x256, .f32⟩ : BufTy).Contents (Elt F)),
    StableHlo.unary main_v107 main_v108 (broadcastInDim S32x256 ![0, 1] bcast_S1x256_S32x256_0_1 : (⟨S1x256, .f32⟩ : BufTy).Contents (Elt F) → (⟨S32x256, .f32⟩ : BufTy).Contents (Elt F)),
    StableHlo.binary main_v103 main_v108 main_v109 (mulf : (⟨S32x256, .f32⟩ : BufTy).Contents (Elt F) → (⟨S32x256, .f32⟩ : BufTy).Contents (Elt F) → (⟨S32x256, .f32⟩ : BufTy).Contents (Elt F)),
    StableHlo.unary main_arg14 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S32x256 ![0, 1] bcast_S1x256_S32x256_0_1 : (⟨S1x256, .f32⟩ : BufTy).Contents (Elt F) → (⟨S32x256, .f32⟩ : BufTy).Contents (Elt F)),
    StableHlo.binary main_v109 main_v111 main_v112 (mulf : (⟨S32x256, .f32⟩ : BufTy).Contents (Elt F) → (⟨S32x256, .f32⟩ : BufTy).Contents (Elt F) → (⟨S32x256, .f32⟩ : BufTy).Contents (Elt F)),
    StableHlo.unary main_arg15 main_v113 (broadcastInDim S1x256 ![1] bcast_S256_S1x256_1 : (⟨S256, .f32⟩ : BufTy).Contents (Elt F) → (⟨S1x256, .f32⟩ : BufTy).Contents (Elt F)),
    StableHlo.unary main_v113 main_v114 (broadcastInDim S32x256 ![0, 1] bcast_S1x256_S32x256_0_1 : (⟨S1x256, .f32⟩ : BufTy).Contents (Elt F) → (⟨S32x256, .f32⟩ : BufTy).Contents (Elt F)),
    StableHlo.binary main_v112 main_v114 main_v115 (addf : (⟨S32x256, .f32⟩ : BufTy).Contents (Elt F) → (⟨S32x256, .f32⟩ : BufTy).Contents (Elt F) → (⟨S32x256, .f32⟩ : BufTy).Contents (Elt F)) ]

/-- Stretch 10: a dense layer at width 256 (its result `main_v121`). -/
abbrev st10 : List (HloOp τ sig (Elt F)) :=
  [ StableHlo.unary main_arg16 main_v116 ((transpose S256x256 [1, 0] · transposes_S256x256_S256x256_1_0) : (⟨S256x256, .f32⟩ : BufTy).Contents (Elt F) → (⟨S256x256, .f32⟩ : BufTy).Contents (Elt F)),
    StableHlo.binary main_v115 main_v116 main_v117 ((fun l r => Host.dotGeneral dot_S32x256_S256x256_S32x256_1_0_0_1_n_n none l r) : (⟨S32x256, .f32⟩ : BufTy).Contents (Elt F) → (⟨S256x256, .f32⟩ : BufTy).Contents (Elt F) → (⟨S32x256, .f32⟩ : BufTy).Contents (Elt F)),
    StableHlo.unary main_arg17 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S32x256 ![0, 1] bcast_S1x256_S32x256_0_1 : (⟨S1x256, .f32⟩ : BufTy).Contents (Elt F) → (⟨S32x256, .f32⟩ : BufTy).Contents (Elt F)),
    StableHlo.binary main_v117 main_v119 main_v120 (addf : (⟨S32x256, .f32⟩ : BufTy).Contents (Elt F) → (⟨S32x256, .f32⟩ : BufTy).Contents (Elt F) → (⟨S32x256, .f32⟩ : BufTy).Contents (Elt F)),
    StableHlo.TRef.nullary main_call7.cst (constant S_ .f32 0x00000000#32),
    StableHlo.TRef.unary main_call7.cst main_call7.v0 (broadcastInDim S32x256 ![] bcast_S_S32x256),
    StableHlo.TRef.binary (.of main_v120 : StableHlo.TRef sig ⟨S32x256, .f32⟩) main_call7.v0 main_call7.v1 maximumf ]

/-- Stretch 11: a batch normalisation at width 256 (its result `main_v140`). -/
abbrev st11 : List (HloOp τ sig (Elt F)) :=
  [ StableHlo.nullary main_cst_19 (constant S_ .f32 0x00000000#32),
    StableHlo.binary main_v121 main_cst_19 main_v122 ((fun x v => Host.reduceAdd x v reducesTo_S32x256_S256_d0 h_S_) : (⟨S32x256, .f32⟩ : BufTy).Contents (Elt F) → (⟨S_, .f32⟩ : BufTy).Contents (Elt F) → (⟨S256, .f32⟩ : BufTy).Contents (Elt F)),
    StableHlo.nullary main_cst_20 (constant S_ .f32 0x42000000#32),
    StableHlo.unary main_cst_20 main_v123 (broadcastInDim S256 ![] bcast_S_S256 : (⟨S_, .f32⟩ : BufTy).Contents (Elt F) → (⟨S256, .f32⟩ : BufTy).Contents (Elt F)),
    StableHlo.binary main_v122 main_v123 main_v124 (Host.divf : (⟨S256, .f32⟩ : BufTy).Contents (Elt F) → (⟨S256, .f32⟩ : BufTy).Contents (Elt F) → (⟨S256, .f32⟩ : BufTy).Contents (Elt F)),
    StableHlo.nullary main_c_21 (constantI S_ 32 0#32),
    StableHlo.TRef.nullary main_call8.cst (constant S_ .f32 0x00000000#32),
    StableHlo.TRef.binary (.of main_v121 : StableHlo.TRef sig ⟨S32x256, .f32⟩) main_call8.cst main_call8.v0 (fun x v => Host.reduceAdd x v reducesTo_S32x256_S256_d0 h_S_),
    StableHlo.TRef.unary main_call8.v0 main_call8.v1 (broadcastInDim S1x256 ![1] bcast_S256_S1x256_1),
    StableHlo.TRef.nullary main_call8.cst_0 (constant S_ .f32 0x42000000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S32x256 ![0, 1] bcast_S1x256_S32x256_0_1),
    StableHlo.TRef.binary (.of main_v121 : StableHlo.TRef sig ⟨S32x256, .f32⟩) main_call8.v4 main_call8.v5 subf,
    StableHlo.TRef.binary main_call8.v5 main_call8.v5 main_call8.v6 mulf,
    StableHlo.TRef.unary (.of main_c_21 : StableHlo.TRef sig ⟨S_, .i32⟩) main_call8.v7 (sitofp .f32),
    StableHlo.TRef.nullary main_call8.cst_1 (constant S_ .f32 0x42000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S32x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v124 main_v126 (broadcastInDim S1x256 ![1] bcast_S256_S1x256_1 : (⟨S256, .f32⟩ : BufTy).Contents (Elt F) → (⟨S1x256, .f32⟩ : BufTy).Contents (Elt F)),
    StableHlo.unary main_v126 main_v127 (broadcastInDim S32x256 ![0, 1] bcast_S1x256_S32x256_0_1 : (⟨S1x256, .f32⟩ : BufTy).Contents (Elt F) → (⟨S32x256, .f32⟩ : BufTy).Contents (Elt F)),
    StableHlo.binary main_v121 main_v127 main_v128 (subf : (⟨S32x256, .f32⟩ : BufTy).Contents (Elt F) → (⟨S32x256, .f32⟩ : BufTy).Contents (Elt F) → (⟨S32x256, .f32⟩ : BufTy).Contents (Elt F)),
    StableHlo.nullary main_cst_22 (constant S_ .f32 0x3727C5AC#32),
    StableHlo.unary main_cst_22 main_v129 (broadcastInDim S256 ![] bcast_S_S256 : (⟨S_, .f32⟩ : BufTy).Contents (Elt F) → (⟨S256, .f32⟩ : BufTy).Contents (Elt F)),
    StableHlo.binary main_v125 main_v129 main_v130 (addf : (⟨S256, .f32⟩ : BufTy).Contents (Elt F) → (⟨S256, .f32⟩ : BufTy).Contents (Elt F) → (⟨S256, .f32⟩ : BufTy).Contents (Elt F)),
    StableHlo.unary main_v130 main_v131 (Host.rsqrt : (⟨S256, .f32⟩ : BufTy).Contents (Elt F) → (⟨S256, .f32⟩ : BufTy).Contents (Elt F)),
    StableHlo.unary main_v131 main_v132 (broadcastInDim S1x256 ![1] bcast_S256_S1x256_1 : (⟨S256, .f32⟩ : BufTy).Contents (Elt F) → (⟨S1x256, .f32⟩ : BufTy).Contents (Elt F)),
    StableHlo.unary main_v132 main_v133 (broadcastInDim S32x256 ![0, 1] bcast_S1x256_S32x256_0_1 : (⟨S1x256, .f32⟩ : BufTy).Contents (Elt F) → (⟨S32x256, .f32⟩ : BufTy).Contents (Elt F)),
    StableHlo.binary main_v128 main_v133 main_v134 (mulf : (⟨S32x256, .f32⟩ : BufTy).Contents (Elt F) → (⟨S32x256, .f32⟩ : BufTy).Contents (Elt F) → (⟨S32x256, .f32⟩ : BufTy).Contents (Elt F)),
    StableHlo.unary main_arg18 main_v135 (broadcastInDim S1x256 ![1] bcast_S256_S1x256_1 : (⟨S256, .f32⟩ : BufTy).Contents (Elt F) → (⟨S1x256, .f32⟩ : BufTy).Contents (Elt F)),
    StableHlo.unary main_v135 main_v136 (broadcastInDim S32x256 ![0, 1] bcast_S1x256_S32x256_0_1 : (⟨S1x256, .f32⟩ : BufTy).Contents (Elt F) → (⟨S32x256, .f32⟩ : BufTy).Contents (Elt F)),
    StableHlo.binary main_v134 main_v136 main_v137 (mulf : (⟨S32x256, .f32⟩ : BufTy).Contents (Elt F) → (⟨S32x256, .f32⟩ : BufTy).Contents (Elt F) → (⟨S32x256, .f32⟩ : BufTy).Contents (Elt F)),
    StableHlo.unary main_arg19 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S32x256 ![0, 1] bcast_S1x256_S32x256_0_1 : (⟨S1x256, .f32⟩ : BufTy).Contents (Elt F) → (⟨S32x256, .f32⟩ : BufTy).Contents (Elt F)),
    StableHlo.binary main_v137 main_v139 main_v140 (addf : (⟨S32x256, .f32⟩ : BufTy).Contents (Elt F) → (⟨S32x256, .f32⟩ : BufTy).Contents (Elt F) → (⟨S32x256, .f32⟩ : BufTy).Contents (Elt F)) ]

/-- Stretch 12: the concatenation of three pieces (its result `main_v141`). -/
abbrev st12 : List (HloOp τ sig (Elt F)) :=
  [ StableHlo.nary ![main_v39, main_v89, main_v140] main_v141 (fun u => concatenate S32x1536 1 [⟨S32x1024, u 0⟩, ⟨S32x256, u 1⟩, ⟨S32x256, u 2⟩] concatenates_S32x1024_S32x256_S32x256_S32x1536_d1) ]

/-- Stretch 13: the dense layer at width 1536 (its result `main_v147`). -/
abbrev st13 : List (HloOp τ sig (Elt F)) :=
  [ StableHlo.unary main_arg20 main_v142 ((transpose S1536x512 [1, 0] · transposes_S512x1536_S1536x512_1_0) : (⟨S512x1536, .f32⟩ : BufTy).Contents (Elt F) → (⟨S1536x512, .f32⟩ : BufTy).Contents (Elt F)),
    StableHlo.binary main_v141 main_v142 main_v143 ((fun l r => Host.dotGeneral dot_S32x1536_S1536x512_S32x512_1_0_0_1_n_n none l r) : (⟨S32x1536, .f32⟩ : BufTy).Contents (Elt F) → (⟨S1536x512, .f32⟩ : BufTy).Contents (Elt F) → (⟨S32x512, .f32⟩ : BufTy).Contents (Elt F)),
    StableHlo.unary main_arg21 main_v144 (broadcastInDim S1x512 ![1] bcast_S512_S1x512_1 : (⟨S512, .f32⟩ : BufTy).Contents (Elt F) → (⟨S1x512, .f32⟩ : BufTy).Contents (Elt F)),
    StableHlo.unary main_v144 main_v145 (broadcastInDim S32x512 ![0, 1] bcast_S1x512_S32x512_0_1 : (⟨S1x512, .f32⟩ : BufTy).Contents (Elt F) → (⟨S32x512, .f32⟩ : BufTy).Contents (Elt F)),
    StableHlo.binary main_v143 main_v145 main_v146 (addf : (⟨S32x512, .f32⟩ : BufTy).Contents (Elt F) → (⟨S32x512, .f32⟩ : BufTy).Contents (Elt F) → (⟨S32x512, .f32⟩ : BufTy).Contents (Elt F)),
    StableHlo.TRef.nullary main_call9.cst (constant S_ .f32 0x00000000#32),
    StableHlo.TRef.unary main_call9.cst main_call9.v0 (broadcastInDim S32x512 ![] bcast_S_S32x512),
    StableHlo.TRef.binary (.of main_v146 : StableHlo.TRef sig ⟨S32x512, .f32⟩) main_call9.v0 main_call9.v1 maximumf ]

/-- Stretch 14: the batch normalisation at width 512 (its result `main_v166`), its operations in the earlier window. -/
abbrev st14a : List (HloOp τ sig (Elt F)) :=
  [ StableHlo.nullary main_cst_23 (constant S_ .f32 0x00000000#32),
    StableHlo.binary main_v147 main_cst_23 main_v148 ((fun x v => Host.reduceAdd x v reducesTo_S32x512_S512_d0 h_S_) : (⟨S32x512, .f32⟩ : BufTy).Contents (Elt F) → (⟨S_, .f32⟩ : BufTy).Contents (Elt F) → (⟨S512, .f32⟩ : BufTy).Contents (Elt F)),
    StableHlo.nullary main_cst_24 (constant S_ .f32 0x42000000#32),
    StableHlo.unary main_cst_24 main_v149 (broadcastInDim S512 ![] bcast_S_S512 : (⟨S_, .f32⟩ : BufTy).Contents (Elt F) → (⟨S512, .f32⟩ : BufTy).Contents (Elt F)),
    StableHlo.binary main_v148 main_v149 main_v150 (Host.divf : (⟨S512, .f32⟩ : BufTy).Contents (Elt F) → (⟨S512, .f32⟩ : BufTy).Contents (Elt F) → (⟨S512, .f32⟩ : BufTy).Contents (Elt F)),
    StableHlo.nullary main_c_25 (constantI S_ 32 0#32),
    StableHlo.TRef.nullary main_call10.cst (constant S_ .f32 0x00000000#32),
    StableHlo.TRef.binary (.of main_v147 : StableHlo.TRef sig ⟨S32x512, .f32⟩) main_call10.cst main_call10.v0 (fun x v => Host.reduceAdd x v reducesTo_S32x512_S512_d0 h_S_),
    StableHlo.TRef.unary main_call10.v0 main_call10.v1 (broadcastInDim S1x512 ![1] bcast_S512_S1x512_1),
    StableHlo.TRef.nullary main_call10.cst_0 (constant S_ .f32 0x42000000#32),
    StableHlo.TRef.unary main_call10.cst_0 main_call10.v2 (broadcastInDim S1x512 ![] bcast_S_S1x512),
    StableHlo.TRef.binary main_call10.v1 main_call10.v2 main_call10.v3 Host.divf,
    StableHlo.TRef.unary main_call10.v3 main_call10.v4 (broadcastInDim S32x512 ![0, 1] bcast_S1x512_S32x512_0_1),
    StableHlo.TRef.binary (.of main_v147 : StableHlo.TRef sig ⟨S32x512, .f32⟩) main_call10.v4 main_call10.v5 subf,
    StableHlo.TRef.binary main_call10.v5 main_call10.v5 main_call10.v6 mulf,
    StableHlo.TRef.unary (.of main_c_25 : StableHlo.TRef sig ⟨S_, .i32⟩) main_call10.v7 (sitofp .f32),
    StableHlo.TRef.nullary main_call10.cst_1 (constant S_ .f32 0x42000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S32x512_S512_d0 h_S_),
    StableHlo.TRef.unary main_call10.v8 main_call10.v10 (broadcastInDim S512 ![] bcast_S_S512),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S512 ![] bcast_S_S512),
    StableHlo.TRef.ternary main_call10.v12 main_call10.v11 main_call10.call0.v1 main_call10.call0.v2 (fun p a b => select (broadcastInDim S512 ![] bcast_S_S512 p) a b) ]

/-- Stretch 14: the batch normalisation at width 512 (its result `main_v166`), its operations in the later window. -/
abbrev st14b : List (HloOp τ sig (Elt F)) :=
  [ StableHlo.unary main_v150 main_v152 (broadcastInDim S1x512 ![1] bcast_S512_S1x512_1 : (⟨S512, .f32⟩ : BufTy).Contents (Elt F) → (⟨S1x512, .f32⟩ : BufTy).Contents (Elt F)),
    StableHlo.unary main_v152 main_v153 (broadcastInDim S32x512 ![0, 1] bcast_S1x512_S32x512_0_1 : (⟨S1x512, .f32⟩ : BufTy).Contents (Elt F) → (⟨S32x512, .f32⟩ : BufTy).Contents (Elt F)),
    StableHlo.binary main_v147 main_v153 main_v154 (subf : (⟨S32x512, .f32⟩ : BufTy).Contents (Elt F) → (⟨S32x512, .f32⟩ : BufTy).Contents (Elt F) → (⟨S32x512, .f32⟩ : BufTy).Contents (Elt F)),
    StableHlo.nullary main_cst_26 (constant S_ .f32 0x3727C5AC#32),
    StableHlo.unary main_cst_26 main_v155 (broadcastInDim S512 ![] bcast_S_S512 : (⟨S_, .f32⟩ : BufTy).Contents (Elt F) → (⟨S512, .f32⟩ : BufTy).Contents (Elt F)),
    StableHlo.binary main_v151 main_v155 main_v156 (addf : (⟨S512, .f32⟩ : BufTy).Contents (Elt F) → (⟨S512, .f32⟩ : BufTy).Contents (Elt F) → (⟨S512, .f32⟩ : BufTy).Contents (Elt F)),
    StableHlo.unary main_v156 main_v157 (Host.rsqrt : (⟨S512, .f32⟩ : BufTy).Contents (Elt F) → (⟨S512, .f32⟩ : BufTy).Contents (Elt F)),
    StableHlo.unary main_v157 main_v158 (broadcastInDim S1x512 ![1] bcast_S512_S1x512_1 : (⟨S512, .f32⟩ : BufTy).Contents (Elt F) → (⟨S1x512, .f32⟩ : BufTy).Contents (Elt F)),
    StableHlo.unary main_v158 main_v159 (broadcastInDim S32x512 ![0, 1] bcast_S1x512_S32x512_0_1 : (⟨S1x512, .f32⟩ : BufTy).Contents (Elt F) → (⟨S32x512, .f32⟩ : BufTy).Contents (Elt F)),
    StableHlo.binary main_v154 main_v159 main_v160 (mulf : (⟨S32x512, .f32⟩ : BufTy).Contents (Elt F) → (⟨S32x512, .f32⟩ : BufTy).Contents (Elt F) → (⟨S32x512, .f32⟩ : BufTy).Contents (Elt F)),
    StableHlo.unary main_arg22 main_v161 (broadcastInDim S1x512 ![1] bcast_S512_S1x512_1 : (⟨S512, .f32⟩ : BufTy).Contents (Elt F) → (⟨S1x512, .f32⟩ : BufTy).Contents (Elt F)),
    StableHlo.unary main_v161 main_v162 (broadcastInDim S32x512 ![0, 1] bcast_S1x512_S32x512_0_1 : (⟨S1x512, .f32⟩ : BufTy).Contents (Elt F) → (⟨S32x512, .f32⟩ : BufTy).Contents (Elt F)),
    StableHlo.binary main_v160 main_v162 main_v163 (mulf : (⟨S32x512, .f32⟩ : BufTy).Contents (Elt F) → (⟨S32x512, .f32⟩ : BufTy).Contents (Elt F) → (⟨S32x512, .f32⟩ : BufTy).Contents (Elt F)),
    StableHlo.unary main_arg23 main_v164 (broadcastInDim S1x512 ![1] bcast_S512_S1x512_1 : (⟨S512, .f32⟩ : BufTy).Contents (Elt F) → (⟨S1x512, .f32⟩ : BufTy).Contents (Elt F)),
    StableHlo.unary main_v164 main_v165 (broadcastInDim S32x512 ![0, 1] bcast_S1x512_S32x512_0_1 : (⟨S1x512, .f32⟩ : BufTy).Contents (Elt F) → (⟨S32x512, .f32⟩ : BufTy).Contents (Elt F)),
    StableHlo.binary main_v163 main_v165 main_v166 (addf : (⟨S32x512, .f32⟩ : BufTy).Contents (Elt F) → (⟨S32x512, .f32⟩ : BufTy).Contents (Elt F) → (⟨S32x512, .f32⟩ : BufTy).Contents (Elt F)) ]

/-- Stretch 4, whole: it straddles two windows of @main. -/
abbrev st4 : List (HloOp τ sig (Elt F)) := st4a ++ st4b

/-- Stretch 9, whole: it straddles two windows of @main. -/
abbrev st9 : List (HloOp τ sig (Elt F)) := st9a ++ st9b

/-- Stretch 14, whole: it straddles two windows of @main. -/
abbrev st14 : List (HloOp τ sig (Elt F)) := st14a ++ st14b

/-- The operations of window 1 of @main, in order, the calls unfolded. -/
abbrev opsP0 : List (HloOp τ sig (Elt F)) := st1 ++ st2 ++ st3 ++ st4a
/-- The operations of window 2 of @main, in order, the calls unfolded. -/
abbrev opsP1 : List (HloOp τ sig (Elt F)) := st4b ++ st5 ++ st6 ++ st7 ++ st8 ++ st9a
/-- The operations of window 3 of @main, in order, the calls unfolded. -/
abbrev opsP2 : List (HloOp τ sig (Elt F)) := st9b ++ st10 ++ st11 ++ st12 ++ st13 ++ st14a
/-- The operations of window 4 of @main, in order, the calls unfolded. -/
abbrev opsP3 : List (HloOp τ sig (Elt F)) := st14b

/-- @main's operations, in order, the calls unfolded: the fourteen stretches one after the other. -/
abbrev ops : List (HloOp τ sig (Elt F)) := st1 ++ st2 ++ st3 ++ st4 ++ st5 ++ st6 ++ st7 ++ st8 ++ st9 ++ st10 ++ st11 ++ st12 ++ st13 ++ st14

/-- The line cut at @main's windows instead. -/
theorem ops_eq : (ops : List (HloOp τ sig (Elt F))) = opsP0 ++ opsP1 ++ opsP2 ++ opsP3 := by
  simp only [ops, opsP0, opsP1, opsP2, opsP3, st4, st9, st14, List.append_assoc]

set_option maxRecDepth 8192 in
theorem main_part0_eq (c : Dev nD) : main_part0 (F := F) c = seq opsP0 := rfl
set_option maxRecDepth 8192 in
theorem main_part1_eq (c : Dev nD) : main_part1 (F := F) c = seq opsP1 := rfl
set_option maxRecDepth 8192 in
theorem main_part2_eq (c : Dev nD) : main_part2 (F := F) c = seq opsP2 := rfl
set_option maxRecDepth 8192 in
theorem main_part3_eq (c : Dev nD) : main_part3 (F := F) c = seq opsP3 := rfl

/-- @main is that straight line: window by window, joined by `seq_append`. -/
theorem main_eq (c : Dev nD) : main (F := F) c = seq ops := by
  rw [ops_eq]
  simp only [seq_append, ← main_part0_eq c, ← main_part1_eq c, ← main_part2_eq c, ← main_part3_eq c]
  rfl

/-- The contents after two lines run one after the other. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- One operation's written buffer is in the list: its `writes` is the singleton of its result. -/
local macro "one_w" : term => `(by simp only [nullary_writes, unary_writes, binary_writes, ternary_writes, quaternary_writes, reshape_writes, binaryIndexed_writes, nary_writes, unaryIndexed_writes, Finset.singleton_subset_iff, List.mem_toFinset]; exact List.mem_map_of_mem (by decide))

/-- The buffers stretch 1 writes. -/
abbrev st1_W : List (Ref sig .tc) := [main_v0, main_v1, main_v2, main_cst, main_v3, main_v4, main_v5, main_cst_0, main_v6, main_v7, main_v8, main_v9, main_v10, main_v11, main_v12, main_cst_1, main_v13, main_v14, main_v15, main_cst_2, main_v16, main_v17, main_v18, main_cst_3, main_v19, main_v20]
set_option maxRecDepth 8192 in
theorem st1_writes : (st1 : List (HloOp τ sig (Elt F))).Forall fun op => op.writes ⊆ (st1_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w⟩
/-- A buffer stretch 1 does not write keeps its contents through it. -/
theorem st1_keep (V : Valuation τ sig (Elt F)) (r : Ref sig .tc) (h : r ∉ st1_W) :
    after st1 V (Proc.devRef .tc r) = V (Proc.devRef .tc r) :=
  after_of_writes_sub st1 V st1_writes h

/-- The buffers stretch 2 writes. -/
abbrev st2_W : List (Ref sig .tc) := [main_cst_4, main_v21, main_cst_5, main_v22, main_v23, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v24, main_v25, main_v26, main_v27, main_cst_6, main_v28, main_v29, main_v30, main_v31, main_v32, main_v33, main_v34, main_v35, main_v36, main_v37, main_v38, main_v39]
set_option maxRecDepth 8192 in
theorem st2_writes : (st2 : List (HloOp τ sig (Elt F))).Forall fun op => op.writes ⊆ (st2_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer stretch 2 does not write keeps its contents through it. -/
theorem st2_keep (V : Valuation τ sig (Elt F)) (r : Ref sig .tc) (h : r ∉ st2_W) :
    after st2 V (Proc.devRef .tc r) = V (Proc.devRef .tc r) :=
  after_of_writes_sub st2 V st2_writes h

/-- The buffers stretch 3 writes. -/
abbrev st3_W : List (Ref sig .tc) := [main_v40, main_v41, main_v42, main_v43, main_v44, main_call1_cst, main_call1_v0, main_v45]
set_option maxRecDepth 8192 in
theorem st3_writes : (st3 : List (HloOp τ sig (Elt F))).Forall fun op => op.writes ⊆ (st3_W.map (Proc.devRef (τ := τ) .tc)).toFinset := by
  simp only [List.Forall]
  exact ⟨one_w, one_w, one_w, one_w, one_w, one_w, one_w, one_w⟩
/-- A buffer stretch 3 does not write keeps its contents through it. -/
theorem st3_keep (V : Valuation τ sig (Elt F)) (r : Ref sig .tc) (h : r ∉ st3_W) :
    after st3 V (Proc.devRef .tc r) = V (Proc.devRef .tc r) :=
  after_of_writes_sub st3 V st3_writes h

/-- The buffers stretch 4 writes. -/
abbrev st4_W : List (Ref sig .tc) := [main_cst_7, main_v46, main_cst_8, main_v47, main_v48, main_c_9, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v49, main_v50, main_v51, main_v52, main_cst_10, main_v53, main_v54, main_v55, main_v56, main_v57, main_v58, main_v59, main_v60, main_v61, main_v62, main_v63, main_v64]
set_option maxRecDepth 8192 in
theorem st4_writes : (st4 : List (HloOp τ sig (Elt F))).Forall fun op => op.writes ⊆ (st4_W.map (Proc.devRef (τ := τ) .tc)).toFinset := by
  simp only [st4, st4a, st4b, List.cons_append, List.nil_append, List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer stretch 4 does not write keeps its contents through it. -/
theorem st4_keep (V : Valuation τ sig (Elt F)) (r : Ref sig .tc) (h : r ∉ st4_W) :
    after st4 V (Proc.devRef .tc r) = V (Proc.devRef .tc r) :=
  after_of_writes_sub st4 V st4_writes h

/-- The buffers stretch 5 writes. -/
abbrev st5_W : List (Ref sig .tc) := [main_v65, main_v66, main_v67, main_v68, main_v69, main_call3_cst, main_call3_v0, main_v70]
set_option maxRecDepth 8192 in
theorem st5_writes : (st5 : List (HloOp τ sig (Elt F))).Forall fun op => op.writes ⊆ (st5_W.map (Proc.devRef (τ := τ) .tc)).toFinset := by
  simp only [List.Forall]
  exact ⟨one_w, one_w, one_w, one_w, one_w, one_w, one_w, one_w⟩
/-- A buffer stretch 5 does not write keeps its contents through it. -/
theorem st5_keep (V : Valuation τ sig (Elt F)) (r : Ref sig .tc) (h : r ∉ st5_W) :
    after st5 V (Proc.devRef .tc r) = V (Proc.devRef .tc r) :=
  after_of_writes_sub st5 V st5_writes h

/-- The buffers stretch 6 writes. -/
abbrev st6_W : List (Ref sig .tc) := [main_cst_11, main_v71, main_cst_12, main_v72, main_v73, main_c_13, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v74, main_v75, main_v76, main_v77, main_cst_14, main_v78, main_v79, main_v80, main_v81, main_v82, main_v83, main_v84, main_v85, main_v86, main_v87, main_v88, main_v89]
set_option maxRecDepth 8192 in
theorem st6_writes : (st6 : List (HloOp τ sig (Elt F))).Forall fun op => op.writes ⊆ (st6_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer stretch 6 does not write keeps its contents through it. -/
theorem st6_keep (V : Valuation τ sig (Elt F)) (r : Ref sig .tc) (h : r ∉ st6_W) :
    after st6 V (Proc.devRef .tc r) = V (Proc.devRef .tc r) :=
  after_of_writes_sub st6 V st6_writes h

/-- The buffers stretch 7 writes. -/
abbrev st7_W : List (Ref sig .tc) := [main_v90]
set_option maxRecDepth 8192 in
theorem st7_writes : (st7 : List (HloOp τ sig (Elt F))).Forall fun op => op.writes ⊆ (st7_W.map (Proc.devRef (τ := τ) .tc)).toFinset := by
  simp only [List.Forall]
  exact one_w
/-- A buffer stretch 7 does not write keeps its contents through it. -/
theorem st7_keep (V : Valuation τ sig (Elt F)) (r : Ref sig .tc) (h : r ∉ st7_W) :
    after st7 V (Proc.devRef .tc r) = V (Proc.devRef .tc r) :=
  after_of_writes_sub st7 V st7_writes h

/-- The buffers stretch 8 writes. -/
abbrev st8_W : List (Ref sig .tc) := [main_v91, main_v92, main_v93, main_v94, main_v95, main_call5_cst, main_call5_v0, main_v96]
set_option maxRecDepth 8192 in
theorem st8_writes : (st8 : List (HloOp τ sig (Elt F))).Forall fun op => op.writes ⊆ (st8_W.map (Proc.devRef (τ := τ) .tc)).toFinset := by
  simp only [List.Forall]
  exact ⟨one_w, one_w, one_w, one_w, one_w, one_w, one_w, one_w⟩
/-- A buffer stretch 8 does not write keeps its contents through it. -/
theorem st8_keep (V : Valuation τ sig (Elt F)) (r : Ref sig .tc) (h : r ∉ st8_W) :
    after st8 V (Proc.devRef .tc r) = V (Proc.devRef .tc r) :=
  after_of_writes_sub st8 V st8_writes h

/-- The buffers stretch 9 writes. -/
abbrev st9_W : List (Ref sig .tc) := [main_cst_15, main_v97, main_cst_16, main_v98, main_v99, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v100, main_v101, main_v102, main_v103, main_cst_18, main_v104, main_v105, main_v106, main_v107, main_v108, main_v109, main_v110, main_v111, main_v112, main_v113, main_v114, main_v115]
set_option maxRecDepth 8192 in
theorem st9_writes : (st9 : List (HloOp τ sig (Elt F))).Forall fun op => op.writes ⊆ (st9_W.map (Proc.devRef (τ := τ) .tc)).toFinset := by
  simp only [st9, st9a, st9b, List.cons_append, List.nil_append, List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer stretch 9 does not write keeps its contents through it. -/
theorem st9_keep (V : Valuation τ sig (Elt F)) (r : Ref sig .tc) (h : r ∉ st9_W) :
    after st9 V (Proc.devRef .tc r) = V (Proc.devRef .tc r) :=
  after_of_writes_sub st9 V st9_writes h

/-- The buffers stretch 10 writes. -/
abbrev st10_W : List (Ref sig .tc) := [main_v116, main_v117, main_v118, main_v119, main_v120, main_call7_cst, main_call7_v0, main_v121]
set_option maxRecDepth 8192 in
theorem st10_writes : (st10 : List (HloOp τ sig (Elt F))).Forall fun op => op.writes ⊆ (st10_W.map (Proc.devRef (τ := τ) .tc)).toFinset := by
  simp only [List.Forall]
  exact ⟨one_w, one_w, one_w, one_w, one_w, one_w, one_w, one_w⟩
/-- A buffer stretch 10 does not write keeps its contents through it. -/
theorem st10_keep (V : Valuation τ sig (Elt F)) (r : Ref sig .tc) (h : r ∉ st10_W) :
    after st10 V (Proc.devRef .tc r) = V (Proc.devRef .tc r) :=
  after_of_writes_sub st10 V st10_writes h

/-- The buffers stretch 11 writes. -/
abbrev st11_W : List (Ref sig .tc) := [main_cst_19, main_v122, main_cst_20, main_v123, main_v124, main_c_21, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v125, main_v126, main_v127, main_v128, main_cst_22, main_v129, main_v130, main_v131, main_v132, main_v133, main_v134, main_v135, main_v136, main_v137, main_v138, main_v139, main_v140]
set_option maxRecDepth 8192 in
theorem st11_writes : (st11 : List (HloOp τ sig (Elt F))).Forall fun op => op.writes ⊆ (st11_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer stretch 11 does not write keeps its contents through it. -/
theorem st11_keep (V : Valuation τ sig (Elt F)) (r : Ref sig .tc) (h : r ∉ st11_W) :
    after st11 V (Proc.devRef .tc r) = V (Proc.devRef .tc r) :=
  after_of_writes_sub st11 V st11_writes h

/-- The buffers stretch 12 writes. -/
abbrev st12_W : List (Ref sig .tc) := [main_v141]
set_option maxRecDepth 8192 in
theorem st12_writes : (st12 : List (HloOp τ sig (Elt F))).Forall fun op => op.writes ⊆ (st12_W.map (Proc.devRef (τ := τ) .tc)).toFinset := by
  simp only [List.Forall]
  exact one_w
/-- A buffer stretch 12 does not write keeps its contents through it. -/
theorem st12_keep (V : Valuation τ sig (Elt F)) (r : Ref sig .tc) (h : r ∉ st12_W) :
    after st12 V (Proc.devRef .tc r) = V (Proc.devRef .tc r) :=
  after_of_writes_sub st12 V st12_writes h

/-- The buffers stretch 13 writes. -/
abbrev st13_W : List (Ref sig .tc) := [main_v142, main_v143, main_v144, main_v145, main_v146, main_call9_cst, main_call9_v0, main_v147]
set_option maxRecDepth 8192 in
theorem st13_writes : (st13 : List (HloOp τ sig (Elt F))).Forall fun op => op.writes ⊆ (st13_W.map (Proc.devRef (τ := τ) .tc)).toFinset := by
  simp only [List.Forall]
  exact ⟨one_w, one_w, one_w, one_w, one_w, one_w, one_w, one_w⟩
/-- A buffer stretch 13 does not write keeps its contents through it. -/
theorem st13_keep (V : Valuation τ sig (Elt F)) (r : Ref sig .tc) (h : r ∉ st13_W) :
    after st13 V (Proc.devRef .tc r) = V (Proc.devRef .tc r) :=
  after_of_writes_sub st13 V st13_writes h

/-- The buffers stretch 14 writes. -/
abbrev st14_W : List (Ref sig .tc) := [main_cst_23, main_v148, main_cst_24, main_v149, main_v150, main_c_25, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v151, main_v152, main_v153, main_v154, main_cst_26, main_v155, main_v156, main_v157, main_v158, main_v159, main_v160, main_v161, main_v162, main_v163, main_v164, main_v165, main_v166]
set_option maxRecDepth 8192 in
theorem st14_writes : (st14 : List (HloOp τ sig (Elt F))).Forall fun op => op.writes ⊆ (st14_W.map (Proc.devRef (τ := τ) .tc)).toFinset := by
  simp only [st14, st14a, st14b, List.cons_append, List.nil_append, List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer stretch 14 does not write keeps its contents through it. -/
theorem st14_keep (V : Valuation τ sig (Elt F)) (r : Ref sig .tc) (h : r ∉ st14_W) :
    after st14 V (Proc.devRef .tc r) = V (Proc.devRef .tc r) :=
  after_of_writes_sub st14 V st14_writes h

attribute [local irreducible] Host.reduce Host.reduceAdd Host.divf Host.sqrt Host.rsqrt transpose shapeCast broadcastInDim concatenate in
set_option maxRecDepth 8192 in
set_option maxHeartbeats 4000000 in
/-- After stretch 1, from any contents: `main_v20` holds the feature array of what its operands held. -/
theorem st1_out (V : Valuation τ sig (Elt F)) :
    after st1 V (no_index (Proc.devRef .tc main_v20)) = RDefs.feat (V (Proc.devRef .tc main_arg0)) (V (Proc.devRef .tc main_arg1)) := by
  simp only [st1]
  after_results_simp
  rfl

attribute [local irreducible] Host.reduce Host.reduceAdd Host.divf Host.sqrt Host.rsqrt transpose shapeCast broadcastInDim concatenate in
set_option maxRecDepth 8192 in
set_option maxHeartbeats 4000000 in
/-- After stretch 2, from any contents: `main_v39` holds the batch normalisation of the features of what its operands held. -/
theorem st2_out (V : Valuation τ sig (Elt F)) :
    after st2 V (no_index (Proc.devRef .tc main_v39)) = RDefs.bn1024 (V (Proc.devRef .tc main_v20)) (V (Proc.devRef .tc main_arg2)) (V (Proc.devRef .tc main_arg3)) := by
  simp only [st2]
  after_results_simp
  rfl

attribute [local irreducible] Host.reduce Host.reduceAdd Host.divf Host.sqrt Host.rsqrt transpose shapeCast broadcastInDim concatenate in
set_option maxRecDepth 8192 in
set_option maxHeartbeats 4000000 in
/-- After stretch 3, from any contents: `main_v45` holds the dense layer on the normalised features of what its operands held. -/
theorem st3_out (V : Valuation τ sig (Elt F)) :
    after st3 V (no_index (Proc.devRef .tc main_v45)) = RDefs.layer1024 (V (Proc.devRef .tc main_v39)) (V (Proc.devRef .tc main_arg4)) (V (Proc.devRef .tc main_arg5)) := by
  simp only [st3]
  after_results_simp
  rfl

attribute [local irreducible] Host.reduce Host.reduceAdd Host.divf Host.sqrt Host.rsqrt transpose shapeCast broadcastInDim concatenate in
set_option maxRecDepth 8192 in
set_option maxHeartbeats 4000000 in
/-- After stretch 4, from any contents: `main_v64` holds a batch normalisation at width 256 of what its operands held. -/
theorem st4_out (V : Valuation τ sig (Elt F)) :
    after st4 V (no_index (Proc.devRef .tc main_v64)) = RDefs.bn256 (V (Proc.devRef .tc main_v45)) (V (Proc.devRef .tc main_arg6)) (V (Proc.devRef .tc main_arg7)) := by
  simp only [st4, st4a, st4b, List.cons_append, List.nil_append]
  after_results_simp
  rfl

attribute [local irreducible] Host.reduce Host.reduceAdd Host.divf Host.sqrt Host.rsqrt transpose shapeCast broadcastInDim concatenate in
set_option maxRecDepth 8192 in
set_option maxHeartbeats 4000000 in
/-- After stretch 5, from any contents: `main_v70` holds a dense layer at width 256 of what its operands held. -/
theorem st5_out (V : Valuation τ sig (Elt F)) :
    after st5 V (no_index (Proc.devRef .tc main_v70)) = RDefs.layer256 (V (Proc.devRef .tc main_v64)) (V (Proc.devRef .tc main_arg8)) (V (Proc.devRef .tc main_arg9)) := by
  simp only [st5]
  after_results_simp
  rfl

attribute [local irreducible] Host.reduce Host.reduceAdd Host.divf Host.sqrt Host.rsqrt transpose shapeCast broadcastInDim concatenate in
set_option maxRecDepth 8192 in
set_option maxHeartbeats 4000000 in
/-- After stretch 6, from any contents: `main_v89` holds a batch normalisation at width 256 of what its operands held. -/
theorem st6_out (V : Valuation τ sig (Elt F)) :
    after st6 V (no_index (Proc.devRef .tc main_v89)) = RDefs.bn256 (V (Proc.devRef .tc main_v70)) (V (Proc.devRef .tc main_arg10)) (V (Proc.devRef .tc main_arg11)) := by
  simp only [st6]
  after_results_simp
  rfl

attribute [local irreducible] Host.reduce Host.reduceAdd Host.divf Host.sqrt Host.rsqrt transpose shapeCast broadcastInDim concatenate in
set_option maxRecDepth 8192 in
set_option maxHeartbeats 4000000 in
/-- After stretch 7, from any contents: `main_v90` holds the concatenation of two pieces of what its operands held. -/
theorem st7_out (V : Valuation τ sig (Elt F)) :
    after st7 V (no_index (Proc.devRef .tc main_v90)) = RDefs.cat2 (V (Proc.devRef .tc main_v39)) (V (Proc.devRef .tc main_v89)) := by
  simp only [st7]
  after_results_simp
  rfl

attribute [local irreducible] Host.reduce Host.reduceAdd Host.divf Host.sqrt Host.rsqrt transpose shapeCast broadcastInDim concatenate in
set_option maxRecDepth 8192 in
set_option maxHeartbeats 4000000 in
/-- After stretch 8, from any contents: `main_v96` holds the dense layer at width 1280 of what its operands held. -/
theorem st8_out (V : Valuation τ sig (Elt F)) :
    after st8 V (no_index (Proc.devRef .tc main_v96)) = RDefs.layer1280 (V (Proc.devRef .tc main_v90)) (V (Proc.devRef .tc main_arg12)) (V (Proc.devRef .tc main_arg13)) := by
  simp only [st8]
  after_results_simp
  rfl

attribute [local irreducible] Host.reduce Host.reduceAdd Host.divf Host.sqrt Host.rsqrt transpose shapeCast broadcastInDim concatenate in
set_option maxRecDepth 8192 in
set_option maxHeartbeats 4000000 in
/-- After stretch 9, from any contents: `main_v115` holds a batch normalisation at width 256 of what its operands held. -/
theorem st9_out (V : Valuation τ sig (Elt F)) :
    after st9 V (no_index (Proc.devRef .tc main_v115)) = RDefs.bn256 (V (Proc.devRef .tc main_v96)) (V (Proc.devRef .tc main_arg14)) (V (Proc.devRef .tc main_arg15)) := by
  simp only [st9, st9a, st9b, List.cons_append, List.nil_append]
  after_results_simp
  rfl

attribute [local irreducible] Host.reduce Host.reduceAdd Host.divf Host.sqrt Host.rsqrt transpose shapeCast broadcastInDim concatenate in
set_option maxRecDepth 8192 in
set_option maxHeartbeats 4000000 in
/-- After stretch 10, from any contents: `main_v121` holds a dense layer at width 256 of what its operands held. -/
theorem st10_out (V : Valuation τ sig (Elt F)) :
    after st10 V (no_index (Proc.devRef .tc main_v121)) = RDefs.layer256 (V (Proc.devRef .tc main_v115)) (V (Proc.devRef .tc main_arg16)) (V (Proc.devRef .tc main_arg17)) := by
  simp only [st10]
  after_results_simp
  rfl

attribute [local irreducible] Host.reduce Host.reduceAdd Host.divf Host.sqrt Host.rsqrt transpose shapeCast broadcastInDim concatenate in
set_option maxRecDepth 8192 in
set_option maxHeartbeats 4000000 in
/-- After stretch 11, from any contents: `main_v140` holds a batch normalisation at width 256 of what its operands held. -/
theorem st11_out (V : Valuation τ sig (Elt F)) :
    after st11 V (no_index (Proc.devRef .tc main_v140)) = RDefs.bn256 (V (Proc.devRef .tc main_v121)) (V (Proc.devRef .tc main_arg18)) (V (Proc.devRef .tc main_arg19)) := by
  simp only [st11]
  after_results_simp
  rfl

attribute [local irreducible] Host.reduce Host.reduceAdd Host.divf Host.sqrt Host.rsqrt transpose shapeCast broadcastInDim concatenate in
set_option maxRecDepth 8192 in
set_option maxHeartbeats 4000000 in
/-- After stretch 12, from any contents: `main_v141` holds the concatenation of three pieces of what its operands held. -/
theorem st12_out (V : Valuation τ sig (Elt F)) :
    after st12 V (no_index (Proc.devRef .tc main_v141)) = RDefs.cat3 (V (Proc.devRef .tc main_v39)) (V (Proc.devRef .tc main_v89)) (V (Proc.devRef .tc main_v140)) := by
  simp only [st12]
  after_results_simp
  rfl

attribute [local irreducible] Host.reduce Host.reduceAdd Host.divf Host.sqrt Host.rsqrt transpose shapeCast broadcastInDim concatenate in
set_option maxRecDepth 8192 in
set_option maxHeartbeats 4000000 in
/-- After stretch 13, from any contents: `main_v147` holds the dense layer at width 1536 of what its operands held. -/
theorem st13_out (V : Valuation τ sig (Elt F)) :
    after st13 V (no_index (Proc.devRef .tc main_v147)) = RDefs.layer1536 (V (Proc.devRef .tc main_v141)) (V (Proc.devRef .tc main_arg20)) (V (Proc.devRef .tc main_arg21)) := by
  simp only [st13]
  after_results_simp
  rfl

attribute [local irreducible] Host.reduce Host.reduceAdd Host.divf Host.sqrt Host.rsqrt transpose shapeCast broadcastInDim concatenate in
set_option maxRecDepth 8192 in
set_option maxHeartbeats 4000000 in
/-- After stretch 14, from any contents: `main_v166` holds the batch normalisation at width 512 of what its operands held. -/
theorem st14_out (V : Valuation τ sig (Elt F)) :
    after st14 V (no_index (Proc.devRef .tc main_v166)) = RDefs.bn512 (V (Proc.devRef .tc main_v147)) (V (Proc.devRef .tc main_arg22)) (V (Proc.devRef .tc main_arg23)) := by
  simp only [st14, st14a, st14b, List.cons_append, List.nil_append]
  after_results_simp
  rfl

/-! ## The stretches composed -/

/-- The device's buffer contents before the first stretch. -/
def val0 (V : Valuation τ sig (Elt F)) : Valuation τ sig (Elt F) := V

/-- The device's buffer contents after the first 1 stretch. -/
def val1 (V : Valuation τ sig (Elt F)) : Valuation τ sig (Elt F) := after st1 (val0 V)
/-- A buffer none of the first 1 stretch writes holds what it held at the start. -/
theorem val1_keep0 (V : Valuation τ sig (Elt F)) (r : Ref sig .tc) (h1 : r ∉ st1_W) :
    val1 V (Proc.devRef .tc r) = V (Proc.devRef .tc r) :=
  st1_keep V r h1
theorem val1_main_v20 (V : Valuation τ sig (Elt F)) : val1 V (no_index (Proc.devRef .tc main_v20)) = RDefs.feat (V (Proc.devRef .tc main_arg0)) (V (Proc.devRef .tc main_arg1)) :=
  (st1_out (val0 V)).trans (by rfl)

/-- The device's buffer contents after the first 2 stretches. -/
def val2 (V : Valuation τ sig (Elt F)) : Valuation τ sig (Elt F) := after st2 (val1 V)
/-- A buffer none of the first 2 stretches writes holds what it held at the start. -/
theorem val2_keep0 (V : Valuation τ sig (Elt F)) (r : Ref sig .tc) (h1 : r ∉ st1_W) (h2 : r ∉ st2_W) :
    val2 V (Proc.devRef .tc r) = V (Proc.devRef .tc r) :=
  (st2_keep (val1 V) r h2).trans (val1_keep0 V r h1)
theorem val2_main_v39 (V : Valuation τ sig (Elt F)) : val2 V (no_index (Proc.devRef .tc main_v39)) = RDefs.x0 (V (Proc.devRef .tc main_arg0)) (V (Proc.devRef .tc main_arg1)) (V (Proc.devRef .tc main_arg2)) (V (Proc.devRef .tc main_arg3)) :=
  (st2_out (val1 V)).trans (by rw [val1_main_v20 V, val1_keep0 V main_arg2 (by decide), val1_keep0 V main_arg3 (by decide)] <;> rfl)

/-- The device's buffer contents after the first 3 stretches. -/
def val3 (V : Valuation τ sig (Elt F)) : Valuation τ sig (Elt F) := after st3 (val2 V)
/-- A buffer none of the first 3 stretches writes holds what it held at the start. -/
theorem val3_keep0 (V : Valuation τ sig (Elt F)) (r : Ref sig .tc) (h1 : r ∉ st1_W) (h2 : r ∉ st2_W) (h3 : r ∉ st3_W) :
    val3 V (Proc.devRef .tc r) = V (Proc.devRef .tc r) :=
  (st3_keep (val2 V) r h3).trans (val2_keep0 V r h1 h2)
theorem val3_main_v39 (V : Valuation τ sig (Elt F)) : val3 V (no_index (Proc.devRef .tc main_v39)) = RDefs.x0 (V (Proc.devRef .tc main_arg0)) (V (Proc.devRef .tc main_arg1)) (V (Proc.devRef .tc main_arg2)) (V (Proc.devRef .tc main_arg3)) :=
  (st3_keep (val2 V) main_v39 (by decide)).trans (val2_main_v39 V)
theorem val3_main_v45 (V : Valuation τ sig (Elt F)) : val3 V (no_index (Proc.devRef .tc main_v45)) = RDefs.layer1024 (RDefs.x0 (V (Proc.devRef .tc main_arg0)) (V (Proc.devRef .tc main_arg1)) (V (Proc.devRef .tc main_arg2)) (V (Proc.devRef .tc main_arg3))) (V (Proc.devRef .tc main_arg4)) (V (Proc.devRef .tc main_arg5)) :=
  (st3_out (val2 V)).trans (by rw [val2_main_v39 V, val2_keep0 V main_arg4 (by decide) (by decide), val2_keep0 V main_arg5 (by decide) (by decide)] <;> rfl)

/-- The device's buffer contents after the first 4 stretches. -/
def val4 (V : Valuation τ sig (Elt F)) : Valuation τ sig (Elt F) := after st4 (val3 V)
/-- A buffer none of the first 4 stretches writes holds what it held at the start. -/
theorem val4_keep0 (V : Valuation τ sig (Elt F)) (r : Ref sig .tc) (h1 : r ∉ st1_W) (h2 : r ∉ st2_W) (h3 : r ∉ st3_W) (h4 : r ∉ st4_W) :
    val4 V (Proc.devRef .tc r) = V (Proc.devRef .tc r) :=
  (st4_keep (val3 V) r h4).trans (val3_keep0 V r h1 h2 h3)
theorem val4_main_v39 (V : Valuation τ sig (Elt F)) : val4 V (no_index (Proc.devRef .tc main_v39)) = RDefs.x0 (V (Proc.devRef .tc main_arg0)) (V (Proc.devRef .tc main_arg1)) (V (Proc.devRef .tc main_arg2)) (V (Proc.devRef .tc main_arg3)) :=
  (st4_keep (val3 V) main_v39 (by decide)).trans (val3_main_v39 V)
theorem val4_main_v64 (V : Valuation τ sig (Elt F)) : val4 V (no_index (Proc.devRef .tc main_v64)) = RDefs.bn256 (RDefs.layer1024 (RDefs.x0 (V (Proc.devRef .tc main_arg0)) (V (Proc.devRef .tc main_arg1)) (V (Proc.devRef .tc main_arg2)) (V (Proc.devRef .tc main_arg3))) (V (Proc.devRef .tc main_arg4)) (V (Proc.devRef .tc main_arg5))) (V (Proc.devRef .tc main_arg6)) (V (Proc.devRef .tc main_arg7)) :=
  (st4_out (val3 V)).trans (by rw [val3_main_v45 V, val3_keep0 V main_arg6 (by decide) (by decide) (by decide), val3_keep0 V main_arg7 (by decide) (by decide) (by decide)] <;> rfl)

/-- The device's buffer contents after the first 5 stretches. -/
def val5 (V : Valuation τ sig (Elt F)) : Valuation τ sig (Elt F) := after st5 (val4 V)
/-- A buffer none of the first 5 stretches writes holds what it held at the start. -/
theorem val5_keep0 (V : Valuation τ sig (Elt F)) (r : Ref sig .tc) (h1 : r ∉ st1_W) (h2 : r ∉ st2_W) (h3 : r ∉ st3_W) (h4 : r ∉ st4_W) (h5 : r ∉ st5_W) :
    val5 V (Proc.devRef .tc r) = V (Proc.devRef .tc r) :=
  (st5_keep (val4 V) r h5).trans (val4_keep0 V r h1 h2 h3 h4)
theorem val5_main_v39 (V : Valuation τ sig (Elt F)) : val5 V (no_index (Proc.devRef .tc main_v39)) = RDefs.x0 (V (Proc.devRef .tc main_arg0)) (V (Proc.devRef .tc main_arg1)) (V (Proc.devRef .tc main_arg2)) (V (Proc.devRef .tc main_arg3)) :=
  (st5_keep (val4 V) main_v39 (by decide)).trans (val4_main_v39 V)
theorem val5_main_v70 (V : Valuation τ sig (Elt F)) : val5 V (no_index (Proc.devRef .tc main_v70)) = RDefs.layer256 (RDefs.bn256 (RDefs.layer1024 (RDefs.x0 (V (Proc.devRef .tc main_arg0)) (V (Proc.devRef .tc main_arg1)) (V (Proc.devRef .tc main_arg2)) (V (Proc.devRef .tc main_arg3))) (V (Proc.devRef .tc main_arg4)) (V (Proc.devRef .tc main_arg5))) (V (Proc.devRef .tc main_arg6)) (V (Proc.devRef .tc main_arg7))) (V (Proc.devRef .tc main_arg8)) (V (Proc.devRef .tc main_arg9)) :=
  (st5_out (val4 V)).trans (by rw [val4_main_v64 V, val4_keep0 V main_arg8 (by decide) (by decide) (by decide) (by decide), val4_keep0 V main_arg9 (by decide) (by decide) (by decide) (by decide)] <;> rfl)

/-- The device's buffer contents after the first 6 stretches. -/
def val6 (V : Valuation τ sig (Elt F)) : Valuation τ sig (Elt F) := after st6 (val5 V)
/-- A buffer none of the first 6 stretches writes holds what it held at the start. -/
theorem val6_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) :
    val6 V (Proc.devRef .tc r) = V (Proc.devRef .tc r) :=
  (st6_keep (val5 V) r h6).trans (val5_keep0 V r h1 h2 h3 h4 h5)
theorem val6_main_v39 (V : Valuation τ sig (Elt F)) : val6 V (no_index (Proc.devRef .tc main_v39)) = RDefs.x0 (V (Proc.devRef .tc main_arg0)) (V (Proc.devRef .tc main_arg1)) (V (Proc.devRef .tc main_arg2)) (V (Proc.devRef .tc main_arg3)) :=
  (st6_keep (val5 V) main_v39 (by decide)).trans (val5_main_v39 V)
theorem val6_main_v89 (V : Valuation τ sig (Elt F)) : val6 V (no_index (Proc.devRef .tc main_v89)) = RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (st6_out (val5 V)).trans (by rw [val5_main_v70 V, val5_keep0 V main_arg10 (by decide) (by decide) (by decide) (by decide) (by decide), val5_keep0 V main_arg11 (by decide) (by decide) (by decide) (by decide) (by decide)] <;> rfl)

/-- The device's buffer contents after the first 7 stretches. -/
def val7 (V : Valuation τ sig (Elt F)) : Valuation τ sig (Elt F) := after st7 (val6 V)
/-- A buffer none of the first 7 stretches writes holds what it held at the start. -/
theorem val7_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) (h7 : r ∉ st7_W) :
    val7 V (Proc.devRef .tc r) = V (Proc.devRef .tc r) :=
  (st7_keep (val6 V) r h7).trans (val6_keep0 V r h1 h2 h3 h4 h5 h6)
theorem val7_main_v39 (V : Valuation τ sig (Elt F)) : val7 V (no_index (Proc.devRef .tc main_v39)) = RDefs.x0 (V (Proc.devRef .tc main_arg0)) (V (Proc.devRef .tc main_arg1)) (V (Proc.devRef .tc main_arg2)) (V (Proc.devRef .tc main_arg3)) :=
  (st7_keep (val6 V) main_v39 (by decide)).trans (val6_main_v39 V)
theorem val7_main_v89 (V : Valuation τ sig (Elt F)) : val7 V (no_index (Proc.devRef .tc main_v89)) = RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (st7_keep (val6 V) main_v89 (by decide)).trans (val6_main_v89 V)
theorem val7_main_v90 (V : Valuation τ sig (Elt F)) : val7 V (no_index (Proc.devRef .tc main_v90)) = RDefs.cat2 (RDefs.x0 (V (Proc.devRef .tc main_arg0)) (V (Proc.devRef .tc main_arg1)) (V (Proc.devRef .tc main_arg2)) (V (Proc.devRef .tc main_arg3))) (RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))) :=
  (st7_out (val6 V)).trans (by rw [val6_main_v39 V, val6_main_v89 V] <;> rfl)

/-- The device's buffer contents after the first 8 stretches. -/
def val8 (V : Valuation τ sig (Elt F)) : Valuation τ sig (Elt F) := after st8 (val7 V)
/-- A buffer none of the first 8 stretches writes holds what it held at the start. -/
theorem val8_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) (h7 : r ∉ st7_W) (h8 : r ∉ st8_W) :
    val8 V (Proc.devRef .tc r) = V (Proc.devRef .tc r) :=
  (st8_keep (val7 V) r h8).trans (val7_keep0 V r h1 h2 h3 h4 h5 h6 h7)
theorem val8_main_v39 (V : Valuation τ sig (Elt F)) : val8 V (no_index (Proc.devRef .tc main_v39)) = RDefs.x0 (V (Proc.devRef .tc main_arg0)) (V (Proc.devRef .tc main_arg1)) (V (Proc.devRef .tc main_arg2)) (V (Proc.devRef .tc main_arg3)) :=
  (st8_keep (val7 V) main_v39 (by decide)).trans (val7_main_v39 V)
theorem val8_main_v89 (V : Valuation τ sig (Elt F)) : val8 V (no_index (Proc.devRef .tc main_v89)) = RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (st8_keep (val7 V) main_v89 (by decide)).trans (val7_main_v89 V)
theorem val8_main_v96 (V : Valuation τ sig (Elt F)) : val8 V (no_index (Proc.devRef .tc main_v96)) = RDefs.layer1280 (RDefs.cat2 (RDefs.x0 (V (Proc.devRef .tc main_arg0)) (V (Proc.devRef .tc main_arg1)) (V (Proc.devRef .tc main_arg2)) (V (Proc.devRef .tc main_arg3))) (RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)))) (V (Proc.devRef .tc main_arg12)) (V (Proc.devRef .tc main_arg13)) :=
  (st8_out (val7 V)).trans (by rw [val7_main_v90 V, val7_keep0 V main_arg12 (by decide) (by decide) (by decide) (by decide) (by decide) (by decide) (by decide), val7_keep0 V main_arg13 (by decide) (by decide) (by decide) (by decide) (by decide) (by decide) (by decide)] <;> rfl)

/-- The device's buffer contents after the first 9 stretches. -/
def val9 (V : Valuation τ sig (Elt F)) : Valuation τ sig (Elt F) := after st9 (val8 V)
/-- A buffer none of the first 9 stretches writes holds what it held at the start. -/
theorem val9_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) (h7 : r ∉ st7_W) (h8 : r ∉ st8_W) (h9 : r ∉ st9_W) :
    val9 V (Proc.devRef .tc r) = V (Proc.devRef .tc r) :=
  (st9_keep (val8 V) r h9).trans (val8_keep0 V r h1 h2 h3 h4 h5 h6 h7 h8)
theorem val9_main_v39 (V : Valuation τ sig (Elt F)) : val9 V (no_index (Proc.devRef .tc main_v39)) = RDefs.x0 (V (Proc.devRef .tc main_arg0)) (V (Proc.devRef .tc main_arg1)) (V (Proc.devRef .tc main_arg2)) (V (Proc.devRef .tc main_arg3)) :=
  (st9_keep (val8 V) main_v39 (by decide)).trans (val8_main_v39 V)
theorem val9_main_v89 (V : Valuation τ sig (Elt F)) : val9 V (no_index (Proc.devRef .tc main_v89)) = RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (st9_keep (val8 V) main_v89 (by decide)).trans (val8_main_v89 V)
theorem val9_main_v115 (V : Valuation τ sig (Elt F)) : val9 V (no_index (Proc.devRef .tc main_v115)) = RDefs.bn256 (RDefs.layer1280 (RDefs.cat2 (RDefs.x0 (V (Proc.devRef .tc main_arg0)) (V (Proc.devRef .tc main_arg1)) (V (Proc.devRef .tc main_arg2)) (V (Proc.devRef .tc main_arg3))) (RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)))) (V (Proc.devRef .tc main_arg12)) (V (Proc.devRef .tc main_arg13))) (V (Proc.devRef .tc main_arg14)) (V (Proc.devRef .tc main_arg15)) :=
  (st9_out (val8 V)).trans (by rw [val8_main_v96 V, val8_keep0 V main_arg14 (by decide) (by decide) (by decide) (by decide) (by decide) (by decide) (by decide) (by decide), val8_keep0 V main_arg15 (by decide) (by decide) (by decide) (by decide) (by decide) (by decide) (by decide) (by decide)] <;> rfl)

/-- The device's buffer contents after the first 10 stretches. -/
def val10 (V : Valuation τ sig (Elt F)) : Valuation τ sig (Elt F) := after st10 (val9 V)
/-- A buffer none of the first 10 stretches writes holds what it held at the start. -/
theorem val10_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) (h7 : r ∉ st7_W) (h8 : r ∉ st8_W) (h9 : r ∉ st9_W) (h10 : r ∉ st10_W) :
    val10 V (Proc.devRef .tc r) = V (Proc.devRef .tc r) :=
  (st10_keep (val9 V) r h10).trans (val9_keep0 V r h1 h2 h3 h4 h5 h6 h7 h8 h9)
theorem val10_main_v39 (V : Valuation τ sig (Elt F)) : val10 V (no_index (Proc.devRef .tc main_v39)) = RDefs.x0 (V (Proc.devRef .tc main_arg0)) (V (Proc.devRef .tc main_arg1)) (V (Proc.devRef .tc main_arg2)) (V (Proc.devRef .tc main_arg3)) :=
  (st10_keep (val9 V) main_v39 (by decide)).trans (val9_main_v39 V)
theorem val10_main_v89 (V : Valuation τ sig (Elt F)) : val10 V (no_index (Proc.devRef .tc main_v89)) = RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (st10_keep (val9 V) main_v89 (by decide)).trans (val9_main_v89 V)
theorem val10_main_v121 (V : Valuation τ sig (Elt F)) : val10 V (no_index (Proc.devRef .tc main_v121)) = RDefs.layer256 (RDefs.bn256 (RDefs.layer1280 (RDefs.cat2 (RDefs.x0 (V (Proc.devRef .tc main_arg0)) (V (Proc.devRef .tc main_arg1)) (V (Proc.devRef .tc main_arg2)) (V (Proc.devRef .tc main_arg3))) (RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)))) (V (Proc.devRef .tc main_arg12)) (V (Proc.devRef .tc main_arg13))) (V (Proc.devRef .tc main_arg14)) (V (Proc.devRef .tc main_arg15))) (V (Proc.devRef .tc main_arg16)) (V (Proc.devRef .tc main_arg17)) :=
  (st10_out (val9 V)).trans (by rw [val9_main_v115 V, val9_keep0 V main_arg16 (by decide) (by decide) (by decide) (by decide) (by decide) (by decide) (by decide) (by decide) (by decide), val9_keep0 V main_arg17 (by decide) (by decide) (by decide) (by decide) (by decide) (by decide) (by decide) (by decide) (by decide)] <;> rfl)

/-- The device's buffer contents after the first 11 stretches. -/
def val11 (V : Valuation τ sig (Elt F)) : Valuation τ sig (Elt F) := after st11 (val10 V)
/-- A buffer none of the first 11 stretches writes holds what it held at the start. -/
theorem val11_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) (h7 : r ∉ st7_W) (h8 : r ∉ st8_W) (h9 : r ∉ st9_W) (h10 : r ∉ st10_W) (h11 : r ∉ st11_W) :
    val11 V (Proc.devRef .tc r) = V (Proc.devRef .tc r) :=
  (st11_keep (val10 V) r h11).trans (val10_keep0 V r h1 h2 h3 h4 h5 h6 h7 h8 h9 h10)
theorem val11_main_v39 (V : Valuation τ sig (Elt F)) : val11 V (no_index (Proc.devRef .tc main_v39)) = RDefs.x0 (V (Proc.devRef .tc main_arg0)) (V (Proc.devRef .tc main_arg1)) (V (Proc.devRef .tc main_arg2)) (V (Proc.devRef .tc main_arg3)) :=
  (st11_keep (val10 V) main_v39 (by decide)).trans (val10_main_v39 V)
theorem val11_main_v89 (V : Valuation τ sig (Elt F)) : val11 V (no_index (Proc.devRef .tc main_v89)) = RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (st11_keep (val10 V) main_v89 (by decide)).trans (val10_main_v89 V)
theorem val11_main_v140 (V : Valuation τ sig (Elt F)) : val11 V (no_index (Proc.devRef .tc main_v140)) = RDefs.h2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  (st11_out (val10 V)).trans (by rw [val10_main_v121 V, val10_keep0 V main_arg18 (by decide) (by decide) (by decide) (by decide) (by decide) (by decide) (by decide) (by decide) (by decide) (by decide), val10_keep0 V main_arg19 (by decide) (by decide) (by decide) (by decide) (by decide) (by decide) (by decide) (by decide) (by decide) (by decide)] <;> rfl)

/-- The device's buffer contents after the first 12 stretches. -/
def val12 (V : Valuation τ sig (Elt F)) : Valuation τ sig (Elt F) := after st12 (val11 V)
/-- A buffer none of the first 12 stretches writes holds what it held at the start. -/
theorem val12_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) (h7 : r ∉ st7_W) (h8 : r ∉ st8_W) (h9 : r ∉ st9_W) (h10 : r ∉ st10_W) (h11 : r ∉ st11_W) (h12 : r ∉ st12_W) :
    val12 V (Proc.devRef .tc r) = V (Proc.devRef .tc r) :=
  (st12_keep (val11 V) r h12).trans (val11_keep0 V r h1 h2 h3 h4 h5 h6 h7 h8 h9 h10 h11)
theorem val12_main_v141 (V : Valuation τ sig (Elt F)) : val12 V (no_index (Proc.devRef .tc main_v141)) = RDefs.cat3 (RDefs.x0 (V (Proc.devRef .tc main_arg0)) (V (Proc.devRef .tc main_arg1)) (V (Proc.devRef .tc main_arg2)) (V (Proc.devRef .tc main_arg3))) (RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))) (RDefs.h2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19))) :=
  (st12_out (val11 V)).trans (by rw [val11_main_v39 V, val11_main_v89 V, val11_main_v140 V] <;> rfl)

/-- The device's buffer contents after the first 13 stretches. -/
def val13 (V : Valuation τ sig (Elt F)) : Valuation τ sig (Elt F) := after st13 (val12 V)
/-- A buffer none of the first 13 stretches writes holds what it held at the start. -/
theorem val13_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) (h7 : r ∉ st7_W) (h8 : r ∉ st8_W) (h9 : r ∉ st9_W) (h10 : r ∉ st10_W) (h11 : r ∉ st11_W) (h12 : r ∉ st12_W) (h13 : r ∉ st13_W) :
    val13 V (Proc.devRef .tc r) = V (Proc.devRef .tc r) :=
  (st13_keep (val12 V) r h13).trans (val12_keep0 V r h1 h2 h3 h4 h5 h6 h7 h8 h9 h10 h11 h12)
theorem val13_main_v147 (V : Valuation τ sig (Elt F)) : val13 V (no_index (Proc.devRef .tc main_v147)) = RDefs.layer1536 (RDefs.cat3 (RDefs.x0 (V (Proc.devRef .tc main_arg0)) (V (Proc.devRef .tc main_arg1)) (V (Proc.devRef .tc main_arg2)) (V (Proc.devRef .tc main_arg3))) (RDefs.h1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))) (RDefs.h2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)))) (V (Proc.devRef .tc main_arg20)) (V (Proc.devRef .tc main_arg21)) :=
  (st13_out (val12 V)).trans (by rw [val12_main_v141 V, val12_keep0 V main_arg20 (by decide) (by decide) (by decide) (by decide) (by decide) (by decide) (by decide) (by decide) (by decide) (by decide) (by decide) (by decide), val12_keep0 V main_arg21 (by decide) (by decide) (by decide) (by decide) (by decide) (by decide) (by decide) (by decide) (by decide) (by decide) (by decide) (by decide)] <;> rfl)

/-- The device's buffer contents after the first 14 stretches. -/
def val14 (V : Valuation τ sig (Elt F)) : Valuation τ sig (Elt F) := after st14 (val13 V)
/-- A buffer none of the first 14 stretches writes holds what it held at the start. -/
theorem val14_keep0 (V : Valuation τ sig (Elt F)) (r : Ref sig .tc) (h1 : r ∉ st1_W) (h2 : r ∉ st2_W) (h3 : r ∉ st3_W) (h4 : r ∉ st4_W) (h5 : r ∉ st5_W) (h6 : r ∉ st6_W) (h7 : r ∉ st7_W) (h8 : r ∉ st8_W) (h9 : r ∉ st9_W) (h10 : r ∉ st10_W) (h11 : r ∉ st11_W) (h12 : r ∉ st12_W) (h13 : r ∉ st13_W) (h14 : r ∉ st14_W) :
    val14 V (Proc.devRef .tc r) = V (Proc.devRef .tc r) :=
  (st14_keep (val13 V) r h14).trans (val13_keep0 V r h1 h2 h3 h4 h5 h6 h7 h8 h9 h10 h11 h12 h13)
theorem val14_main_v166 (V : Valuation τ sig (Elt F)) : val14 V (no_index (Proc.devRef .tc main_v166)) = RDefs.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) :=
  (st14_out (val13 V)).trans (by rw [val13_main_v147 V, val13_keep0 V main_arg22 (by decide) (by decide) (by decide) (by decide) (by decide) (by decide) (by decide) (by decide) (by decide) (by decide) (by decide) (by decide) (by decide), val13_keep0 V main_arg23 (by decide) (by decide) (by decide) (by decide) (by decide) (by decide) (by decide) (by decide) (by decide) (by decide) (by decide) (by decide) (by decide)] <;> rfl)

/-- The contents after the whole line are the contents after the fourteenth stretch. -/
theorem after_ops (V : Valuation τ sig (Elt F)) : after ops V = val14 V := by
  simp only [ops, after_append']
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem st1_sub : (st1 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., reshape_bufs_sub .., nullary_bufs_sub .., binary_bufs_sub .., unary_bufs_sub ..⟩
set_option maxRecDepth 8192 in
theorem st1_fresh : (st1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem st2_sub : (st2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem st2_fresh : (st2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem st3_sub : (st3 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
set_option maxRecDepth 8192 in
theorem st3_fresh : (st3 : List (HloOp τ sig (Elt F))).Forall fun op => op.fresh = ∅ :=
  ⟨rfl, rfl, rfl, rfl, rfl, rfl, rfl, rfl⟩

set_option maxRecDepth 8192 in
theorem st4a_sub : (st4a : List (HloOp τ sig (Elt F))).Forall fun op => op.bufs ⊆ tcRefs τ sig :=
  ⟨nullary_bufs_sub .., binary_bufs_sub .., nullary_bufs_sub .., unary_bufs_sub .., binary_bufs_sub ..⟩
set_option maxRecDepth 8192 in
theorem st4a_fresh : (st4a : List (HloOp τ sig (Elt F))).Forall fun op => op.fresh = ∅ :=
  ⟨rfl, rfl, rfl, rfl, rfl⟩

set_option maxRecDepth 8192 in
theorem st4b_sub : (st4b : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem st4b_fresh : (st4b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem st5_sub : (st5 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
set_option maxRecDepth 8192 in
theorem st5_fresh : (st5 : List (HloOp τ sig (Elt F))).Forall fun op => op.fresh = ∅ :=
  ⟨rfl, rfl, rfl, rfl, rfl, rfl, rfl, rfl⟩

set_option maxRecDepth 8192 in
theorem st6_sub : (st6 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem st6_fresh : (st6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem st7_sub : (st7 : List (HloOp τ sig (Elt F))).Forall fun op => op.bufs ⊆ tcRefs τ sig :=
  binary_bufs_sub ..
set_option maxRecDepth 8192 in
theorem st7_fresh : (st7 : List (HloOp τ sig (Elt F))).Forall fun op => op.fresh = ∅ :=
  rfl

set_option maxRecDepth 8192 in
theorem st8_sub : (st8 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
set_option maxRecDepth 8192 in
theorem st8_fresh : (st8 : List (HloOp τ sig (Elt F))).Forall fun op => op.fresh = ∅ :=
  ⟨rfl, rfl, rfl, rfl, rfl, rfl, rfl, rfl⟩

set_option maxRecDepth 8192 in
theorem st9a_sub : (st9a : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
set_option maxRecDepth 8192 in
theorem st9a_fresh : (st9a : List (HloOp τ sig (Elt F))).Forall fun op => op.fresh = ∅ :=
  ⟨rfl, rfl, rfl, rfl, rfl, rfl⟩

set_option maxRecDepth 8192 in
theorem st9b_sub : (st9b : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem st9b_fresh : (st9b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem st10_sub : (st10 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
set_option maxRecDepth 8192 in
theorem st10_fresh : (st10 : List (HloOp τ sig (Elt F))).Forall fun op => op.fresh = ∅ :=
  ⟨rfl, rfl, rfl, rfl, rfl, rfl, rfl, rfl⟩

set_option maxRecDepth 8192 in
theorem st11_sub : (st11 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem st11_fresh : (st11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem st12_sub : (st12 : List (HloOp τ sig (Elt F))).Forall fun op => op.bufs ⊆ tcRefs τ sig :=
  nary_bufs_sub ..
set_option maxRecDepth 8192 in
theorem st12_fresh : (st12 : List (HloOp τ sig (Elt F))).Forall fun op => op.fresh = ∅ :=
  rfl

set_option maxRecDepth 8192 in
theorem st13_sub : (st13 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
set_option maxRecDepth 8192 in
theorem st13_fresh : (st13 : List (HloOp τ sig (Elt F))).Forall fun op => op.fresh = ∅ :=
  ⟨rfl, rfl, rfl, rfl, rfl, rfl, rfl, rfl⟩

set_option maxRecDepth 8192 in
theorem st14a_sub : (st14a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem st14a_fresh : (st14a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem st14b_sub : (st14b : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem st14b_fresh : (st14b : List (HloOp τ sig (Elt F))).Forall fun op => op.fresh = ∅ :=
  ⟨rfl, rfl, rfl, rfl, rfl, rfl, rfl, rfl, rfl, rfl, rfl, rfl, rfl, rfl, rfl, rfl⟩

/-- Every operation of the line touches TensorCore references only. -/
theorem ops_sub : (ops : List (HloOp τ sig (Elt F))).Forall fun op => op.bufs ⊆ tcRefs τ sig :=
  List.forall_iff_forall_mem.mpr fun op h => by
    simp only [ops, st4, st9, st14, List.append_assoc, List.mem_append] at h
    rcases h with h | h | h | h | h | h | h | h | h | h | h | h | h | h | h | h | h
    exacts [List.forall_iff_forall_mem.mp st1_sub op h, List.forall_iff_forall_mem.mp st2_sub op h, List.forall_iff_forall_mem.mp st3_sub op h, List.forall_iff_forall_mem.mp st4a_sub op h, List.forall_iff_forall_mem.mp st4b_sub op h, List.forall_iff_forall_mem.mp st5_sub op h, List.forall_iff_forall_mem.mp st6_sub op h, List.forall_iff_forall_mem.mp st7_sub op h, List.forall_iff_forall_mem.mp st8_sub op h, List.forall_iff_forall_mem.mp st9a_sub op h, List.forall_iff_forall_mem.mp st9b_sub op h, List.forall_iff_forall_mem.mp st10_sub op h, List.forall_iff_forall_mem.mp st11_sub op h, List.forall_iff_forall_mem.mp st12_sub op h, List.forall_iff_forall_mem.mp st13_sub op h, List.forall_iff_forall_mem.mp st14a_sub op h, List.forall_iff_forall_mem.mp st14b_sub op h]

/-- Every operation of the line determines its results. -/
theorem ops_fresh : ∀ op ∈ (ops : List (HloOp τ sig (Elt F))), op.fresh = ∅ := fun op h => by
    simp only [ops, st4, st9, st14, List.append_assoc, List.mem_append] at h
    rcases h with h | h | h | h | h | h | h | h | h | h | h | h | h | h | h | h | h
    exacts [List.forall_iff_forall_mem.mp st1_fresh op h, List.forall_iff_forall_mem.mp st2_fresh op h, List.forall_iff_forall_mem.mp st3_fresh op h, List.forall_iff_forall_mem.mp st4a_fresh op h, List.forall_iff_forall_mem.mp st4b_fresh op h, List.forall_iff_forall_mem.mp st5_fresh op h, List.forall_iff_forall_mem.mp st6_fresh op h, List.forall_iff_forall_mem.mp st7_fresh op h, List.forall_iff_forall_mem.mp st8_fresh op h, List.forall_iff_forall_mem.mp st9a_fresh op h, List.forall_iff_forall_mem.mp st9b_fresh op h, List.forall_iff_forall_mem.mp st10_fresh op h, List.forall_iff_forall_mem.mp st11_fresh op h, List.forall_iff_forall_mem.mp st12_fresh op h, List.forall_iff_forall_mem.mp st13_fresh op h, List.forall_iff_forall_mem.mp st14a_fresh op h, List.forall_iff_forall_mem.mp st14b_fresh op h]

set_option maxHeartbeats 1000000 in
/-- No stretch writes argument 0: it holds at the end what it held at the start. -/
theorem val14_main_arg0 (V : Valuation τ sig (Elt F)) : val14 V (Proc.devRef .tc main_arg0) = V (Proc.devRef .tc main_arg0) :=
  val14_keep0 V main_arg0 (by decide) (by decide) (by decide) (by decide) (by decide) (by decide) (by decide) (by decide) (by decide) (by decide) (by decide) (by decide) (by decide) (by decide)

set_option maxHeartbeats 1000000 in
/-- No stretch writes argument 1: it holds at the end what it held at the start. -/
theorem val14_main_arg1 (V : Valuation τ sig (Elt F)) : val14 V (Proc.devRef .tc main_arg1) = V (Proc.devRef .tc main_arg1) :=
  val14_keep0 V main_arg1 (by decide) (by decide) (by decide) (by decide) (by decide) (by decide) (by decide) (by decide) (by decide) (by decide) (by decide) (by decide) (by decide) (by decide)

set_option maxHeartbeats 1000000 in
/-- No stretch writes argument 2: it holds at the end what it held at the start. -/
theorem val14_main_arg2 (V : Valuation τ sig (Elt F)) : val14 V (Proc.devRef .tc main_arg2) = V (Proc.devRef .tc main_arg2) :=
  val14_keep0 V main_arg2 (by decide) (by decide) (by decide) (by decide) (by decide) (by decide) (by decide) (by decide) (by decide) (by decide) (by decide) (by decide) (by decide) (by decide)

set_option maxHeartbeats 1000000 in
/-- No stretch writes argument 3: it holds at the end what it held at the start. -/
theorem val14_main_arg3 (V : Valuation τ sig (Elt F)) : val14 V (Proc.devRef .tc main_arg3) = V (Proc.devRef .tc main_arg3) :=
  val14_keep0 V main_arg3 (by decide) (by decide) (by decide) (by decide) (by decide) (by decide) (by decide) (by decide) (by decide) (by decide) (by decide) (by decide) (by decide) (by decide)

set_option maxHeartbeats 1000000 in
/-- No stretch writes argument 4: it holds at the end what it held at the start. -/
theorem val14_main_arg4 (V : Valuation τ sig (Elt F)) : val14 V (Proc.devRef .tc main_arg4) = V (Proc.devRef .tc main_arg4) :=
  val14_keep0 V main_arg4 (by decide) (by decide) (by decide) (by decide) (by decide) (by decide) (by decide) (by decide) (by decide) (by decide) (by decide) (by decide) (by decide) (by decide)

set_option maxHeartbeats 1000000 in
/-- No stretch writes argument 5: it holds at the end what it held at the start. -/
theorem val14_main_arg5 (V : Valuation τ sig (Elt F)) : val14 V (Proc.devRef .tc main_arg5) = V (Proc.devRef .tc main_arg5) :=
  val14_keep0 V main_arg5 (by decide) (by decide) (by decide) (by decide) (by decide) (by decide) (by decide) (by decide) (by decide) (by decide) (by decide) (by decide) (by decide) (by decide)

set_option maxHeartbeats 1000000 in
/-- No stretch writes argument 6: it holds at the end what it held at the start. -/
theorem val14_main_arg6 (V : Valuation τ sig (Elt F)) : val14 V (Proc.devRef .tc main_arg6) = V (Proc.devRef .tc main_arg6) :=
  val14_keep0 V main_arg6 (by decide) (by decide) (by decide) (by decide) (by decide) (by decide) (by decide) (by decide) (by decide) (by decide) (by decide) (by decide) (by decide) (by decide)

set_option maxHeartbeats 1000000 in
/-- No stretch writes argument 7: it holds at the end what it held at the start. -/
theorem val14_main_arg7 (V : Valuation τ sig (Elt F)) : val14 V (Proc.devRef .tc main_arg7) = V (Proc.devRef .tc main_arg7) :=
  val14_keep0 V main_arg7 (by decide) (by decide) (by decide) (by decide) (by decide) (by decide) (by decide) (by decide) (by decide) (by decide) (by decide) (by decide) (by decide) (by decide)

set_option maxHeartbeats 1000000 in
/-- No stretch writes argument 8: it holds at the end what it held at the start. -/
theorem val14_main_arg8 (V : Valuation τ sig (Elt F)) : val14 V (Proc.devRef .tc main_arg8) = V (Proc.devRef .tc main_arg8) :=
  val14_keep0 V main_arg8 (by decide) (by decide) (by decide) (by decide) (by decide) (by decide) (by decide) (by decide) (by decide) (by decide) (by decide) (by decide) (by decide) (by decide)

set_option maxHeartbeats 1000000 in
/-- No stretch writes argument 9: it holds at the end what it held at the start. -/
theorem val14_main_arg9 (V : Valuation τ sig (Elt F)) : val14 V (Proc.devRef .tc main_arg9) = V (Proc.devRef .tc main_arg9) :=
  val14_keep0 V main_arg9 (by decide) (by decide) (by decide) (by decide) (by decide) (by decide) (by decide) (by decide) (by decide) (by decide) (by decide) (by decide) (by decide) (by decide)

set_option maxHeartbeats 1000000 in
/-- No stretch writes argument 10: it holds at the end what it held at the start. -/
theorem val14_main_arg10 (V : Valuation τ sig (Elt F)) : val14 V (Proc.devRef .tc main_arg10) = V (Proc.devRef .tc main_arg10) :=
  val14_keep0 V main_arg10 (by decide) (by decide) (by decide) (by decide) (by decide) (by decide) (by decide) (by decide) (by decide) (by decide) (by decide) (by decide) (by decide) (by decide)

set_option maxHeartbeats 1000000 in
/-- No stretch writes argument 11: it holds at the end what it held at the start. -/
theorem val14_main_arg11 (V : Valuation τ sig (Elt F)) : val14 V (Proc.devRef .tc main_arg11) = V (Proc.devRef .tc main_arg11) :=
  val14_keep0 V main_arg11 (by decide) (by decide) (by decide) (by decide) (by decide) (by decide) (by decide) (by decide) (by decide) (by decide) (by decide) (by decide) (by decide) (by decide)

set_option maxHeartbeats 1000000 in
/-- No stretch writes argument 12: it holds at the end what it held at the start. -/
theorem val14_main_arg12 (V : Valuation τ sig (Elt F)) : val14 V (Proc.devRef .tc main_arg12) = V (Proc.devRef .tc main_arg12) :=
  val14_keep0 V main_arg12 (by decide) (by decide) (by decide) (by decide) (by decide) (by decide) (by decide) (by decide) (by decide) (by decide) (by decide) (by decide) (by decide) (by decide)

set_option maxHeartbeats 1000000 in
/-- No stretch writes argument 13: it holds at the end what it held at the start. -/
theorem val14_main_arg13 (V : Valuation τ sig (Elt F)) : val14 V (Proc.devRef .tc main_arg13) = V (Proc.devRef .tc main_arg13) :=
  val14_keep0 V main_arg13 (by decide) (by decide) (by decide) (by decide) (by decide) (by decide) (by decide) (by decide) (by decide) (by decide) (by decide) (by decide) (by decide) (by decide)

set_option maxHeartbeats 1000000 in
/-- No stretch writes argument 14: it holds at the end what it held at the start. -/
theorem val14_main_arg14 (V : Valuation τ sig (Elt F)) : val14 V (Proc.devRef .tc main_arg14) = V (Proc.devRef .tc main_arg14) :=
  val14_keep0 V main_arg14 (by decide) (by decide) (by decide) (by decide) (by decide) (by decide) (by decide) (by decide) (by decide) (by decide) (by decide) (by decide) (by decide) (by decide)

set_option maxHeartbeats 1000000 in
/-- No stretch writes argument 15: it holds at the end what it held at the start. -/
theorem val14_main_arg15 (V : Valuation τ sig (Elt F)) : val14 V (Proc.devRef .tc main_arg15) = V (Proc.devRef .tc main_arg15) :=
  val14_keep0 V main_arg15 (by decide) (by decide) (by decide) (by decide) (by decide) (by decide) (by decide) (by decide) (by decide) (by decide) (by decide) (by decide) (by decide) (by decide)

set_option maxHeartbeats 1000000 in
/-- No stretch writes argument 16: it holds at the end what it held at the start. -/
theorem val14_main_arg16 (V : Valuation τ sig (Elt F)) : val14 V (Proc.devRef .tc main_arg16) = V (Proc.devRef .tc main_arg16) :=
  val14_keep0 V main_arg16 (by decide) (by decide) (by decide) (by decide) (by decide) (by decide) (by decide) (by decide) (by decide) (by decide) (by decide) (by decide) (by decide) (by decide)

set_option maxHeartbeats 1000000 in
/-- No stretch writes argument 17: it holds at the end what it held at the start. -/
theorem val14_main_arg17 (V : Valuation τ sig (Elt F)) : val14 V (Proc.devRef .tc main_arg17) = V (Proc.devRef .tc main_arg17) :=
  val14_keep0 V main_arg17 (by decide) (by decide) (by decide) (by decide) (by decide) (by decide) (by decide) (by decide) (by decide) (by decide) (by decide) (by decide) (by decide) (by decide)

set_option maxHeartbeats 1000000 in
/-- No stretch writes argument 18: it holds at the end what it held at the start. -/
theorem val14_main_arg18 (V : Valuation τ sig (Elt F)) : val14 V (Proc.devRef .tc main_arg18) = V (Proc.devRef .tc main_arg18) :=
  val14_keep0 V main_arg18 (by decide) (by decide) (by decide) (by decide) (by decide) (by decide) (by decide) (by decide) (by decide) (by decide) (by decide) (by decide) (by decide) (by decide)

set_option maxHeartbeats 1000000 in
/-- No stretch writes argument 19: it holds at the end what it held at the start. -/
theorem val14_main_arg19 (V : Valuation τ sig (Elt F)) : val14 V (Proc.devRef .tc main_arg19) = V (Proc.devRef .tc main_arg19) :=
  val14_keep0 V main_arg19 (by decide) (by decide) (by decide) (by decide) (by decide) (by decide) (by decide) (by decide) (by decide) (by decide) (by decide) (by decide) (by decide) (by decide)

set_option maxHeartbeats 1000000 in
/-- No stretch writes argument 20: it holds at the end what it held at the start. -/
theorem val14_main_arg20 (V : Valuation τ sig (Elt F)) : val14 V (Proc.devRef .tc main_arg20) = V (Proc.devRef .tc main_arg20) :=
  val14_keep0 V main_arg20 (by decide) (by decide) (by decide) (by decide) (by decide) (by decide) (by decide) (by decide) (by decide) (by decide) (by decide) (by decide) (by decide) (by decide)

set_option maxHeartbeats 1000000 in
/-- No stretch writes argument 21: it holds at the end what it held at the start. -/
theorem val14_main_arg21 (V : Valuation τ sig (Elt F)) : val14 V (Proc.devRef .tc main_arg21) = V (Proc.devRef .tc main_arg21) :=
  val14_keep0 V main_arg21 (by decide) (by decide) (by decide) (by decide) (by decide) (by decide) (by decide) (by decide) (by decide) (by decide) (by decide) (by decide) (by decide) (by decide)

set_option maxHeartbeats 1000000 in
/-- No stretch writes argument 22: it holds at the end what it held at the start. -/
theorem val14_main_arg22 (V : Valuation τ sig (Elt F)) : val14 V (Proc.devRef .tc main_arg22) = V (Proc.devRef .tc main_arg22) :=
  val14_keep0 V main_arg22 (by decide) (by decide) (by decide) (by decide) (by decide) (by decide) (by decide) (by decide) (by decide) (by decide) (by decide) (by decide) (by decide) (by decide)

set_option maxHeartbeats 1000000 in
/-- No stretch writes argument 23: it holds at the end what it held at the start. -/
theorem val14_main_arg23 (V : Valuation τ sig (Elt F)) : val14 V (Proc.devRef .tc main_arg23) = V (Proc.devRef .tc main_arg23) :=
  val14_keep0 V main_arg23 (by decide) (by decide) (by decide) (by decide) (by decide) (by decide) (by decide) (by decide) (by decide) (by decide) (by decide) (by decide) (by decide) (by decide)

set_option maxHeartbeats 4000000 in
/-- On every device, for any float values, from any memory with zero counters: every weakly fair execution of
    @main terminates with the result buffer at `RDefs.out` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v166) = RDefs.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c main_v166).trans (by simp only [after_ops]; exact val14_main_v166 (launchContents m c)),
      (h c main_arg0).trans (by simp only [after_ops]; exact val14_main_arg0 (launchContents m c)),
      (h c main_arg1).trans (by simp only [after_ops]; exact val14_main_arg1 (launchContents m c)),
      (h c main_arg2).trans (by simp only [after_ops]; exact val14_main_arg2 (launchContents m c)),
      (h c main_arg3).trans (by simp only [after_ops]; exact val14_main_arg3 (launchContents m c)),
      (h c main_arg4).trans (by simp only [after_ops]; exact val14_main_arg4 (launchContents m c)),
      (h c main_arg5).trans (by simp only [after_ops]; exact val14_main_arg5 (launchContents m c)),
      (h c main_arg6).trans (by simp only [after_ops]; exact val14_main_arg6 (launchContents m c)),
      (h c main_arg7).trans (by simp only [after_ops]; exact val14_main_arg7 (launchContents m c)),
      (h c main_arg8).trans (by simp only [after_ops]; exact val14_main_arg8 (launchContents m c)),
      (h c main_arg9).trans (by simp only [after_ops]; exact val14_main_arg9 (launchContents m c)),
      (h c main_arg10).trans (by simp only [after_ops]; exact val14_main_arg10 (launchContents m c)),
      (h c main_arg11).trans (by simp only [after_ops]; exact val14_main_arg11 (launchContents m c)),
      (h c main_arg12).trans (by simp only [after_ops]; exact val14_main_arg12 (launchContents m c)),
      (h c main_arg13).trans (by simp only [after_ops]; exact val14_main_arg13 (launchContents m c)),
      (h c main_arg14).trans (by simp only [after_ops]; exact val14_main_arg14 (launchContents m c)),
      (h c main_arg15).trans (by simp only [after_ops]; exact val14_main_arg15 (launchContents m c)),
      (h c main_arg16).trans (by simp only [after_ops]; exact val14_main_arg16 (launchContents m c)),
      (h c main_arg17).trans (by simp only [after_ops]; exact val14_main_arg17 (launchContents m c)),
      (h c main_arg18).trans (by simp only [after_ops]; exact val14_main_arg18 (launchContents m c)),
      (h c main_arg19).trans (by simp only [after_ops]; exact val14_main_arg19 (launchContents m c)),
      (h c main_arg20).trans (by simp only [after_ops]; exact val14_main_arg20 (launchContents m c)),
      (h c main_arg21).trans (by simp only [after_ops]; exact val14_main_arg21 (launchContents m c)),
      (h c main_arg22).trans (by simp only [after_ops]; exact val14_main_arg22 (launchContents m c)),
      (h c main_arg23).trans (by simp only [after_ops]; exact val14_main_arg23 (launchContents m c))⟩)
    (run_seq scopedRefs_eq scopedSems_eq defs main (fun _ => ops) main_eq (fun _ => ops_sub) m ρ (fun _ => ops_fresh))

end Cert.ReferenceIdeal.RefRun

end
-- ==== Proof.Stages.lean ====
/-
  The stages of the dense network, each in the two spellings the two programs print, and the proof that at the
  ideal instance the spellings are one function.

  A batch normalisation of a [32, C] matrix x with scale g and shift b: with mean_c = (Σ_r x_rc) / 32 and
  var_c = (Σ_r (x_rc − mean_c)²) / 32, the entry (r, c) is (x_rc − mean_c) · rsqrt(var_c + ε) · g_c + b_c.
  One spelling sums by a lane reduction, keeps the column statistics as one-row matrices and lays them along the
  rows by a shape cast and a broadcast; the other sums by the host's reduction from a zero initial value, keeps the
  statistics as vectors, divides the centred squares' sum by 32 − 0 behind a guard 32 − 0 > 0, and lays a vector
  along the rows by two broadcasts in dimensions.  A layer: entry (r, o) is max(Σ_k x_rk · W_ok + bias_o, 0); one
  spelling contracts both operands on their last axis into a zero accumulator, the other transposes W first.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Cert.Stages

open Idealize.ShloMosaic Idealize.ShloMosaic.ValueIdx
open scoped BigOperators

/-- The rank-0 shape of a scalar constant. -/
abbrev Sc : Shape := ⟨0, ![]⟩

section Defs
variable {F : FTy → Type} [FloatOps F]
variable {S S1 T : Shape}

/-! ## The lane-reduction spelling -/

/-- Column sums as a one-row matrix. -/
def kcolsum (a : Fin S.rank) (hred : S.Reduces [a] T) (hsc : T.ShapeCasts S1) (x : FVec F S .f32) : FVec F S1 .f32 :=
  shapeCast S1 (multiReduction .add [a] T x 0x00000000#32 hred (.inl rfl) rfl) hsc

/-- A one-row matrix divided by 32. -/
def kdiv32 (s : FVec F S1 .f32) : FVec F S1 .f32 :=
  divf s (broadcast S1 (Scalar.ofBits .f32 0x42000000#32))

/-- The matrix minus a one-row matrix laid along its rows. -/
def kcen (hbc : S1.Broadcasts S) (x : FVec F S .f32) (mean : FVec F S1 .f32) : FVec F S .f32 :=
  subf x (broadcastTo S mean hbc)

/-- The column variances, from the column means. -/
def kvar (a : Fin S.rank) (hred : S.Reduces [a] T) (hsc : T.ShapeCasts S1) (hbc : S1.Broadcasts S)
    (x : FVec F S .f32) (mean : FVec F S1 .f32) : FVec F S1 .f32 :=
  kdiv32 (kcolsum a hred hsc (mulf (kcen hbc x mean) (kcen hbc x mean)))

/-- The normalised, scaled matrix, from the column means and variances (no shift yet). -/
def kscale (hsc : T.ShapeCasts S1) (hbc : S1.Broadcasts S) (x : FVec F S .f32) (mean var : FVec F S1 .f32)
    (g : FVec F T .f32) : FVec F S .f32 :=
  mulf (mulf (kcen hbc x mean)
      (broadcastTo S (rsqrt (addf var (broadcast S1 (Scalar.ofBits .f32 0x3727C5AC#32)))) hbc))
    (broadcastTo S (shapeCast S1 g hsc) hbc)

/-- A vector laid along the rows and added. -/
def kshift (hsc : T.ShapeCasts S1) (hbc : S1.Broadcasts S) (y : FVec F S .f32) (b : FVec F T .f32) : FVec F S .f32 :=
  addf y (broadcastTo S (shapeCast S1 b hsc) hbc)

/-- The batch normalisation. -/
def kbn (a : Fin S.rank) (hred : S.Reduces [a] T) (hsc : T.ShapeCasts S1) (hbc : S1.Broadcasts S)
    (x : FVec F S .f32) (g b : FVec F T .f32) : FVec F S .f32 :=
  kshift hsc hbc (kscale hsc hbc x (kdiv32 (kcolsum a hred hsc x))
    (kvar a hred hsc hbc x (kdiv32 (kcolsum a hred hsc x))) g) b

/-- A layer: the product contracted on both operands' last axes into a zero accumulator, the bias, the clamp at 0. -/
def klayer {Sx Sw So So1 Tb : Shape} (d : DotDims Sx Sw So) (hlt : FTy.bf16.bits < FTy.f32.bits)
    (hsc : Tb.ShapeCasts So1) (hbc : So1.Broadcasts So)
    (x : FVec F Sx .f32) (W : FVec F Sw .f32) (bias : FVec F Tb .f32) : FVec F So .f32 :=
  maximumf (kshift hsc hbc (matmul d none (truncf .bf16 x hlt) (truncf .bf16 W hlt) (constant So .f32 0x00000000#32)) bias)
    (broadcast So (Scalar.ofBits .f32 0x00000000#32))

/-! ## The host spelling -/

variable (d1 : Fin T.rank → Fin S1.rank) (d2 : Fin S1.rank → Fin S.rank)

/-- A vector laid along the rows: two broadcasts in dimensions. -/
def rrows (hb1 : T.BroadcastsInDim S1 d1) (hb2 : S1.BroadcastsInDim S d2) (v : FVec F T .f32) : FVec F S .f32 :=
  broadcastInDim S d2 hb2 (broadcastInDim S1 d1 hb1 v)

/-- Column sums from a zero initial value. -/
def rcolsum {a : Fin S.rank} (hr : S.ReducesTo [a] T) (hS : 0 < Sc.numel) (x : FVec F S .f32) : FVec F T .f32 :=
  Host.reduceAdd x (constant Sc .f32 0x00000000#32) hr hS

/-- The column means, as a vector. -/
def rmean {a : Fin S.rank} (hr : S.ReducesTo [a] T) (hS : 0 < Sc.numel) (hb0 : Sc.BroadcastsInDim T ![])
    (x : FVec F S .f32) : FVec F T .f32 :=
  Host.divf (rcolsum hr hS x) (broadcastInDim T ![] hb0 (constant Sc .f32 0x42000000#32))

/-- 32 minus the degrees-of-freedom correction 0, as a scalar. -/
def rcount : FVec F Sc .f32 :=
  subf (constant Sc .f32 0x42000000#32) (sitofp .f32 (constantI Sc 32 0#32))

/-- The column variances: the mean recomputed as a one-row matrix, the centred squares summed, divided by 32 − 0
    where 32 − 0 > 0 (else the quiet not-a-number word). -/
def rvar {a : Fin S.rank} (hr : S.ReducesTo [a] T) (hS : 0 < Sc.numel) (hb0 : Sc.BroadcastsInDim T ![])
    (hb01 : Sc.BroadcastsInDim S1 ![]) (hb1 : T.BroadcastsInDim S1 d1) (hb2 : S1.BroadcastsInDim S d2)
    (x : FVec F S .f32) : FVec F T .f32 :=
  select (broadcastInDim T ![] hb0 (cmpf .ogt (rcount (F := F)) (constant Sc .f32 0x00000000#32)))
    (Host.divf
      (rcolsum hr hS
        (mulf
          (subf x (broadcastInDim S d2 hb2 (Host.divf (broadcastInDim S1 d1 hb1 (rcolsum hr hS x))
            (broadcastInDim S1 ![] hb01 (constant Sc .f32 0x42000000#32)))))
          (subf x (broadcastInDim S d2 hb2 (Host.divf (broadcastInDim S1 d1 hb1 (rcolsum hr hS x))
            (broadcastInDim S1 ![] hb01 (constant Sc .f32 0x42000000#32)))))))
      (broadcastInDim T ![] hb0 (rcount (F := F))))
    (broadcastInDim T ![] hb0 (id (constant Sc .f32 0x7FC00000#32)))

/-- The batch normalisation. -/
def rbn {a : Fin S.rank} (hr : S.ReducesTo [a] T) (hS : 0 < Sc.numel) (hb0 : Sc.BroadcastsInDim T ![])
    (hb01 : Sc.BroadcastsInDim S1 ![]) (hb1 : T.BroadcastsInDim S1 d1) (hb2 : S1.BroadcastsInDim S d2)
    (x : FVec F S .f32) (g b : FVec F T .f32) : FVec F S .f32 :=
  addf
    (mulf
      (mulf (subf x (rrows d1 d2 hb1 hb2 (rmean hr hS hb0 x)))
        (rrows d1 d2 hb1 hb2
          (Host.rsqrt (addf (rvar d1 d2 hr hS hb0 hb01 hb1 hb2 x) (broadcastInDim T ![] hb0 (constant Sc .f32 0x3727C5AC#32))))))
      (rrows d1 d2 hb1 hb2 g))
    (rrows d1 d2 hb1 hb2 b)

/-- A layer: the transposed weights, the host's product, the bias, the clamp at 0. -/
def rlayer {Sx Sw Swt So So1 Tb : Shape} (d' : DotDims Sx Swt So) (perm : List (Fin Sw.rank)) (ht : Sw.Transposes perm Swt)
    (e1 : Fin Tb.rank → Fin So1.rank) (e2 : Fin So1.rank → Fin So.rank)
    (hb1 : Tb.BroadcastsInDim So1 e1) (hb2 : So1.BroadcastsInDim So e2) (hb0 : Sc.BroadcastsInDim So ![])
    (x : FVec F Sx .f32) (W : FVec F Sw .f32) (bias : FVec F Tb .f32) : FVec F So .f32 :=
  maximumf (addf (Host.dotGeneral d' none x (transpose Swt perm W ht)) (rrows e1 e2 hb1 hb2 bias))
    (broadcastInDim So ![] hb0 (constant Sc .f32 0x00000000#32))

end Defs

/-! ## At the ideal instance the two spellings are one function -/

section AtIdeal

open Idealize.ShloMosaic.Ideal

/-- The word of 32.0 denotes the real 32. -/
theorem ofBits_32 : Ideal.ofBits .f32 0x42000000#32 = ((32 : ℝ) : EReal) := by
  simp [Ideal.ofBits, Ideal.ieee, -EReal.coe_mul]; norm_num

/-- 32 − 0 is the real 32. -/
theorem rcount_val : rcount (F := Ideal) ix0 = ((32 : ℝ) : EReal) := by
  show Ideal.ofBits .f32 0x42000000#32 - (Scalar.sitofp .f32 (0#32) : Ideal .f32) = _
  rw [sitofp_zero, sub_zero, ofBits_32]

/-- 32 − 0 > 0. -/
theorem guard_val : cmpf (F := Ideal) .ogt (rcount (F := Ideal)) (constant Sc .f32 0x00000000#32) ix0 = 1#1 := by
  show Ideal.cmp .ogt (rcount (F := Ideal) ix0) (Ideal.ofBits .f32 0x00000000#32) = 1#1
  rw [rcount_val, Ideal.ofBits_zero_f32]
  simp [Ideal.cmp]

variable {R C : ℕ}

/-- A vector cast to one row and broadcast down the rows, read at (r, c), is the vector at c. -/
theorem krows_apply {α : Type} (hsc : (⟨1, ![C]⟩ : Shape).ShapeCasts ⟨2, ![1, C]⟩)
    (hbc : (⟨2, ![1, C]⟩ : Shape).Broadcasts ⟨2, ![R, C]⟩) (v : (⟨1, ![C]⟩ : Shape).Idx → α) (r : Fin R) (c : Fin C) :
    broadcastTo ⟨2, ![R, C]⟩ (shapeCast ⟨2, ![1, C]⟩ v hsc) hbc (ix2 r c) = v (ix1 c) := by
  rw [broadcastTo_1b_ab_apply, shapeCast_a_1a_apply]

/-- A vector broadcast in dimension 1 to one row, read at (u, c), is the vector at c. -/
theorem row1_apply {α : Type} (hb1 : (⟨1, ![C]⟩ : Shape).BroadcastsInDim ⟨2, ![1, C]⟩ ![1])
    (v : (⟨1, ![C]⟩ : Shape).Idx → α) (u : Fin 1) (c : Fin C) :
    broadcastInDim ⟨2, ![1, C]⟩ ![1] hb1 v (ix2 u c) = v (ix1 c) := by
  refine broadcastInDim_apply ![1] hb1 v (ix2 u c) (ix1 c) fun a => ?_
  match a with
  | ⟨0, _⟩ =>
    show c.val = if C = 1 then 0 else c.val
    split
    · have := c.isLt; omega
    · rfl

/-- A vector laid along the rows by two broadcasts in dimensions, read at (r, c), is the vector at c. -/
theorem rrows_apply (hb1 : (⟨1, ![C]⟩ : Shape).BroadcastsInDim ⟨2, ![1, C]⟩ ![1])
    (hb2 : (⟨2, ![1, C]⟩ : Shape).BroadcastsInDim ⟨2, ![R, C]⟩ ![0, 1]) (v : FVec Ideal ⟨1, ![C]⟩ .f32) (r : Fin R) (c : Fin C) :
    rrows (S := ⟨2, ![R, C]⟩) ![1] ![0, 1] hb1 hb2 v (ix2 r c) = v (ix1 c) := by
  unfold rrows
  rw [broadcastInDim_oneRow_apply, row1_apply]

end AtIdeal

section AtIdeal2

open Idealize.ShloMosaic.Ideal

variable {R C : ℕ}

/-- The lane reduction over axis 0 of a matrix, read at column c as a one-row matrix: the column's sum. -/
theorem kcolsum_apply (hred : (⟨2, ![R, C]⟩ : Shape).Reduces [0] ⟨1, ![C]⟩)
    (hsc : (⟨1, ![C]⟩ : Shape).ShapeCasts ⟨2, ![1, C]⟩) (x : FVec Ideal ⟨2, ![R, C]⟩ .f32) (u : Fin 1) (c : Fin C) :
    kcolsum (S1 := ⟨2, ![1, C]⟩) 0 hred hsc x (ix2 u c) = ∑ i : Fin R, x (ix2 i c) := by
  unfold kcolsum
  rw [shapeCast_a_1a_apply]
  refine (Ideal.multiReduction_add_single x 0x00000000#32 hred (.inl rfl) rfl (ix1 c)).trans ?_
  refine Finset.sum_congr rfl fun i _ => congrArg x ?_
  funext a
  match a with
  | ⟨0, _⟩ => rfl
  | ⟨1, _⟩ => rfl

/-- The host's reduction over axis 0 from a zero initial value, read at column c: the column's sum. -/
theorem rcolsum_apply (hr : (⟨2, ![R, C]⟩ : Shape).ReducesTo [0] ⟨1, ![C]⟩) (hred : (⟨2, ![R, C]⟩ : Shape).Reduces [0] ⟨1, ![C]⟩)
    (hS : 0 < Sc.numel) (x : FVec Ideal ⟨2, ![R, C]⟩ .f32) (c : Fin C) :
    rcolsum hr hS x (ix1 c) = ∑ i : Fin R, x (ix2 i c) := by
  unfold rcolsum
  rw [hostReduceAdd_apply, Ideal.hostReduceAdd_single hr hred]
  show Ideal.ofBits .f32 0x00000000#32 + _ = _
  rw [Ideal.ofBits_zero_f32, zero_add]
  refine Finset.sum_congr rfl fun i _ => congrArg x ?_
  funext a
  match a with
  | ⟨0, _⟩ => rfl
  | ⟨1, _⟩ => rfl

end AtIdeal2

section BatchNorm

open Idealize.ShloMosaic.Ideal

variable {R C : ℕ}

/-- 32 − 0 is what the word of 32.0 denotes. -/
theorem rcount_ofBits : rcount (F := Ideal) ix0 = Ideal.ofBits .f32 0x42000000#32 :=
  rcount_val.trans ofBits_32.symm

/-- The reciprocal square root of a vector, read at an index. -/
theorem vrsqrt_apply {s : Shape} {φ : FTy} (v : FVec Ideal s φ) (i : s.Idx) :
    Idealize.ShloMosaic.rsqrt v i = Ideal.rsqrt (v i) := rfl

/-- The host's reciprocal square root of a vector, read at an index. -/
theorem hrsqrt_apply {s : Shape} {φ : FTy} (v : FVec Ideal s φ) (i : s.Idx) :
    Host.rsqrt v i = Ideal.rsqrt (v i) := rfl

/-- Column c's mean. -/
def meanS (x : FVec Ideal ⟨2, ![R, C]⟩ .f32) (c : Fin C) : EReal :=
  Ideal.div (∑ i : Fin R, x (ix2 i c)) (Ideal.ofBits .f32 0x42000000#32)

/-- Column c's variance. -/
def varS (x : FVec Ideal ⟨2, ![R, C]⟩ .f32) (c : Fin C) : EReal :=
  Ideal.div (∑ i : Fin R, (x (ix2 i c) - meanS x c) * (x (ix2 i c) - meanS x c)) (Ideal.ofBits .f32 0x42000000#32)

/-- The batch normalisation at (r, c). -/
def bnS (x : FVec Ideal ⟨2, ![R, C]⟩ .f32) (g b : FVec Ideal ⟨1, ![C]⟩ .f32) (r : Fin R) (c : Fin C) : EReal :=
  (x (ix2 r c) - meanS x c) * Ideal.rsqrt (varS x c + Ideal.ofBits .f32 0x3727C5AC#32) * g (ix1 c) + b (ix1 c)

theorem kbn_apply (hred : (⟨2, ![R, C]⟩ : Shape).Reduces [0] ⟨1, ![C]⟩)
    (hsc : (⟨1, ![C]⟩ : Shape).ShapeCasts ⟨2, ![1, C]⟩) (hbc : (⟨2, ![1, C]⟩ : Shape).Broadcasts ⟨2, ![R, C]⟩)
    (x : FVec Ideal ⟨2, ![R, C]⟩ .f32) (g b : FVec Ideal ⟨1, ![C]⟩ .f32) (r : Fin R) (c : Fin C) :
    kbn (S1 := ⟨2, ![1, C]⟩) 0 hred hsc hbc x g b (ix2 r c) = bnS x g b r c := by
  unfold kbn kshift kscale kvar kdiv32 kcen bnS varS meanS
  simp only [addf_apply, mulf_apply, subf_apply, divf_apply, krows_apply, broadcastTo_1b_ab_apply, broadcast_apply,
    kcolsum_apply, shapeCast_a_1a_apply, vrsqrt_apply]
  rfl

theorem rbn_apply (hr : (⟨2, ![R, C]⟩ : Shape).ReducesTo [0] ⟨1, ![C]⟩) (hred : (⟨2, ![R, C]⟩ : Shape).Reduces [0] ⟨1, ![C]⟩)
    (hS : 0 < Sc.numel) (hb0 : Sc.BroadcastsInDim ⟨1, ![C]⟩ ![]) (hb01 : Sc.BroadcastsInDim ⟨2, ![1, C]⟩ ![])
    (hb1 : (⟨1, ![C]⟩ : Shape).BroadcastsInDim ⟨2, ![1, C]⟩ ![1])
    (hb2 : (⟨2, ![1, C]⟩ : Shape).BroadcastsInDim ⟨2, ![R, C]⟩ ![0, 1])
    (x : FVec Ideal ⟨2, ![R, C]⟩ .f32) (g b : FVec Ideal ⟨1, ![C]⟩ .f32) (r : Fin R) (c : Fin C) :
    rbn (S := ⟨2, ![R, C]⟩) ![1] ![0, 1] hr hS hb0 hb01 hb1 hb2 x g b (ix2 r c) = bnS x g b r c := by
  unfold rbn rvar rmean bnS varS meanS
  simp only [addf_apply, mulf_apply, subf_apply, hostDivf_apply, rrows_apply hb1 hb2, broadcastInDim_oneRow_apply hb2,
    row1_apply hb1, broadcastInDim_scalar_apply hb0, broadcastInDim_scalar_apply hb01, select_apply,
    rcolsum_apply hr hred hS, guard_val, select_one, rcount_ofBits, constant_apply, hrsqrt_apply]

/-- At the ideal instance the two spellings of the batch normalisation are one function. -/
theorem kbn_eq_rbn (hred : (⟨2, ![R, C]⟩ : Shape).Reduces [0] ⟨1, ![C]⟩)
    (hsc : (⟨1, ![C]⟩ : Shape).ShapeCasts ⟨2, ![1, C]⟩) (hbc : (⟨2, ![1, C]⟩ : Shape).Broadcasts ⟨2, ![R, C]⟩)
    (hr : (⟨2, ![R, C]⟩ : Shape).ReducesTo [0] ⟨1, ![C]⟩)
    (hS : 0 < Sc.numel) (hb0 : Sc.BroadcastsInDim ⟨1, ![C]⟩ ![]) (hb01 : Sc.BroadcastsInDim ⟨2, ![1, C]⟩ ![])
    (hb1 : (⟨1, ![C]⟩ : Shape).BroadcastsInDim ⟨2, ![1, C]⟩ ![1])
    (hb2 : (⟨2, ![1, C]⟩ : Shape).BroadcastsInDim ⟨2, ![R, C]⟩ ![0, 1])
    (x : FVec Ideal ⟨2, ![R, C]⟩ .f32) (g b : FVec Ideal ⟨1, ![C]⟩ .f32) :
    kbn (S1 := ⟨2, ![1, C]⟩) 0 hred hsc hbc x g b = rbn (S := ⟨2, ![R, C]⟩) ![1] ![0, 1] hr hS hb0 hb01 hb1 hb2 x g b := by
  funext i
  obtain ⟨r, c, rfl⟩ : ∃ (r : Fin R) (c : Fin C), i = ix2 r c := ⟨i 0, i 1, eq_ix2 i⟩
  rw [kbn_apply, rbn_apply hr hred]

end BatchNorm

section Layer

open Idealize.ShloMosaic.Ideal

variable {M K N : ℕ}

/-- The product contracted on both last axes into a zero accumulator is the host's product with the second operand
    transposed: at (r, o) both are Σ_k x_rk · W_ok. -/
theorem dot_eq (hlt : FTy.bf16.bits < FTy.f32.bits) (ht : (⟨2, ![N, K]⟩ : Shape).Transposes [1, 0] ⟨2, ![K, N]⟩)
    (x : FVec Ideal ⟨2, ![M, K]⟩ .f32) (W : FVec Ideal ⟨2, ![N, K]⟩ .f32) :
    matmul (DotDims.transposedRhs M K N) none (truncf .bf16 x hlt) (truncf .bf16 W hlt)
        (constant ⟨2, ![M, N]⟩ .f32 0x00000000#32)
      = Host.dotGeneral (DotDims.plain M K N) none x (transpose ⟨2, ![K, N]⟩ [1, 0] W ht) := by
  funext j
  show FloatOps.matmul (DotDims.transposedRhs M K N) none (truncf .bf16 x hlt) (truncf .bf16 W hlt)
      (constant ⟨2, ![M, N]⟩ .f32 0x00000000#32) j
    = FloatOps.dotGeneral (DotDims.plain M K N) none _ x (transpose ⟨2, ![K, N]⟩ [1, 0] W ht) j
  rw [Ideal.matmul_constant_zero_apply, Ideal.dotGeneral_apply]
  refine Finset.sum_congr rfl fun k _ => ?_
  show x ((DotDims.transposedRhs M K N).lhsIdx j k) * W ((DotDims.transposedRhs M K N).rhsIdx j k)
    = x ((DotDims.plain M K N).lhsIdx j k) * transpose ⟨2, ![K, N]⟩ [1, 0] W ht ((DotDims.plain M K N).rhsIdx j k)
  have e1 : (DotDims.transposedRhs M K N).lhsIdx j k = (DotDims.plain M K N).lhsIdx j k := by
    funext a
    match a with
    | ⟨0, _⟩ => rfl
    | ⟨1, _⟩ => rfl
  have e2 : transpose ⟨2, ![K, N]⟩ [1, 0] W ht ((DotDims.plain M K N).rhsIdx j k)
      = W ((DotDims.transposedRhs M K N).rhsIdx j k) :=
    transpose_apply [1, 0] W ht _ _ fun b => match b with
      | ⟨0, _⟩ => rfl
      | ⟨1, _⟩ => rfl
  rw [e1, e2]

/-- At the ideal instance the two spellings of a layer are one function. -/
theorem klayer_eq_rlayer (hlt : FTy.bf16.bits < FTy.f32.bits)
    (hsc : (⟨1, ![N]⟩ : Shape).ShapeCasts ⟨2, ![1, N]⟩) (hbc : (⟨2, ![1, N]⟩ : Shape).Broadcasts ⟨2, ![M, N]⟩)
    (ht : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (hb0 : Sc.BroadcastsInDim ⟨2, ![M, N]⟩ ![])
    (x : FVec Ideal ⟨2, ![M, K]⟩ .f32) (W : FVec Ideal ⟨2, ![N, K]⟩ .f32) (bias : FVec Ideal ⟨1, ![N]⟩ .f32) :
    klayer (So1 := ⟨2, ![1, N]⟩) (DotDims.transposedRhs M K N) hlt hsc hbc x W bias
      = rlayer (So1 := ⟨2, ![1, N]⟩) (DotDims.plain M K N) [1, 0] ht ![1] ![0, 1] hb1 hb2 hb0 x W bias := by
  unfold klayer rlayer kshift
  rw [dot_eq hlt ht]
  funext i
  obtain ⟨r, o, rfl⟩ : ∃ (r : Fin M) (o : Fin N), i = ix2 r o := ⟨i 0, i 1, eq_ix2 i⟩
  simp only [maximumf_apply, addf_apply, krows_apply, rrows_apply hb1 hb2, broadcast_apply,
    broadcastInDim_scalar_apply hb0, constant_apply]
  rfl

end Layer

end Cert.Stages

end
-- ==== Proof.MlpEq.lean ====
/-
  The dense network of the two programs is one function of the feature array and the 22 parameter arrays.

  The kernel's body computes it through ten named values; unfolded, they are the composition
    bn(layer(cat3(x0, h1, h2)))  with  x0 = bn(X),  h1 = bn(layer(bn(layer(x0)))),  h2 = bn(layer(bn(layer(cat2(x0, h1))))),
  each bn and layer in the lane-reduction spelling; the reference is the same composition in the host spelling; the
  spellings agree stage by stage (the concatenations are the same operation in both).
-/
import proofs.«165364_j46282567582129_2_alg».proof.Proof.KDefs
import proofs.«165364_j46282567582129_2_alg».proof.Proof.RDefs
import proofs.«165364_j46282567582129_2_alg».proof.Proof.Stages
import proofs.«165364_j46282567582129_2_alg».proof.Proof.Gen.ReferenceIdeal

noncomputable section

namespace Cert.MlpEq

open Idealize.ShloMosaic Cert.Stages
open Cert.KernelIdeal Cert.KernelIdeal.Gen
open Cert.ReferenceIdeal.RDefs (bn1024 bn256 bn512 layer1024 layer256 layer1280 layer1536 cat2 cat3)

/-! ## The stage bridges at this network's widths -/

theorem bn1024_eq (x : FVec Ideal S32x1024 .f32) (g b : FVec Ideal S1024 .f32) :
    kbn (S1 := S1x1024) 0 reduces_S32x1024_S1024 shapeCasts_S1024_S1x1024 broadcasts_S1x1024_S32x1024 x g b = bn1024 x g b :=
  (kbn_eq_rbn (R := 32) (C := 1024) reduces_S32x1024_S1024 shapeCasts_S1024_S1x1024 broadcasts_S1x1024_S32x1024
    (by decide) (by decide) (by decide) (by decide) (by decide) (by decide) x g b).trans rfl

theorem bn256_eq (x : FVec Ideal S32x256 .f32) (g b : FVec Ideal S256 .f32) :
    kbn (S1 := S1x256) 0 reduces_S32x256_S256 shapeCasts_S256_S1x256 broadcasts_S1x256_S32x256 x g b = bn256 x g b :=
  (kbn_eq_rbn (R := 32) (C := 256) reduces_S32x256_S256 shapeCasts_S256_S1x256 broadcasts_S1x256_S32x256
    (by decide) (by decide) (by decide) (by decide) (by decide) (by decide) x g b).trans rfl

theorem bn512_eq (x : FVec Ideal S32x512 .f32) (g b : FVec Ideal S512 .f32) :
    kbn (S1 := S1x512) 0 reduces_S32x512_S512 shapeCasts_S512_S1x512 broadcasts_S1x512_S32x512 x g b = bn512 x g b :=
  (kbn_eq_rbn (R := 32) (C := 512) reduces_S32x512_S512 shapeCasts_S512_S1x512 broadcasts_S1x512_S32x512
    (by decide) (by decide) (by decide) (by decide) (by decide) (by decide) x g b).trans rfl

theorem layer1024_eq (x : FVec Ideal S32x1024 .f32) (W : FVec Ideal S256x1024 .f32) (b : FVec Ideal S256 .f32) :
    klayer (So1 := S1x256) dot_S32x1024_S256x1024_S32x256_1_1_0_0_n_n bitsLt_bf16_f32 shapeCasts_S256_S1x256 broadcasts_S1x256_S32x256 x W b
      = layer1024 x W b :=
  (show _ = klayer (So1 := S1x256) (DotDims.transposedRhs 32 1024 256) bitsLt_bf16_f32 shapeCasts_S256_S1x256 broadcasts_S1x256_S32x256 x W b
    from rfl).trans ((klayer_eq_rlayer (M := 32) (K := 1024) (N := 256) bitsLt_bf16_f32 shapeCasts_S256_S1x256 broadcasts_S1x256_S32x256
      (by decide) (by decide) (by decide) (by decide) x W b).trans rfl)

theorem layer256_eq (x : FVec Ideal S32x256 .f32) (W : FVec Ideal S256x256 .f32) (b : FVec Ideal S256 .f32) :
    klayer (So1 := S1x256) dot_S32x256_S256x256_S32x256_1_1_0_0_n_n bitsLt_bf16_f32 shapeCasts_S256_S1x256 broadcasts_S1x256_S32x256 x W b
      = layer256 x W b :=
  (show _ = klayer (So1 := S1x256) (DotDims.transposedRhs 32 256 256) bitsLt_bf16_f32 shapeCasts_S256_S1x256 broadcasts_S1x256_S32x256 x W b
    from rfl).trans ((klayer_eq_rlayer (M := 32) (K := 256) (N := 256) bitsLt_bf16_f32 shapeCasts_S256_S1x256 broadcasts_S1x256_S32x256
      (by decide) (by decide) (by decide) (by decide) x W b).trans rfl)

theorem layer1280_eq (x : FVec Ideal S32x1280 .f32) (W : FVec Ideal S256x1280 .f32) (b : FVec Ideal S256 .f32) :
    klayer (So1 := S1x256) dot_S32x1280_S256x1280_S32x256_1_1_0_0_n_n bitsLt_bf16_f32 shapeCasts_S256_S1x256 broadcasts_S1x256_S32x256 x W b
      = layer1280 x W b :=
  (show _ = klayer (So1 := S1x256) (DotDims.transposedRhs 32 1280 256) bitsLt_bf16_f32 shapeCasts_S256_S1x256 broadcasts_S1x256_S32x256 x W b
    from rfl).trans ((klayer_eq_rlayer (M := 32) (K := 1280) (N := 256) bitsLt_bf16_f32 shapeCasts_S256_S1x256 broadcasts_S1x256_S32x256
      (by decide) (by decide) (by decide) (by decide) x W b).trans rfl)

theorem layer1536_eq (x : FVec Ideal S32x1536 .f32) (W : FVec Ideal S512x1536 .f32) (b : FVec Ideal S512 .f32) :
    klayer (So1 := S1x512) dot_S32x1536_S512x1536_S32x512_1_1_0_0_n_n bitsLt_bf16_f32 shapeCasts_S512_S1x512 broadcasts_S1x512_S32x512 x W b
      = layer1536 x W b :=
  (show _ = klayer (So1 := S1x512) (DotDims.transposedRhs 32 1536 512) bitsLt_bf16_f32 shapeCasts_S512_S1x512 broadcasts_S1x512_S32x512 x W b
    from rfl).trans ((klayer_eq_rlayer (M := 32) (K := 1536) (N := 512) bitsLt_bf16_f32 shapeCasts_S512_S1x512 broadcasts_S1x512_S32x512
      (by decide) (by decide) (by decide) (by decide) x W b).trans rfl)

/-! ## The two compositions -/

/-- The normalised features, lane-reduction spelling (the body's first value; it casts the block to its own shape first). -/
def kx0 (X : FVec Ideal S32x1024 .f32) (a2 a3 : FVec Ideal S1024 .f32) : FVec Ideal S32x1024 .f32 :=
  (kbn (S1 := S1x1024) 0 reduces_S32x1024_S1024 shapeCasts_S1024_S1x1024 broadcasts_S1x1024_S32x1024 (shapeCast S32x1024 X shapeCasts_S32x1024_S32x1024) a2 a3)

/-- The first block, lane-reduction spelling. -/
def kh1 (X : FVec Ideal S32x1024 .f32) (a2 a3 : FVec Ideal S1024 .f32) (a4 : FVec Ideal S256x1024 .f32) (a5 a6 a7 : FVec Ideal S256 .f32)
    (a8 : FVec Ideal S256x256 .f32) (a9 a10 a11 : FVec Ideal S256 .f32) : FVec Ideal S32x256 .f32 :=
  (kbn (S1 := S1x256) 0 reduces_S32x256_S256 shapeCasts_S256_S1x256 broadcasts_S1x256_S32x256 (klayer (So1 := S1x256) dot_S32x256_S256x256_S32x256_1_1_0_0_n_n bitsLt_bf16_f32 shapeCasts_S256_S1x256 broadcasts_S1x256_S32x256 (kbn (S1 := S1x256) 0 reduces_S32x256_S256 shapeCasts_S256_S1x256 broadcasts_S1x256_S32x256 (klayer (So1 := S1x256) dot_S32x1024_S256x1024_S32x256_1_1_0_0_n_n bitsLt_bf16_f32 shapeCasts_S256_S1x256 broadcasts_S1x256_S32x256 (kx0 X a2 a3) a4 a5) a6 a7) a8 a9) a10 a11)

/-- The second block, lane-reduction spelling. -/
def kh2 (X : FVec Ideal S32x1024 .f32) (a2 a3 : FVec Ideal S1024 .f32) (a4 : FVec Ideal S256x1024 .f32) (a5 a6 a7 : FVec Ideal S256 .f32)
    (a8 : FVec Ideal S256x256 .f32) (a9 a10 a11 : FVec Ideal S256 .f32) (a12 : FVec Ideal S256x1280 .f32) (a13 a14 a15 : FVec Ideal S256 .f32)
    (a16 : FVec Ideal S256x256 .f32) (a17 a18 a19 : FVec Ideal S256 .f32) : FVec Ideal S32x256 .f32 :=
  (kbn (S1 := S1x256) 0 reduces_S32x256_S256 shapeCasts_S256_S1x256 broadcasts_S1x256_S32x256 (klayer (So1 := S1x256) dot_S32x256_S256x256_S32x256_1_1_0_0_n_n bitsLt_bf16_f32 shapeCasts_S256_S1x256 broadcasts_S1x256_S32x256 (kbn (S1 := S1x256) 0 reduces_S32x256_S256 shapeCasts_S256_S1x256 broadcasts_S1x256_S32x256 (klayer (So1 := S1x256) dot_S32x1280_S256x1280_S32x256_1_1_0_0_n_n bitsLt_bf16_f32 shapeCasts_S256_S1x256 broadcasts_S1x256_S32x256 (concatenate S32x1280 1 [⟨S32x1024, kx0 X a2 a3⟩, ⟨S32x256, kh1 X a2 a3 a4 a5 a6 a7 a8 a9 a10 a11⟩] concatenates_S32x1024_S32x256_S32x1280_d1) a12 a13) a14 a15) a16 a17) a18 a19)

/-- The network, lane-reduction spelling. -/
def kmlp (X : FVec Ideal S32x1024 .f32) (a2 : FVec Ideal S1024 .f32) (a3 : FVec Ideal S1024 .f32) (a4 : FVec Ideal S256x1024 .f32) (a5 : FVec Ideal S256 .f32) (a6 : FVec Ideal S256 .f32) (a7 : FVec Ideal S256 .f32) (a8 : FVec Ideal S256x256 .f32) (a9 : FVec Ideal S256 .f32) (a10 : FVec Ideal S256 .f32) (a11 : FVec Ideal S256 .f32) (a12 : FVec Ideal S256x1280 .f32) (a13 : FVec Ideal S256 .f32) (a14 : FVec Ideal S256 .f32) (a15 : FVec Ideal S256 .f32) (a16 : FVec Ideal S256x256 .f32) (a17 : FVec Ideal S256 .f32) (a18 : FVec Ideal S256 .f32) (a19 : FVec Ideal S256 .f32) (a20 : FVec Ideal S512x1536 .f32) (a21 : FVec Ideal S512 .f32) (a22 : FVec Ideal S512 .f32) (a23 : FVec Ideal S512 .f32) : FVec Ideal S32x512 .f32 :=
  (kbn (S1 := S1x512) 0 reduces_S32x512_S512 shapeCasts_S512_S1x512 broadcasts_S1x512_S32x512 (klayer (So1 := S1x512) dot_S32x1536_S512x1536_S32x512_1_1_0_0_n_n bitsLt_bf16_f32 shapeCasts_S512_S1x512 broadcasts_S1x512_S32x512 (concatenate S32x1536 1 [⟨S32x1024, kx0 X a2 a3⟩, ⟨S32x256, kh1 X a2 a3 a4 a5 a6 a7 a8 a9 a10 a11⟩, ⟨S32x256, kh2 X a2 a3 a4 a5 a6 a7 a8 a9 a10 a11 a12 a13 a14 a15 a16 a17 a18 a19⟩] concatenates_S32x1024_S32x256_S32x256_S32x1536_d1) a20 a21) a22 a23)

/-- The network, host spelling: the reference's composition on a given feature array. -/
def rmlp (X : FVec Ideal S32x1024 .f32) (a2 : FVec Ideal S1024 .f32) (a3 : FVec Ideal S1024 .f32) (a4 : FVec Ideal S256x1024 .f32) (a5 : FVec Ideal S256 .f32) (a6 : FVec Ideal S256 .f32) (a7 : FVec Ideal S256 .f32) (a8 : FVec Ideal S256x256 .f32) (a9 : FVec Ideal S256 .f32) (a10 : FVec Ideal S256 .f32) (a11 : FVec Ideal S256 .f32) (a12 : FVec Ideal S256x1280 .f32) (a13 : FVec Ideal S256 .f32) (a14 : FVec Ideal S256 .f32) (a15 : FVec Ideal S256 .f32) (a16 : FVec Ideal S256x256 .f32) (a17 : FVec Ideal S256 .f32) (a18 : FVec Ideal S256 .f32) (a19 : FVec Ideal S256 .f32) (a20 : FVec Ideal S512x1536 .f32) (a21 : FVec Ideal S512 .f32) (a22 : FVec Ideal S512 .f32) (a23 : FVec Ideal S512 .f32) : FVec Ideal S32x512 .f32 :=
  bn512 (layer1536 (cat3 (bn1024 X a2 a3)
      (bn256 (layer256 (bn256 (layer1024 (bn1024 X a2 a3) a4 a5) a6 a7) a8 a9) a10 a11)
      (bn256 (layer256 (bn256 (layer1280 (cat2 (bn1024 X a2 a3)
        (bn256 (layer256 (bn256 (layer1024 (bn1024 X a2 a3) a4 a5) a6 a7) a8 a9) a10 a11)) a12 a13) a14 a15) a16 a17) a18 a19))
    a20 a21) a22 a23

/-- The body's ten named values, unfolded, are the composition of stages. -/
theorem mlp_unfold (X : FVec Ideal S32x1024 .f32) (a2 : FVec Ideal S1024 .f32) (a3 : FVec Ideal S1024 .f32) (a4 : FVec Ideal S256x1024 .f32) (a5 : FVec Ideal S256 .f32) (a6 : FVec Ideal S256 .f32) (a7 : FVec Ideal S256 .f32) (a8 : FVec Ideal S256x256 .f32) (a9 : FVec Ideal S256 .f32) (a10 : FVec Ideal S256 .f32) (a11 : FVec Ideal S256 .f32) (a12 : FVec Ideal S256x1280 .f32) (a13 : FVec Ideal S256 .f32) (a14 : FVec Ideal S256 .f32) (a15 : FVec Ideal S256 .f32) (a16 : FVec Ideal S256x256 .f32) (a17 : FVec Ideal S256 .f32) (a18 : FVec Ideal S256 .f32) (a19 : FVec Ideal S256 .f32) (a20 : FVec Ideal S512x1536 .f32) (a21 : FVec Ideal S512 .f32) (a22 : FVec Ideal S512 .f32) (a23 : FVec Ideal S512 .f32) :
    KDefs.mlp (F := Ideal) X a2 a3 a4 a5 a6 a7 a8 a9 a10 a11 a12 a13 a14 a15 a16 a17 a18 a19 a20 a21 a22 a23 = kmlp X a2 a3 a4 a5 a6 a7 a8 a9 a10 a11 a12 a13 a14 a15 a16 a17 a18 a19 a20 a21 a22 a23 := rfl

theorem kx0_eq (X : FVec Ideal S32x1024 .f32) (a2 a3 : FVec Ideal S1024 .f32) : kx0 X a2 a3 = bn1024 X a2 a3 := by
  unfold kx0
  rw [shapeCast_self, bn1024_eq]

theorem kh1_eq (X : FVec Ideal S32x1024 .f32) (a2 a3 : FVec Ideal S1024 .f32) (a4 : FVec Ideal S256x1024 .f32) (a5 a6 a7 : FVec Ideal S256 .f32)
    (a8 : FVec Ideal S256x256 .f32) (a9 a10 a11 : FVec Ideal S256 .f32) :
    kh1 X a2 a3 a4 a5 a6 a7 a8 a9 a10 a11 = bn256 (layer256 (bn256 (layer1024 (bn1024 X a2 a3) a4 a5) a6 a7) a8 a9) a10 a11 := by
  unfold kh1
  rw [kx0_eq]
  simp only [bn256_eq, layer1024_eq, layer256_eq]

theorem kh2_eq (X : FVec Ideal S32x1024 .f32) (a2 a3 : FVec Ideal S1024 .f32) (a4 : FVec Ideal S256x1024 .f32) (a5 a6 a7 : FVec Ideal S256 .f32)
    (a8 : FVec Ideal S256x256 .f32) (a9 a10 a11 : FVec Ideal S256 .f32) (a12 : FVec Ideal S256x1280 .f32) (a13 a14 a15 : FVec Ideal S256 .f32)
    (a16 : FVec Ideal S256x256 .f32) (a17 a18 a19 : FVec Ideal S256 .f32) :
    kh2 X a2 a3 a4 a5 a6 a7 a8 a9 a10 a11 a12 a13 a14 a15 a16 a17 a18 a19 = bn256 (layer256 (bn256 (layer1280 (cat2 (bn1024 X a2 a3) (bn256 (layer256 (bn256 (layer1024 (bn1024 X a2 a3) a4 a5) a6 a7) a8 a9) a10 a11)) a12 a13) a14 a15) a16 a17) a18 a19 := by
  unfold kh2
  rw [kx0_eq, kh1_eq]
  simp only [bn256_eq, layer1280_eq, layer256_eq]
  rfl

/-- The two programs' networks are one function. -/
theorem mlp_eq (X : FVec Ideal S32x1024 .f32) (a2 : FVec Ideal S1024 .f32) (a3 : FVec Ideal S1024 .f32) (a4 : FVec Ideal S256x1024 .f32) (a5 : FVec Ideal S256 .f32) (a6 : FVec Ideal S256 .f32) (a7 : FVec Ideal S256 .f32) (a8 : FVec Ideal S256x256 .f32) (a9 : FVec Ideal S256 .f32) (a10 : FVec Ideal S256 .f32) (a11 : FVec Ideal S256 .f32) (a12 : FVec Ideal S256x1280 .f32) (a13 : FVec Ideal S256 .f32) (a14 : FVec Ideal S256 .f32) (a15 : FVec Ideal S256 .f32) (a16 : FVec Ideal S256x256 .f32) (a17 : FVec Ideal S256 .f32) (a18 : FVec Ideal S256 .f32) (a19 : FVec Ideal S256 .f32) (a20 : FVec Ideal S512x1536 .f32) (a21 : FVec Ideal S512 .f32) (a22 : FVec Ideal S512 .f32) (a23 : FVec Ideal S512 .f32) :
    KDefs.mlp (F := Ideal) X a2 a3 a4 a5 a6 a7 a8 a9 a10 a11 a12 a13 a14 a15 a16 a17 a18 a19 a20 a21 a22 a23 = rmlp X a2 a3 a4 a5 a6 a7 a8 a9 a10 a11 a12 a13 a14 a15 a16 a17 a18 a19 a20 a21 a22 a23 := by
  rw [mlp_unfold]
  unfold kmlp rmlp
  rw [kx0_eq, kh1_eq, kh2_eq]
  simp only [bn512_eq, layer1536_eq]
  rfl

end Cert.MlpEq

end
-- ==== Proof.OutEq.lean ====
/-
  The two programs' results are one function of the 24 arguments wherever their feature arrays agree: the result is the
  dense network applied to the feature array, and the networks are one function of any feature array.
-/
import proofs.«165364_j46282567582129_2_alg».proof.Proof.MlpEq

noncomputable section

namespace Cert.OutEq

open Idealize.ShloMosaic
open Cert.KernelIdeal

theorem out_eq_of_feat (a0 : FVec Ideal S32x3x2048 .f32) (a1 : FVec Ideal S1024x3 .f32) (a2 : FVec Ideal S1024 .f32) (a3 : FVec Ideal S1024 .f32) (a4 : FVec Ideal S256x1024 .f32) (a5 : FVec Ideal S256 .f32) (a6 : FVec Ideal S256 .f32) (a7 : FVec Ideal S256 .f32) (a8 : FVec Ideal S256x256 .f32) (a9 : FVec Ideal S256 .f32) (a10 : FVec Ideal S256 .f32) (a11 : FVec Ideal S256 .f32) (a12 : FVec Ideal S256x1280 .f32) (a13 : FVec Ideal S256 .f32) (a14 : FVec Ideal S256 .f32) (a15 : FVec Ideal S256 .f32) (a16 : FVec Ideal S256x256 .f32) (a17 : FVec Ideal S256 .f32) (a18 : FVec Ideal S256 .f32) (a19 : FVec Ideal S256 .f32) (a20 : FVec Ideal S512x1536 .f32) (a21 : FVec Ideal S512 .f32) (a22 : FVec Ideal S512 .f32) (a23 : FVec Ideal S512 .f32)
    (hfeat : KDefs.feat (F := Ideal) a0 a1 = Cert.ReferenceIdeal.RDefs.feat (F := Ideal) a0 a1) :
    KDefs.out (F := Ideal) a0 a1 a2 a3 a4 a5 a6 a7 a8 a9 a10 a11 a12 a13 a14 a15 a16 a17 a18 a19 a20 a21 a22 a23 = Cert.ReferenceIdeal.RDefs.out (F := Ideal) a0 a1 a2 a3 a4 a5 a6 a7 a8 a9 a10 a11 a12 a13 a14 a15 a16 a17 a18 a19 a20 a21 a22 a23 := by
  unfold KDefs.out
  rw [Cert.MlpEq.mlp_eq, hfeat]
  rfl

end Cert.OutEq

end
-- ==== Proof.FeatRead.lean ====
/-
  STAGE ONE at the ideal values, the two programs READ AT AN INDEX, and the algebra between the two readings.

  Both programs compute, for cloud b and basis point p, √max(min over the 2048 points n of |x_n − basis_p|², 0), arranged
  differently. The kernel: √max(|basis_p|² + min_n(|x_n|² + Σ_{k<8} (−2·basis_p)_k·(x_n)_k), 0), the contraction padded
  from three to eight terms with zeros. The reference: √min_n max(|x_n|² + |basis_p|² − 2·⟨x_n, basis_p⟩, 0).

  Each side is read at an index (b, p): every layout operation (cast, transpose, broadcast, concatenation) at the
  index it reads, each sum of squares as a sum over the three coordinates, the contraction as a sum over its
  coordinates, the minimum as a fold of `min` from +∞ over the 2048 points (`k0_pay1_read`, `rfeat_read`). Then the
  algebra (`spec_eq`): adding a real constant and taking the maximum with 0 both commute with `min` (the first needs the
  constant finite so that constant + ∞ = +∞), and the two expressions under the minimum agree over the reals
  (distributivity, which the extended reals lack in general — hence the finiteness hypotheses of the final statement).
-/
import proofs.«165364_j46282567582129_2_alg».proof.Proof.KDefs
import proofs.«165364_j46282567582129_2_alg».proof.Proof.RDefs
import Idealize.ShloMosaic.Lib.StackMember
import Idealize.ShloMosaic.Lib.IdealHost

noncomputable section

namespace Cert.FeatEq

open Idealize.ShloMosaic Idealize.ShloMosaic.ValueIdx
open scoped BigOperators

section Kernel
open Cert.KernelIdeal Cert.KernelIdeal.Gen Cert.KernelIdeal.Facts

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The sum of squares along the rows of a [1024, 3] array. -/
theorem sumsq_rows (v : FVec Ideal S1024x3 .f32) (acc : BitVec 32) (h : S1024x3.Reduces [1] S1024) (hφ : FKind.Formats .f32)
    (hacc : acc = FKind.add.neutral .f32 hφ) (p : Fin 1024) :
    multiReduction .add [1] S1024 (mulf v v) acc h hφ hacc (ix1 p) = ∑ k : Fin 3, v (ix2 p k) * v (ix2 p k) := by
  refine (Ideal.multiReduction_add_single (mulf v v) acc h hφ hacc (ix1 p)).trans ?_
  refine Finset.sum_congr rfl fun k _ => ?_
  have e : h.lift (ix1 p) k = ix2 p k := by
    funext a; apply Fin.ext
    match a with
    | ⟨0, _⟩ => rfl
    | ⟨1, _⟩ => rfl
  rw [e]; rfl

/-- The sum of squares down the columns of a [3, 2048] array. -/
theorem sumsq_cols (v : FVec Ideal S3x2048 .f32) (acc : BitVec 32) (h : S3x2048.Reduces [0] S2048) (hφ : FKind.Formats .f32)
    (hacc : acc = FKind.add.neutral .f32 hφ) (n : Fin 2048) :
    multiReduction .add [0] S2048 (mulf v v) acc h hφ hacc (ix1 n) = ∑ k : Fin 3, v (ix2 k n) * v (ix2 k n) := by
  refine (Ideal.multiReduction_add_single (mulf v v) acc h hφ hacc (ix1 n)).trans ?_
  refine Finset.sum_congr rfl fun k _ => ?_
  have e : h.lift (ix1 n) k = ix2 k n := by
    funext a; apply Fin.ext
    match a with
    | ⟨0, _⟩ => rfl
    | ⟨1, _⟩ => rfl
  rw [e]; rfl

/-- The minimum along the rows of a [1024, 2048] array. -/
theorem min_rows (v : FVec Ideal S1024x2048 .f32) (acc : BitVec 32) (h : S1024x2048.Reduces [1] S1024) (hφ : FKind.Formats .f32)
    (hacc : acc = FKind.minimumf.neutral .f32 hφ) (p : Fin 1024) :
    multiReduction .minimumf [1] S1024 v acc h hφ hacc (ix1 p)
      = (Finset.univ : Finset (Fin 2048)).fold min (Ideal.ofBits .f32 acc) (fun n => v (ix2 p n)) := by
  refine (multiReduction_minimumf_single v acc h hφ hacc (ix1 p)).trans ?_
  refine congrArg (Finset.fold min (Ideal.ofBits .f32 acc) · (Finset.univ : Finset (Fin 2048))) ?_
  funext n
  have e : h.lift (ix1 p) n = ix2 p n := by
    funext a; apply Fin.ext
    match a with
    | ⟨0, _⟩ => rfl
    | ⟨1, _⟩ => rfl
  exact congrArg v e

end Kernel

section KernelReads
open Cert.KernelIdeal Cert.KernelIdeal.Gen Cert.KernelIdeal.Facts

theorem cast_S1024_S1x1024 {α : Type} (v : S1024.Idx → α) (h : S1024.ShapeCasts S1x1024) (p : Fin 1024) :
    shapeCast S1x1024 v h (ix2 (0 : Fin 1) p) = v (ix1 p) :=
  shapeCast_apply v h (ix2 (0 : Fin 1) p) (ix1 p) (by
    rw [Shape.rowMajor_val_one, Shape.rowMajor_val_two]; show p.val = 0 * 1024 + p.val; omega)

theorem cast_S2048_S1x2048 {α : Type} (v : S2048.Idx → α) (h : S2048.ShapeCasts S1x2048) (n : Fin 2048) :
    shapeCast S1x2048 v h (ix2 (0 : Fin 1) n) = v (ix1 n) :=
  shapeCast_apply v h (ix2 (0 : Fin 1) n) (ix1 n) (by
    rw [Shape.rowMajor_val_one, Shape.rowMajor_val_two]; show n.val = 0 * 2048 + n.val; omega)

theorem cast_S1x3x2048_S3x2048 {α : Type} (v : S1x3x2048.Idx → α) (h : S1x3x2048.ShapeCasts S3x2048) (k : Fin 3) (n : Fin 2048) :
    shapeCast S3x2048 v h (ix2 k n) = v (ix3 (0 : Fin 1) k n) :=
  shapeCast_apply v h (ix2 k n) (ix3 (0 : Fin 1) k n) (by
    rw [Shape.rowMajor_val_three, Shape.rowMajor_val_two]
    show (0 * 3 + k.val) * 2048 + n.val = k.val * 2048 + n.val; omega)

theorem bcast_S1x2048_S1024x2048 {α : Type} (v : S1x2048.Idx → α) (h : S1x2048.Broadcasts S1024x2048) (p : Fin 1024) (n : Fin 2048) :
    broadcastTo S1024x2048 v h (ix2 p n) = v (ix2 (0 : Fin 1) n) :=
  broadcastTo_apply v h (ix2 p n) (ix2 (0 : Fin 1) n) (by
    intro a
    match a with
    | ⟨0, _⟩ => rfl
    | ⟨1, _⟩ => rfl)

variable [Cert.KernelIdeal.Facts]

theorem matmul_read (A : FVec Ideal S1024x8 .bf16) (B : FVec Ideal S8x2048 .bf16) (p : Fin 1024) (n : Fin 2048) :
    matmul dot_S1024x8_S8x2048_S1024x2048_1_0_0_1_n_n none A B (constant S1024x2048 .f32 0x00000000#32) (ix2 p n)
      = ∑ c : Fin 8, A (ix2 p c) * B (ix2 c n) := by
  rw [matmul_zero_eq_dotGeneral]
  exact StackMember.dotGeneral_plain_apply (m := 1024) (n := 2048) none A B p n

end KernelReads

section Concat
open Cert.KernelIdeal

/-- A sum over eight terms is the sum of its first three and its last five. -/
theorem sum_fin8_split (f : Fin 8 → EReal) :
    ∑ c : Fin 8, f c = ∑ k : Fin 3, f ⟨k.val, by omega⟩ + ∑ k : Fin 5, f ⟨3 + k.val, by omega⟩ :=
  Fin.sum_univ_add (a := 3) (b := 5) f

theorem concat_cols_lo {α : Type} (A : S1024x3.Idx → α) (Z : S1024x5.Idx → α)
    (h : Shape.Concatenates [S1024x3, S1024x5] S1024x8 1) (p : Fin 1024) (k : Fin 3) :
    concatenate S1024x8 1 [⟨S1024x3, A⟩, ⟨S1024x5, Z⟩] h (ix2 p (⟨k.val, by omega⟩ : Fin 8)) = A (ix2 p k) :=
  concatenate_pair_apply_left (1 : Fin 2) A Z h (ix2 p (⟨k.val, by omega⟩ : Fin 8)) rfl (ix2 p k) (by
    intro b
    match b with
    | ⟨0, _⟩ => rfl
    | ⟨1, _⟩ => rfl)

theorem concat_cols_hi {α : Type} (A : S1024x3.Idx → α) (Z : S1024x5.Idx → α)
    (h : Shape.Concatenates [S1024x3, S1024x5] S1024x8 1) (p : Fin 1024) (k : Fin 5) :
    concatenate S1024x8 1 [⟨S1024x3, A⟩, ⟨S1024x5, Z⟩] h (ix2 p (⟨3 + k.val, by omega⟩ : Fin 8)) = Z (ix2 p k) :=
  concatenate_pair_apply_right (1 : Fin 2) A Z h (ix2 p (⟨3 + k.val, by omega⟩ : Fin 8)) rfl rfl (ix2 p k) (by
    intro b hb
    match b with
    | ⟨0, _⟩ => rfl
    | ⟨1, _⟩ => exact absurd rfl hb) (by show k.val + 3 = 3 + k.val; omega)

theorem concat_rows_lo {α : Type} (B : S3x2048.Idx → α) (Z : S5x2048.Idx → α)
    (h : Shape.Concatenates [S3x2048, S5x2048] S8x2048 0) (k : Fin 3) (n : Fin 2048) :
    concatenate S8x2048 0 [⟨S3x2048, B⟩, ⟨S5x2048, Z⟩] h (ix2 (⟨k.val, by omega⟩ : Fin 8) n) = B (ix2 k n) :=
  concatenate_pair_apply_left (0 : Fin 2) B Z h (ix2 (⟨k.val, by omega⟩ : Fin 8) n) rfl (ix2 k n) (by
    intro b
    match b with
    | ⟨0, _⟩ => rfl
    | ⟨1, _⟩ => rfl)

theorem concat_rows_hi {α : Type} (B : S3x2048.Idx → α) (Z : S5x2048.Idx → α)
    (h : Shape.Concatenates [S3x2048, S5x2048] S8x2048 0) (k : Fin 5) (n : Fin 2048) :
    concatenate S8x2048 0 [⟨S3x2048, B⟩, ⟨S5x2048, Z⟩] h (ix2 (⟨3 + k.val, by omega⟩ : Fin 8) n) = Z (ix2 k n) :=
  concatenate_pair_apply_right (0 : Fin 2) B Z h (ix2 (⟨3 + k.val, by omega⟩ : Fin 8) n) rfl rfl (ix2 k n) (by
    intro b hb
    match b with
    | ⟨0, _⟩ => exact absurd rfl hb
    | ⟨1, _⟩ => rfl) (by show k.val + 3 = 3 + k.val; omega)

end Concat

section KernelMain
open Cert.KernelIdeal Cert.KernelIdeal.Gen Cert.KernelIdeal.Facts
variable [Cert.KernelIdeal.Facts]

/-- The loop body's value at basis point `p`, read off the printed operations: every layout operation read at its
    index, the two sums of squares as sums over the three coordinates, the eight-term contraction as its three live terms
    and five pad terms, the minimum as a fold over the 2048 points. -/
theorem k0_pay1_read (basis : Vec Ideal S1024x3 .f32) (v10 : Vec Ideal S1x3x2048 .f32) (p : Fin 1024) :
    k0_pay1 basis v10 (ix2 (0 : Fin 1) p)
      = Ideal.sqrt (max ((∑ k : Fin 3, basis (ix2 p k) * basis (ix2 p k))
          + (Finset.univ : Finset (Fin 2048)).fold min (Ideal.ofBits .f32 0x7F800000#32) (fun n =>
              (∑ k : Fin 3, v10 (ix3 (0 : Fin 1) k n) * v10 (ix3 (0 : Fin 1) k n))
              + ((∑ k : Fin 3, (Ideal.ofBits .f32 0xC0000000#32 * basis (ix2 p k)) * v10 (ix3 (0 : Fin 1) k n))
                + ∑ k : Fin 5, Ideal.ofBits .f32 0x00000000#32 * Ideal.ofBits .f32 0x00000000#32)))
          (Ideal.ofBits .f32 0x00000000#32)) := by
  unfold k0_pay1
  dsimp only
  refine (cast_S1024_S1x1024 _ _ p).trans ?_
  refine congrArg Ideal.sqrt (congrArg₂ max (congrArg₂ (· + ·) (sumsq_rows _ _ _ _ _ p)
    ((min_rows _ _ _ _ _ p).trans (Finset.fold_congr fun n _ => ?_))) rfl)
  refine congrArg₂ (· + ·) ?_ ?_
  · refine (bcast_S1x2048_S1024x2048 _ _ p n).trans ((cast_S2048_S1x2048 _ _ n).trans
      ((sumsq_cols _ _ _ _ _ n).trans (Finset.sum_congr rfl fun k _ => ?_)))
    rw [cast_S1x3x2048_S3x2048]
  · refine (matmul_read _ _ p n).trans ((sum_fin8_split _).trans (congrArg₂ (· + ·)
      (Finset.sum_congr rfl fun k _ => ?_) (Finset.sum_congr rfl fun k _ => ?_)))
    · rw [truncf_apply, truncf_apply, concat_cols_lo, concat_rows_lo, cast_S1x3x2048_S3x2048]; rfl
    · rw [truncf_apply, truncf_apply, concat_cols_hi, concat_rows_hi]; rfl

end KernelMain

section Reference
open Cert.ReferenceIdeal Cert.ReferenceIdeal.Facts₀ Cert.ReferenceIdeal.Facts

/-- Row (b, n) of the flattened [65536, ·] arrays: b·2048 + n. -/
def row (b : Fin 32) (n : Fin 2048) : Fin 65536 := ⟨b.val * 2048 + n.val, by have := b.isLt; have := n.isLt; omega⟩

/-- Row (b, n), column k of the flattened transposed point clouds is coordinate k of point n of cloud b. -/
theorem pts_read {α : Type} (x : S32x3x2048.Idx → α) (ht : S32x3x2048.Transposes [0, 2, 1] S32x2048x3)
    (hc : S32x2048x3.ShapeCasts S65536x3) (b : Fin 32) (n : Fin 2048) (k : Fin 3) :
    shapeCast S65536x3 (transpose S32x2048x3 [0, 2, 1] x ht) hc (ix2 (row b n) k) = x (ix3 b k n) :=
  (shapeCast_apply _ hc (ix2 (row b n) k) (ix3 b n k) (by
    rw [Shape.rowMajor_val_three, Shape.rowMajor_val_two]; rfl)).trans
  (transpose_apply [0, 2, 1] x ht (ix3 b n k) (ix3 b k n) (by
    intro a
    match a with
    | ⟨0, _⟩ => rfl
    | ⟨1, _⟩ => rfl
    | ⟨2, _⟩ => rfl))

/-- The transposed basis at (k, p) is the basis at (p, k). -/
theorem basisT_read {α : Type} (v : S1024x3.Idx → α) (ht : S1024x3.Transposes [1, 0] S3x1024) (k : Fin 3) (p : Fin 1024) :
    transpose S3x1024 [1, 0] v ht (ix2 k p) = v (ix2 p k) :=
  transpose_apply [1, 0] v ht (ix2 k p) (ix2 p k) (by
    intro a
    match a with
    | ⟨0, _⟩ => rfl
    | ⟨1, _⟩ => rfl)

/-- Element (b, n, p) of the [32, 2048, 1024] view of a [65536, 1024] array is its element (b·2048 + n, p). -/
theorem cast_big {α : Type} (Z : S65536x1024.Idx → α) (hc : S65536x1024.ShapeCasts S32x2048x1024) (b : Fin 32) (n : Fin 2048)
    (p : Fin 1024) : shapeCast S32x2048x1024 Z hc (ix3 b n p) = Z (ix2 (row b n) p) :=
  shapeCast_apply Z hc (ix3 b n p) (ix2 (row b n) p) (by
    rw [Shape.rowMajor_val_three, Shape.rowMajor_val_two]; rfl)

/-- The host's sum along the rows of an [m, 3] array: the initial value plus the three entries. -/
theorem hostSum_rows {m : Nat} (w : FVec Ideal ⟨2, ![m, 3]⟩ .f32) (init : (⟨0, ![]⟩ : Shape).Idx → Ideal .f32)
    (h' : (⟨2, ![m, 3]⟩ : Shape).ReducesTo [1] ⟨1, ![m]⟩) (h : (⟨2, ![m, 3]⟩ : Shape).Reduces [1] ⟨1, ![m]⟩)
    (hu : 0 < (⟨0, ![]⟩ : Shape).numel) (r : Fin m) :
    Host.reduceAdd w init h' hu (ix1 r) = init (Shape.Idx.first hu) + ∑ k : Fin 3, w (ix2 r k) := by
  refine (hostReduceAdd_apply w init h' hu (ix1 r)).trans ((Ideal.hostReduceAdd_single h' h w _ (ix1 r)).trans ?_)
  refine congrArg (init (Shape.Idx.first hu) + ·) (Finset.sum_congr rfl fun k _ => ?_)
  have e : h.lift (ix1 r) k = ix2 r k := by
    funext a; apply Fin.ext
    match a with
    | ⟨0, _⟩ => rfl
    | ⟨1, _⟩ => rfl
  exact congrArg w e

/-- A column vector of 65536 entries broadcast along 1024 columns reads its row's entry. -/
theorem bcast_col {α : Type} (v : S65536.Idx → α) (h1 : S65536.BroadcastsInDim S65536x1 ![0])
    (h2 : S65536x1.BroadcastsInDim S65536x1024 ![0, 1]) (r : Fin 65536) (p : Fin 1024) :
    broadcastInDim S65536x1024 ![0, 1] h2 (broadcastInDim S65536x1 ![0] h1 v) (ix2 r p) = v (ix1 r) :=
  (broadcastInDim_apply ![0, 1] h2 _ (ix2 r p) (ix2 r (0 : Fin 1)) (by
    intro a
    match a with
    | ⟨0, _⟩ => rfl
    | ⟨1, _⟩ => rfl)).trans
  (broadcastInDim_apply ![0] h1 v (ix2 r (0 : Fin 1)) (ix1 r) (by
    intro a
    match a with
    | ⟨0, _⟩ => rfl))

/-- A row vector of 1024 entries broadcast down 65536 rows reads its column's entry. -/
theorem bcast_row {α : Type} (v : S1024.Idx → α) (h1 : S1024.BroadcastsInDim S1x1024 ![1])
    (h2 : S1x1024.BroadcastsInDim S65536x1024 ![0, 1]) (r : Fin 65536) (p : Fin 1024) :
    broadcastInDim S65536x1024 ![0, 1] h2 (broadcastInDim S1x1024 ![1] h1 v) (ix2 r p) = v (ix1 p) :=
  (broadcastInDim_oneRow_apply h2 _ r p).trans
  (broadcastInDim_apply ![1] h1 v (ix2 (0 : Fin 1) p) (ix1 p) (by
    intro a
    match a with
    | ⟨0, _⟩ => rfl))

/-- The host's minimum over the middle axis of a [32, 2048, 1024] array: the fold of `min` over the 2048 points. -/
theorem hostMin_mid (Y : FVec Ideal S32x2048x1024 .f32) (init : S_.Idx → Ideal .f32)
    (h' : S32x2048x1024.ReducesTo [1] S32x1024) (hu : 0 < S_.numel) (b : Fin 32) (p : Fin 1024) :
    Host.reduce FloatOps.minimumf Y init h' hu (ix2 b p)
      = (Finset.univ : Finset (Fin 2048)).fold min (init (Shape.Idx.first hu)) (fun n => Y (ix3 b n p)) := by
  have h : S32x2048x1024.Reduces [1] S32x1024 := by decide
  refine (Host.reduce_eq_fold_single FloatOps.minimumf Y init h' h hu (ix2 b p)).trans ?_
  refine congrArg (Finset.fold min (init (Shape.Idx.first hu)) · (Finset.univ : Finset (Fin 2048))) ?_
  funext n
  have e : h.lift (ix2 b p) n = ix3 b n p := by
    funext a; apply Fin.ext
    match a with
    | ⟨0, _⟩ => rfl
    | ⟨1, _⟩ => rfl
    | ⟨2, _⟩ => rfl
  exact congrArg Y e

variable [Cert.ReferenceIdeal.Facts]

theorem dot_read (A : FVec Ideal S65536x3 .f32) (B : FVec Ideal S3x1024 .f32) (r : Fin 65536) (p : Fin 1024) :
    Host.dotGeneral dot_S65536x3_S3x1024_S65536x1024_1_0_0_1_n_n none A B (ix2 r p) = ∑ c : Fin 3, A (ix2 r c) * B (ix2 c p) :=
  StackMember.dotGeneral_plain_apply (m := 65536) (n := 1024) none A B r p

end Reference

section ReferenceMain
open Cert.ReferenceIdeal Cert.ReferenceIdeal.Facts₀ Cert.ReferenceIdeal.Facts
variable [Cert.ReferenceIdeal.Facts]

theorem hostSqrt_apply {s : Shape} {φ : FTy} (a : FVec Ideal s φ) (i : s.Idx) : Host.sqrt a i = Ideal.sqrt (a i) := rfl

/-- The reference's feature array at (b, p), read off its operations: the square root of the fold of `min` over the
    2048 points n of max((0 + Σ_k x²) + (0 + Σ_k basis²) − 2·Σ_k x·basis, 0). -/
theorem rfeat_read (x : FVec Ideal S32x3x2048 .f32) (basis : FVec Ideal S1024x3 .f32) (b : Fin 32) (p : Fin 1024) :
    Cert.ReferenceIdeal.RDefs.feat (F := Ideal) x basis (ix2 b p)
      = Ideal.sqrt ((Finset.univ : Finset (Fin 2048)).fold min (Ideal.ofBits .f32 0x7F800000#32) (fun n =>
          max (((Ideal.ofBits .f32 0x00000000#32 + ∑ k : Fin 3, x (ix3 b k n) * x (ix3 b k n))
              + (Ideal.ofBits .f32 0x00000000#32 + ∑ k : Fin 3, basis (ix2 p k) * basis (ix2 p k)))
            - Ideal.ofBits .f32 0x40000000#32 * ∑ k : Fin 3, x (ix3 b k n) * basis (ix2 p k))
          (Ideal.ofBits .f32 0x00000000#32))) := by
  unfold Cert.ReferenceIdeal.RDefs.feat
  rw [hostSqrt_apply]
  refine congrArg Ideal.sqrt ?_
  refine (hostMin_mid _ _ _ _ b p).trans ?_
  refine Finset.fold_congr fun n _ => ?_
  refine (cast_big _ _ b n p).trans ?_
  rw [maximumf_apply, subf_apply, addf_apply, mulf_apply]
  refine congrArg₂ max (congrArg₂ (· - ·) (congrArg₂ (· + ·) ?_ ?_) (congrArg₂ (· * ·) ?_ ?_)) ?_
  · refine (bcast_col _ _ _ (row b n) p).trans ((hostSum_rows _ _ _ (by decide) _ (row b n)).trans
      (congrArg₂ (· + ·) rfl (Finset.sum_congr rfl fun k _ => ?_)))
    rw [mulf_apply, pts_read]
  · exact (bcast_row _ _ _ (row b n) p).trans ((hostSum_rows _ _ _ (by decide) _ p).trans rfl)
  · exact (broadcastInDim_scalar_apply _ _ _).trans rfl
  · refine (dot_read _ _ (row b n) p).trans (Finset.sum_congr rfl fun k _ => ?_)
    rw [pts_read, basisT_read]
  · exact (broadcastInDim_scalar_apply _ _ _).trans rfl

end ReferenceMain

section Algebra

/-- The f32 pattern 0x7F800000 is +∞. -/
theorem ofBits_inf_f32 : Ideal.ofBits .f32 0x7F800000#32 = (⊤ : EReal) := by
  simp [Ideal.ofBits, Ideal.ieee]

/-- The f32 pattern 0xC0000000 is the real −2. -/
theorem ofBits_neg_two_f32 : Ideal.ofBits .f32 0xC0000000#32 = ((-2 : ℝ) : EReal) := by
  simp [Ideal.ofBits, Ideal.ieee, -EReal.coe_mul, -EReal.coe_neg]; norm_num

/-- The f32 pattern 0x40000000 is the real 2. -/
theorem ofBits_two_f32 : Ideal.ofBits .f32 0x40000000#32 = ((2 : ℝ) : EReal) := by
  simp [Ideal.ofBits, Ideal.ieee, -EReal.coe_mul]; norm_num

/-- A finite sum of reals, each read as an extended real, is the real sum read as an extended real. -/
theorem coe_sum {ι : Type} (s : Finset ι) (f : ι → ℝ) : ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- Adding a real commutes with the fold of `min` from +∞. -/
theorem add_fold_min {ι : Type} (s : Finset ι) (c : ℝ) (f : ι → EReal) :
    (c : EReal) + s.fold min ⊤ f = s.fold min ⊤ (fun n => (c : EReal) + f n) := by
  have hm : ∀ x y : EReal, (c : EReal) + min x y = min ((c : EReal) + x) ((c : EReal) + y) := fun x y =>
    (show Monotone fun z : EReal => (c : EReal) + z from fun _ _ h => add_le_add le_rfl h).map_min
  have h := Finset.fold_hom (op := min) (op' := min) (s := s) (b := (⊤ : EReal)) (f := f)
    (m := fun z : EReal => (c : EReal) + z) hm
  rw [← h, EReal.coe_add_top]

/-- Taking the maximum with 0 commutes with the fold of `min` from +∞. -/
theorem max_fold_min {ι : Type} (s : Finset ι) (f : ι → EReal) :
    max (s.fold min ⊤ f) 0 = s.fold min ⊤ (fun n => max (f n) 0) := by
  have hm : ∀ x y : EReal, max (min x y) 0 = min (max x 0) (max y 0) := fun x y => max_min_distrib_right x y 0
  have h := Finset.fold_hom (op := min) (op' := min) (s := s) (b := (⊤ : EReal)) (f := f)
    (m := fun z : EReal => max z 0) hm
  rw [← h, max_eq_left (le_top : (0 : EReal) ≤ ⊤)]

/-- THE ALGEBRA, over the reals: with B = |basis_p|², X n = |x_n|², and the cross terms C n = −2·D n,
    √max(B + min_n (X n + C n), 0) = √min_n max((0 + X n) + (0 + B) − 2·D n, 0). -/
theorem spec_eq {ι : Type} (s : Finset ι) (B : ℝ) (X C D : ι → ℝ) (hCD : ∀ n, C n = -2 * D n) :
    Ideal.sqrt (max ((B : EReal) + s.fold min ⊤ (fun n => ((X n : ℝ) : EReal) + ((C n : ℝ) : EReal))) 0)
      = Ideal.sqrt (s.fold min ⊤ (fun n =>
          max ((((0 : EReal) + ((X n : ℝ) : EReal)) + ((0 : EReal) + (B : EReal))) - ((2 : ℝ) : EReal) * ((D n : ℝ) : EReal)) 0)) := by
  rw [add_fold_min, max_fold_min]
  refine congrArg Ideal.sqrt (Finset.fold_congr fun n _ => congrArg (max · 0) ?_)
  rw [zero_add, zero_add, ← EReal.coe_add, ← EReal.coe_add, ← EReal.coe_add, ← EReal.coe_mul, ← EReal.coe_sub, hCD n]
  congr 1; ring

end Algebra

end Cert.FeatEq

end
-- ==== Proof.FeatEq.lean ====
/-
  STAGE ONE at the ideal values: on finite inputs the kernel's feature array is the reference's.

  Entry (b, p) of either array is read at its index (the two readings of the imported module), the entries of the two
  arguments are replaced by real witnesses, every three-term sum becomes a real sum read as an extended real, the five
  pad terms of the kernel's contraction vanish, the constants −2, 2, 0 and +∞ are read off their bit patterns, and the
  algebra over the reals closes the goal: (−2·basis_p,k)·x_k,n summed over k is −2 times x_k,n·basis_p,k summed over k.
-/
import proofs.«165364_j46282567582129_2_alg».proof.Proof.FeatRead

noncomputable section

namespace Cert.FeatEq

open Idealize.ShloMosaic Idealize.ShloMosaic.ValueIdx
open scoped BigOperators

section Main
variable [Cert.KernelIdeal.Facts] [Cert.ReferenceIdeal.Facts]

/-- The slab of batch element `b` at (0, k, n) is the cloud at (b, k, n). -/
theorem slab_apply (x : Vec Ideal Cert.KernelIdeal.S32x3x2048 .f32) (b : Fin 32) (k : Fin 3) (n : Fin 2048) :
    Cert.KernelIdeal.KDefs.slab (F := Ideal) x b (ix3 (0 : Fin 1) k n) = x (ix3 b k n) := rfl

/-- STAGE ONE: on finite inputs the kernel's feature array is the reference's. -/
theorem feat_eq (x : FVec Ideal Cert.KernelIdeal.S32x3x2048 .f32) (basis : FVec Ideal Cert.KernelIdeal.S1024x3 .f32)
    (hx : ∀ i, ∃ r : ℝ, x i = (r : EReal)) (hb : ∀ i, ∃ r : ℝ, basis i = (r : EReal)) :
    Cert.KernelIdeal.KDefs.feat (F := Ideal) x basis = Cert.ReferenceIdeal.RDefs.feat (F := Ideal) x basis := by
  choose xr hxr using hx
  choose br hbr using hb
  funext i
  obtain ⟨b, p, rfl⟩ : ∃ (b : Fin 32) (p : Fin 1024), i = ix2 b p := ⟨i 0, i 1, eq_ix2 i⟩
  refine Eq.trans (k0_pay1_read basis (Cert.KernelIdeal.KDefs.slab (F := Ideal) x b) p) ?_
  refine Eq.trans ?_ (rfeat_read x basis b p).symm
  -- the four sums, over the reals
  have hB : ∑ k : Fin 3, basis (ix2 p k) * basis (ix2 p k)
      = ((∑ k : Fin 3, br (ix2 p k) * br (ix2 p k) : ℝ) : EReal) := by
    rw [← coe_sum]; exact Finset.sum_congr rfl fun k _ => by rw [hbr, ← EReal.coe_mul]
  have hX : ∀ n : Fin 2048, ∑ k : Fin 3, Cert.KernelIdeal.KDefs.slab (F := Ideal) x b (ix3 (0 : Fin 1) k n)
        * Cert.KernelIdeal.KDefs.slab (F := Ideal) x b (ix3 (0 : Fin 1) k n)
      = ((∑ k : Fin 3, xr (ix3 b k n) * xr (ix3 b k n) : ℝ) : EReal) := fun n => by
    rw [← coe_sum]; exact Finset.sum_congr rfl fun k _ => by rw [slab_apply x b k n, hxr, ← EReal.coe_mul]
  have hX' : ∀ n : Fin 2048, ∑ k : Fin 3, x (ix3 b k n) * x (ix3 b k n)
      = ((∑ k : Fin 3, xr (ix3 b k n) * xr (ix3 b k n) : ℝ) : EReal) := fun n => by
    rw [← coe_sum]; exact Finset.sum_congr rfl fun k _ => by rw [hxr, ← EReal.coe_mul]
  have hC : ∀ n : Fin 2048, (∑ k : Fin 3, (Ideal.ofBits .f32 0xC0000000#32 * basis (ix2 p k))
          * Cert.KernelIdeal.KDefs.slab (F := Ideal) x b (ix3 (0 : Fin 1) k n))
        + ∑ k : Fin 5, (0 : EReal) * 0
      = ((∑ k : Fin 3, (-2 * br (ix2 p k)) * xr (ix3 b k n) : ℝ) : EReal) := fun n => by
    rw [mul_zero, Finset.sum_const_zero, add_zero, ← coe_sum]
    exact Finset.sum_congr rfl fun k _ => by
      rw [slab_apply x b k n, hxr, hbr, ofBits_neg_two_f32, ← EReal.coe_mul, ← EReal.coe_mul]
  have hD : ∀ n : Fin 2048, ∑ k : Fin 3, x (ix3 b k n) * basis (ix2 p k)
      = ((∑ k : Fin 3, xr (ix3 b k n) * br (ix2 p k) : ℝ) : EReal) := fun n => by
    rw [← coe_sum]; exact Finset.sum_congr rfl fun k _ => by rw [hxr, hbr, ← EReal.coe_mul]
  simp only [hB, hX, hX', hC, hD, ofBits_inf_f32, ofBits_two_f32, Ideal.ofBits_zero_f32]
  refine spec_eq Finset.univ _ _ _ _ fun n => ?_
  rw [Finset.mul_sum]
  exact Finset.sum_congr rfl fun k _ => by ring

end Main

end Cert.FeatEq

end
-- ==== Proof.Finite.lean ====
/-
  From the printed precondition to finiteness of the first two arguments.

  The precondition is the conjunction, over the 24 argument arrays, of "every entry has absolute value below +∞".
  At the ideal instance an entry is an extended real, its absolute value is max x (−x), and the comparison is the
  order's: an extended real whose absolute value is below +∞ is neither +∞ nor −∞, hence a real. Only the first two
  conjuncts are used.
-/
import proofs.«165364_j46282567582129_2_alg».proof.Defs
import Idealize.ShloMosaic.Lib.ReduceAll
import Idealize.ShloMosaic.Lib.IdealHost

noncomputable section

namespace Cert.Finite

open Idealize.ShloMosaic Idealize.ShloMosaic.ValueIdx Cert.Pre_finite_inputs

/-- The rank-0 shape has one index. -/
instance : Subsingleton S_.Idx := ⟨fun a b => funext fun d => d.elim0⟩

/-- The f32 pattern 0x7F800000 is +∞. -/
theorem ofBits_inf_f32 : Ideal.ofBits .f32 0x7F800000#32 = (⊤ : EReal) := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- One conjunct at one index: the comparison of |x| with the broadcast +∞ being 1 makes the entry a real. -/
theorem elem {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  rw [cmpf_apply, broadcastInDim_scalar_apply] at h
  exact real_of_abs_lt (x i) h

/-- The left operand of a pointwise `and` that is 1 is 1. -/
theorem andi_left {s : Shape} (a b : IVec s 1) (i : s.Idx) (h : andi a b i = 1#1) : a i = 1#1 :=
  (IntOp.andi_eq_one.1 h).1

/-- The precondition makes every entry of the first two arguments a real. -/
theorem finite_of_pre [Cert.Pre_finite_inputs.Facts] (a0 : FVec Ideal S32x3x2048 .f32) (a1 : FVec Ideal S1024x3 .f32) (a2 : FVec Ideal S1024 .f32) (a3 : FVec Ideal S1024 .f32) (a4 : FVec Ideal S256x1024 .f32) (a5 : FVec Ideal S256 .f32) (a6 : FVec Ideal S256 .f32) (a7 : FVec Ideal S256 .f32) (a8 : FVec Ideal S256x256 .f32) (a9 : FVec Ideal S256 .f32) (a10 : FVec Ideal S256 .f32) (a11 : FVec Ideal S256 .f32) (a12 : FVec Ideal S256x1280 .f32) (a13 : FVec Ideal S256 .f32) (a14 : FVec Ideal S256 .f32) (a15 : FVec Ideal S256 .f32) (a16 : FVec Ideal S256x256 .f32) (a17 : FVec Ideal S256 .f32) (a18 : FVec Ideal S256 .f32) (a19 : FVec Ideal S256 .f32) (a20 : FVec Ideal S512x1536 .f32) (a21 : FVec Ideal S512 .f32) (a22 : FVec Ideal S512 .f32) (a23 : FVec Ideal S512 .f32)
    (h : Cert.Pre_finite_inputs.fn (F := Ideal) a0 a1 a2 a3 a4 a5 a6 a7 a8 a9 a10 a11 a12 a13 a14 a15 a16 a17 a18 a19 a20 a21 a22 a23 = fun _ => 1#1) :
    (∀ i, ∃ r : ℝ, a0 i = (r : EReal)) ∧ (∀ i, ∃ r : ℝ, a1 i = (r : EReal)) := by
  have e := congrFun h ix0
  dsimp only [fn, fn_part1, fn_part2, fn_part3, fn_part4, fn_part5, fn_part6] at e
  iterate 22 (replace e := andi_left _ _ _ e)
  obtain ⟨h3, h7⟩ := IntOp.andi_eq_one.1 e
  exact ⟨fun i => elem _ _ i (Host.reduce_andi_all _ _ _ _ _ h3 i),
    fun i => elem _ _ i (Host.reduce_andi_all _ _ _ _ _ h7 i)⟩

end Cert.Finite

end
-- ==== Proof.lean ====
/-
  The certificate of the basis-point-set encoder with its dense network: the three programs run and keep their
  arguments, and at the ideal instance (floats extended reals, every operation exact) the idealized kernel and the
  idealized reference end with equal results on finite inputs.

  The result of either program is a pure function of the 24 argument arrays. Both compute first the feature array
  (entry (b, p): the distance from basis point p to the nearest point of cloud b) and then a dense network of five
  layers and six batch normalisations. The kernel takes the minimum over the points before adding |basis_p|² and
  clamping at 0, the reference after: on finite inputs every quantity is a real, an added constant and a monotone clamp
  commute with a minimum, and the two feature arrays agree. The network is the same composition of stages in two
  spellings, equal stage by stage with no condition on the inputs. The ideal pass rewrote nothing, so there is nothing
  to preserve.
-/
import proofs.«165364_j46282567582129_2_alg».proof.Defs
import proofs.«165364_j46282567582129_2_alg».proof.Proof.Gen.Kernel
import proofs.«165364_j46282567582129_2_alg».proof.Proof.Gen.Kernel.Frame
import proofs.«165364_j46282567582129_2_alg».proof.Proof.Gen.KernelIdeal
import proofs.«165364_j46282567582129_2_alg».proof.Proof.Gen.KernelIdeal.Frame
import proofs.«165364_j46282567582129_2_alg».proof.Proof.Gen.ReferenceIdeal
import proofs.«165364_j46282567582129_2_alg».proof.Proof.Gen.Pre_finite_inputs
import proofs.«165364_j46282567582129_2_alg».proof.Proof.KRun
import proofs.«165364_j46282567582129_2_alg».proof.Proof.RefRun
import proofs.«165364_j46282567582129_2_alg».proof.Proof.OutEq
import proofs.«165364_j46282567582129_2_alg».proof.Proof.FeatEq
import proofs.«165364_j46282567582129_2_alg».proof.Proof.Finite
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its run with the result forgotten. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation: nothing to preserve. -/
theorem preserves : Cert.preserves_Kernel_KernelIdeal := trivial

/-- From memories agreeing on the arguments, the arguments finite, both idealized programs end with the kernel's
    result function of the arguments: the kernel by its run, the reference by its run and the equality of the two
    result functions on finite point clouds and basis points. -/
theorem algebraic : Cert.algebraic_KernelIdeal_ReferenceIdeal := by
  intro m ρ m' ρ' hpre hagree
  refine ⟨fun c => Cert.KernelIdeal.KDefs.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    Cert.KernelIdeal.KRun.run (F := Ideal) m ρ, ?_⟩
  refine (θ_run Cert.ReferenceIdeal.defs _ _).mono (fun _ h c => ⟨(h c).1.trans ?_, (h c).2⟩) (Cert.ReferenceIdeal.RefRun.run m' ρ')
  obtain ⟨e0, e1, e2, e3, e4, e5, e6, e7, e8, e9, e10, e11, e12, e13, e14, e15, e16, e17, e18, e19, e20, e21, e22, e23⟩ := hagree c
  rw [e0, e1, e2, e3, e4, e5, e6, e7, e8, e9, e10, e11, e12, e13, e14, e15, e16, e17, e18, e19, e20, e21, e22, e23]
  obtain ⟨fx, fb⟩ := Cert.Finite.finite_of_pre _ _ _ _ _ _ _ _ _ _ _ _ _ _ _ _ _ _ _ _ _ _ _ _ (hpre c)
  exact (Cert.OutEq.out_eq_of_feat _ _ _ _ _ _ _ _ _ _ _ _ _ _ _ _ _ _ _ _ _ _ _ _ (Cert.FeatEq.feat_eq _ _ fx fb)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
